-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S16384x26 : Shape := ⟨2, ![16384, 26]⟩
abbrev S100000x128 : Shape := ⟨2, ![100000, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S16384x26 : S_.BroadcastsInDim S16384x26 (![] : Fin 0 → Fin S16384x26.rank)
  reducesTo_S16384x26_S_d0_1 : S16384x26.ReducesTo [0, 1] S_

variable [Facts]

def fn {F : FTy → Type} [FloatOps F] (main_arg0 : IVec S16384x26 32) (main_arg1 : FVec F S100000x128 .f32) : IVec S_ 1 :=
  let main_v0 : FVec F S100000x128 .f32 := Host.absf main_arg1
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_c_0 : IVec S_ 32 := constantI S_ 32 0#32
  let main_v4 : IVec S16384x26 32 := broadcastInDim S16384x26 ![] bcast_S_S16384x26 main_c_0
  let main_v5 : IVec S16384x26 1 := cmpi .sge main_arg0 main_v4
  let main_c_1 : IVec S_ 32 := constantI S_ 32 99999#32
  let main_v6 : IVec S16384x26 32 := broadcastInDim S16384x26 ![] bcast_S_S16384x26 main_c_1
  let main_v7 : IVec S16384x26 1 := cmpi .sle main_arg0 main_v6
  let main_v8 : IVec S16384x26 1 := andi main_v5 main_v7
  let main_c_2 : IVec S_ 1 := constantI S_ 1 1#1
  let main_v9 : IVec S_ 1 := (fun x v => Host.reduce IntOp.andi x v reducesTo_S16384x26_S_d0_1 h_S_) main_v8 main_c_2
  let main_v10 : IVec S_ 1 := andi main_v3 main_v9
  main_v10
-- ==== Kernel.lean ====
abbrev S16384x26 : Shape := ⟨2, ![16384, 26]⟩
abbrev S100000x128 : Shape := ⟨2, ![100000, 128]⟩
abbrev S32x104x128 : Shape := ⟨3, ![32, 104, 128]⟩
abbrev S425984x128 : Shape := ⟨2, ![425984, 128]⟩
abbrev S104x128 : Shape := ⟨2, ![104, 128]⟩
abbrev S128x128 : Shape := ⟨2, ![128, 128]⟩
abbrev S_ : Shape := ⟨0, ![]⟩
abbrev S1x104x128 : Shape := ⟨3, ![1, 104, 128]⟩
abbrev S1x128 : Shape := ⟨2, ![1, 128]⟩
abbrev S128 : Shape := ⟨1, ![128]⟩
abbrev S16384x26x128 : Shape := ⟨3, ![16384, 26, 128]⟩

abbrev nBuf : Table → Nat
  | .hbm => 5
  | .local .scVector .vmem => 5
  | _ => 0

abbrev bufTy : (tb : Table) → Fin (nBuf tb) → BufTy
  | .hbm, ⟨0, _⟩ => ⟨S16384x26, .i32⟩
  | .hbm, ⟨1, _⟩ => ⟨S100000x128, .f32⟩
  | .hbm, ⟨2, _⟩ => ⟨S32x104x128, .i32⟩
  | .hbm, ⟨3, _⟩ => ⟨S425984x128, .f32⟩
  | .hbm, ⟨4, _⟩ => ⟨S16384x26x128, .f32⟩
  | .local .scVector .vmem, ⟨0, _⟩ => ⟨S104x128, .i32⟩
  | .local .scVector .vmem, ⟨1, _⟩ => ⟨S128x128, .f32⟩
  | .local .scVector .vmem, ⟨2, _⟩ => ⟨S128x128, .f32⟩
  | .local .scVector .vmem, ⟨3, _⟩ => ⟨S128x128, .f32⟩
  | .local .scVector .vmem, ⟨4, _⟩ => ⟨S128x128, .f32⟩
  | _, _ => ⟨S16384x26, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 9 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | _ => false

abbrev sig : RefSig :=
  ofTables nBuf rfl bufTy 4 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v0_scv : Ref sig .scVector := ⟨.hbm, 2, rfl⟩
abbrev main_arg1_scv : Ref sig .scVector := ⟨.hbm, 1, rfl⟩
abbrev main_v1_scv : Ref sig .scVector := ⟨.hbm, 3, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_24_r0 : BitVec 32 := 0#32
  let c0_i32_25_r0 : BitVec 32 := 0#32
  ![v1.toNat, 0, 0]
@[reducible] def k0_t1_loop : Scf.Loop 32 :=
  let c0_i32_13 : BitVec 32 := 0#32
  let c26_i32 : BitVec 32 := 26#32
  let v15 : BitVec 32 := Scalar.addi c0_i32_13 c26_i32
  let c1_i32_14 : BitVec 32 := 1#32
  ⟨c0_i32_13, v15, c1_i32_14⟩
def k0_off2 (k0_t1 : Fin k0_t1_loop.trips) (c0_i32_25 : BitVec 32) : Fin 2 → Nat :=
  let c0_i32_24 : BitVec 32 := 0#32
  let c0_i32_13 : BitVec 32 := 0#32
  let c1_i32_14 : BitVec 32 := 1#32
  let arg18 : BitVec 32 := Scf.iv c0_i32_13 c1_i32_14 k0_t1
  let c4_i32 : BitVec 32 := 4#32
  let v24 : BitVec 32 := Scalar.muli arg18 c4_i32
  let v25 : BitVec 32 := Scalar.addi c0_i32_24 v24
  let v26 : BitVec 32 := Scalar.addi v25 c0_i32_25
  let c0_i32_26 : BitVec 32 := 0#32
  ![v26.toNat, 0]
def k0_off3 (i : grid0.Coords) (k0_t1 : Fin k0_t1_loop.trips) (c0_i32_25 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c13312_i32 : BitVec 32 := 13312#32
  let v2 : BitVec 32 := Scalar.muli v1 c13312_i32
  let c0_i32_24 : BitVec 32 := 0#32
  let c0_i32_13 : BitVec 32 := 0#32
  let c1_i32_14 : BitVec 32 := 1#32
  let arg18 : BitVec 32 := Scf.iv c0_i32_13 c1_i32_14 k0_t1
  let c4_i32 : BitVec 32 := 4#32
  let v24 : BitVec 32 := Scalar.muli arg18 c4_i32
  let v25 : BitVec 32 := Scalar.addi c0_i32_24 v24
  let v26 : BitVec 32 := Scalar.addi v25 c0_i32_25
  let c128_i32 : BitVec 32 := 128#32
  let v27 : BitVec 32 := Scalar.muli v26 c128_i32
  let v28 : BitVec 32 := Scalar.addi v2 v27
  let c0_i32_29 : BitVec 32 := 0#32
  ![v28.toNat, 0]
def k0_cond1 (k0_t1 : Fin k0_t1_loop.trips) : BitVec 1 :=
  let c0_i32_24 : BitVec 32 := 0#32
  let c0_i32_13 : BitVec 32 := 0#32
  let c1_i32_14 : BitVec 32 := 1#32
  let arg18 : BitVec 32 := Scf.iv c0_i32_13 c1_i32_14 k0_t1
  let c4_i32 : BitVec 32 := 4#32
  let v24 : BitVec 32 := Scalar.muli arg18 c4_i32
  let v25 : BitVec 32 := Scalar.addi c0_i32_24 v24
  let c0_i32_25 : BitVec 32 := 0#32
  let v26 : BitVec 32 := Scalar.addi v25 c0_i32_25
  let c100_i32 : BitVec 32 := 100#32
  let v34 : BitVec 1 := Scalar.cmpi .slt v26 c100_i32
  let v35 : BitVec 32 := Scalar.extui v34
  let c0_i32_31 : BitVec 32 := 0#32
  let v36 : BitVec 1 := Scalar.cmpi .ne v35 c0_i32_31
  v36

def k0_off4 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c13312_i32 : BitVec 32 := 13312#32
  let v2 : BitVec 32 := Scalar.muli v1 c13312_i32
  let c0_i32_24 : BitVec 32 := 0#32
  let c0_i32_13 : BitVec 32 := 0#32
  let c1_i32_14 : BitVec 32 := 1#32
  let arg18 : BitVec 32 := Scf.iv c0_i32_13 c1_i32_14 k0_t1
  let c4_i32 : BitVec 32 := 4#32
  let v24 : BitVec 32 := Scalar.muli arg18 c4_i32
  let v25 : BitVec 32 := Scalar.addi c0_i32_24 v24
  let c0_i32_25 : BitVec 32 := 0#32
  let v26 : BitVec 32 := Scalar.addi v25 c0_i32_25
  let c128_i32 : BitVec 32 := 128#32
  let v27 : BitVec 32 := Scalar.muli v26 c128_i32
  let v28 : BitVec 32 := Scalar.addi v2 v27
  let c0_i32_59 : BitVec 32 := 0#32
  ![v28.toNat, 0]
def k0_off5 (k0_t1 : Fin k0_t1_loop.trips) : Fin 2 → Nat :=
  let c0_i32_24 : BitVec 32 := 0#32
  let c0_i32_13 : BitVec 32 := 0#32
  let c1_i32_14 : BitVec 32 := 1#32
  let arg18 : BitVec 32 := Scf.iv c0_i32_13 c1_i32_14 k0_t1
  let c4_i32 : BitVec 32 := 4#32
  let v24 : BitVec 32 := Scalar.muli arg18 c4_i32
  let v25 : BitVec 32 := Scalar.addi c0_i32_24 v24
  let c0_i32_25 : BitVec 32 := 0#32
  let v26 : BitVec 32 := Scalar.addi v25 c0_i32_25
  let c4_i32_61 : BitVec 32 := 4#32
  let v72 : BitVec 32 := Scalar.addi v26 c4_i32_61
  let c0_i32_62 : BitVec 32 := 0#32
  ![v72.toNat, 0]
def k0_cond2 (k0_t1 : Fin k0_t1_loop.trips) : BitVec 1 :=
  let c0_i32_24 : BitVec 32 := 0#32
  let c0_i32_13 : BitVec 32 := 0#32
  let c1_i32_14 : BitVec 32 := 1#32
  let arg18 : BitVec 32 := Scf.iv c0_i32_13 c1_i32_14 k0_t1
  let c4_i32 : BitVec 32 := 4#32
  let v24 : BitVec 32 := Scalar.muli arg18 c4_i32
  let v25 : BitVec 32 := Scalar.addi c0_i32_24 v24
  let c1_i32_32 : BitVec 32 := 1#32
  let v37 : BitVec 32 := Scalar.addi v25 c1_i32_32
  let c100_i32_39 : BitVec 32 := 100#32
  let v45 : BitVec 1 := Scalar.cmpi .slt v37 c100_i32_39
  let v46 : BitVec 32 := Scalar.extui v45
  let c0_i32_40 : BitVec 32 := 0#32
  let v47 : BitVec 1 := Scalar.cmpi .ne v46 c0_i32_40
  v47

def k0_off6 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c13312_i32 : BitVec 32 := 13312#32
  let v2 : BitVec 32 := Scalar.muli v1 c13312_i32
  let c0_i32_24 : BitVec 32 := 0#32
  let c0_i32_13 : BitVec 32 := 0#32
  let c1_i32_14 : BitVec 32 := 1#32
  let arg18 : BitVec 32 := Scf.iv c0_i32_13 c1_i32_14 k0_t1
  let c4_i32 : BitVec 32 := 4#32
  let v24 : BitVec 32 := Scalar.muli arg18 c4_i32
  let v25 : BitVec 32 := Scalar.addi c0_i32_24 v24
  let c1_i32_32 : BitVec 32 := 1#32
  let v37 : BitVec 32 := Scalar.addi v25 c1_i32_32
  let c128_i32_33 : BitVec 32 := 128#32
  let v38 : BitVec 32 := Scalar.muli v37 c128_i32_33
  let v39 : BitVec 32 := Scalar.addi v2 v38
  let c0_i32_59 : BitVec 32 := 0#32
  ![v39.toNat, 0]
def k0_off7 (k0_t1 : Fin k0_t1_loop.trips) : Fin 2 → Nat :=
  let c0_i32_24 : BitVec 32 := 0#32
  let c0_i32_13 : BitVec 32 := 0#32
  let c1_i32_14 : BitVec 32 := 1#32
  let arg18 : BitVec 32 := Scf.iv c0_i32_13 c1_i32_14 k0_t1
  let c4_i32 : BitVec 32 := 4#32
  let v24 : BitVec 32 := Scalar.muli arg18 c4_i32
  let v25 : BitVec 32 := Scalar.addi c0_i32_24 v24
  let c1_i32_32 : BitVec 32 := 1#32
  let v37 : BitVec 32 := Scalar.addi v25 c1_i32_32
  let c4_i32_61 : BitVec 32 := 4#32
  let v72 : BitVec 32 := Scalar.addi v37 c4_i32_61
  let c0_i32_62 : BitVec 32 := 0#32
  ![v72.toNat, 0]
def k0_cond3 (k0_t1 : Fin k0_t1_loop.trips) : BitVec 1 :=
  let c0_i32_24 : BitVec 32 := 0#32
  let c0_i32_13 : BitVec 32 := 0#32
  let c1_i32_14 : BitVec 32 := 1#32
  let arg18 : BitVec 32 := Scf.iv c0_i32_13 c1_i32_14 k0_t1
  let c4_i32 : BitVec 32 := 4#32
  let v24 : BitVec 32 := Scalar.muli arg18 c4_i32
  let v25 : BitVec 32 := Scalar.addi c0_i32_24 v24
  let c2_i32_41 : BitVec 32 := 2#32
  let v48 : BitVec 32 := Scalar.addi v25 c2_i32_41
  let c100_i32_48 : BitVec 32 := 100#32
  let v56 : BitVec 1 := Scalar.cmpi .slt v48 c100_i32_48
  let v57 : BitVec 32 := Scalar.extui v56
  let c0_i32_49 : BitVec 32 := 0#32
  let v58 : BitVec 1 := Scalar.cmpi .ne v57 c0_i32_49
  v58

def k0_off8 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c13312_i32 : BitVec 32 := 13312#32
  let v2 : BitVec 32 := Scalar.muli v1 c13312_i32
  let c0_i32_24 : BitVec 32 := 0#32
  let c0_i32_13 : BitVec 32 := 0#32
  let c1_i32_14 : BitVec 32 := 1#32
  let arg18 : BitVec 32 := Scf.iv c0_i32_13 c1_i32_14 k0_t1
  let c4_i32 : BitVec 32 := 4#32
  let v24 : BitVec 32 := Scalar.muli arg18 c4_i32
  let v25 : BitVec 32 := Scalar.addi c0_i32_24 v24
  let c2_i32_41 : BitVec 32 := 2#32
  let v48 : BitVec 32 := Scalar.addi v25 c2_i32_41
  let c128_i32_42 : BitVec 32 := 128#32
  let v49 : BitVec 32 := Scalar.muli v48 c128_i32_42
  let v50 : BitVec 32 := Scalar.addi v2 v49
  let c0_i32_59 : BitVec 32 := 0#32
  ![v50.toNat, 0]
def k0_off9 (k0_t1 : Fin k0_t1_loop.trips) : Fin 2 → Nat :=
  let c0_i32_24 : BitVec 32 := 0#32
  let c0_i32_13 : BitVec 32 := 0#32
  let c1_i32_14 : BitVec 32 := 1#32
  let arg18 : BitVec 32 := Scf.iv c0_i32_13 c1_i32_14 k0_t1
  let c4_i32 : BitVec 32 := 4#32
  let v24 : BitVec 32 := Scalar.muli arg18 c4_i32
  let v25 : BitVec 32 := Scalar.addi c0_i32_24 v24
  let c2_i32_41 : BitVec 32 := 2#32
  let v48 : BitVec 32 := Scalar.addi v25 c2_i32_41
  let c4_i32_61 : BitVec 32 := 4#32
  let v72 : BitVec 32 := Scalar.addi v48 c4_i32_61
  let c0_i32_62 : BitVec 32 := 0#32
  ![v72.toNat, 0]
def k0_cond4 (k0_t1 : Fin k0_t1_loop.trips) : BitVec 1 :=
  let c0_i32_24 : BitVec 32 := 0#32
  let c0_i32_13 : BitVec 32 := 0#32
  let c1_i32_14 : BitVec 32 := 1#32
  let arg18 : BitVec 32 := Scf.iv c0_i32_13 c1_i32_14 k0_t1
  let c4_i32 : BitVec 32 := 4#32
  let v24 : BitVec 32 := Scalar.muli arg18 c4_i32
  let v25 : BitVec 32 := Scalar.addi c0_i32_24 v24
  let c3_i32_50 : BitVec 32 := 3#32
  let v59 : BitVec 32 := Scalar.addi v25 c3_i32_50
  let c100_i32_57 : BitVec 32 := 100#32
  let v67 : BitVec 1 := Scalar.cmpi .slt v59 c100_i32_57
  let v68 : BitVec 32 := Scalar.extui v67
  let c0_i32_58 : BitVec 32 := 0#32
  let v69 : BitVec 1 := Scalar.cmpi .ne v68 c0_i32_58
  v69

def k0_off10 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c13312_i32 : BitVec 32 := 13312#32
  let v2 : BitVec 32 := Scalar.muli v1 c13312_i32
  let c0_i32_24 : BitVec 32 := 0#32
  let c0_i32_13 : BitVec 32 := 0#32
  let c1_i32_14 : BitVec 32 := 1#32
  let arg18 : BitVec 32 := Scf.iv c0_i32_13 c1_i32_14 k0_t1
  let c4_i32 : BitVec 32 := 4#32
  let v24 : BitVec 32 := Scalar.muli arg18 c4_i32
  let v25 : BitVec 32 := Scalar.addi c0_i32_24 v24
  let c3_i32_50 : BitVec 32 := 3#32
  let v59 : BitVec 32 := Scalar.addi v25 c3_i32_50
  let c128_i32_51 : BitVec 32 := 128#32
  let v60 : BitVec 32 := Scalar.muli v59 c128_i32_51
  let v61 : BitVec 32 := Scalar.addi v2 v60
  let c0_i32_59 : BitVec 32 := 0#32
  ![v61.toNat, 0]
def k0_off11 (k0_t1 : Fin k0_t1_loop.trips) : Fin 2 → Nat :=
  let c0_i32_24 : BitVec 32 := 0#32
  let c0_i32_13 : BitVec 32 := 0#32
  let c1_i32_14 : BitVec 32 := 1#32
  let arg18 : BitVec 32 := Scf.iv c0_i32_13 c1_i32_14 k0_t1
  let c4_i32 : BitVec 32 := 4#32
  let v24 : BitVec 32 := Scalar.muli arg18 c4_i32
  let v25 : BitVec 32 := Scalar.addi c0_i32_24 v24
  let c3_i32_50 : BitVec 32 := 3#32
  let v59 : BitVec 32 := Scalar.addi v25 c3_i32_50
  let c4_i32_61 : BitVec 32 := 4#32
  let v72 : BitVec 32 := Scalar.addi v59 c4_i32_61
  let c0_i32_62 : BitVec 32 := 0#32
  ![v72.toNat, 0]
def k0_off12 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c13312_i32 : BitVec 32 := 13312#32
  let v2 : BitVec 32 := Scalar.muli v1 c13312_i32
  let c0_i32_16 : BitVec 32 := 0#32
  ![v2.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  shapeCasts_S16384x26_S32x104x128 : S16384x26.ShapeCasts S32x104x128
  squeezes_S1x104x128_S104x128 : S1x104x128.Squeezes S104x128
  inb_S104x128_S1x128_0_0 : ∀ a, (![0, 0] : Fin 2 → Nat) a + S1x128.size a ≤ S104x128.size a
  squeezes_S1x128_S128 : S1x128.Squeezes S128
  inb_S100000x128_S100000x128_0_0 : ∀ a, (![0, 0] : Fin 2 → Nat) a + S100000x128.size a ≤ S100000x128.size a
  gathers_S100000x128_S128x128 : S100000x128.Gathers 0 S128x128
  inb_S104x128_S1x128_1_0 : ∀ a, (![1, 0] : Fin 2 → Nat) a + S1x128.size a ≤ S104x128.size a
  inb_S104x128_S1x128_2_0 : ∀ a, (![2, 0] : Fin 2 → Nat) a + S1x128.size a ≤ S104x128.size a
  inb_S104x128_S1x128_3_0 : ∀ a, (![3, 0] : Fin 2 → Nat) a + S1x128.size a ≤ S104x128.size a
  shapeCasts_S425984x128_S16384x26x128 : S425984x128.ShapeCasts S16384x26x128
  hcc0_scratch5 : 0 + S_.numel ≤ 9
  hcc0_scratch6 : 1 + S_.numel ≤ 9
  hcc0_scratch7 : 2 + S_.numel ≤ 9
  hcc0_scratch8 : 3 + S_.numel ≤ 9
  hcc0_scratch9 : 4 + S_.numel ≤ 9
  hcc0_scratch10 : 5 + S_.numel ≤ 9
  hcc0_scratch11 : 6 + S_.numel ≤ 9
  hcc0_scratch12 : 7 + S_.numel ≤ 9
  hcc0_scoped0 : 8 + S_.numel ≤ 9
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S1x104x128.size a ≤ S32x104x128.size a
  k0_t1_ok : k0_t1_loop.OK
  k0_off2_inb : ∀ k0_t1 : Fin k0_t1_loop.trips, ∀ (r : Fin 4), ∀ a, (k0_off2 k0_t1 (BitVec.ofNat 32 r.val)) a + S1x128.size a ≤ S104x128.size a
  k0_off3_inb : ∀ (i : grid0.Coords) (k0_t1 : Fin k0_t1_loop.trips), ∀ (r : Fin 4), ∀ a, (k0_off3 i k0_t1 (BitVec.ofNat 32 r.val)) a + S128x128.size a ≤ S425984x128.size a
  k0_off4_inb : ∀ (i : grid0.Coords) (k0_t1 : Fin k0_t1_loop.trips), ∀ (k0_h1 : k0_cond1 k0_t1 = 1#1), ∀ a, (k0_off4 i k0_t1) a + S128x128.size a ≤ S425984x128.size a
  k0_off5_inb : ∀ k0_t1 : Fin k0_t1_loop.trips, ∀ (k0_h1 : k0_cond1 k0_t1 = 1#1), ∀ a, (k0_off5 k0_t1) a + S1x128.size a ≤ S104x128.size a
  k0_off6_inb : ∀ (i : grid0.Coords) (k0_t1 : Fin k0_t1_loop.trips), ∀ (k0_h2 : k0_cond2 k0_t1 = 1#1), ∀ a, (k0_off6 i k0_t1) a + S128x128.size a ≤ S425984x128.size a
  k0_off7_inb : ∀ k0_t1 : Fin k0_t1_loop.trips, ∀ (k0_h2 : k0_cond2 k0_t1 = 1#1), ∀ a, (k0_off7 k0_t1) a + S1x128.size a ≤ S104x128.size a
  k0_off8_inb : ∀ (i : grid0.Coords) (k0_t1 : Fin k0_t1_loop.trips), ∀ (k0_h3 : k0_cond3 k0_t1 = 1#1), ∀ a, (k0_off8 i k0_t1) a + S128x128.size a ≤ S425984x128.size a
  k0_off9_inb : ∀ k0_t1 : Fin k0_t1_loop.trips, ∀ (k0_h3 : k0_cond3 k0_t1 = 1#1), ∀ a, (k0_off9 k0_t1) a + S1x128.size a ≤ S104x128.size a
  k0_off10_inb : ∀ (i : grid0.Coords) (k0_t1 : Fin k0_t1_loop.trips), ∀ (k0_h4 : k0_cond4 k0_t1 = 1#1), ∀ a, (k0_off10 i k0_t1) a + S128x128.size a ≤ S425984x128.size a
  k0_off11_inb : ∀ k0_t1 : Fin k0_t1_loop.trips, ∀ (k0_h4 : k0_cond4 k0_t1 = 1#1), ∀ a, (k0_off11 k0_t1) a + S1x128.size a ≤ S104x128.size a
  k0_off12_inb : ∀ i : grid0.Coords, ∀ a, (k0_off12 i) a + S128x128.size a ≤ S425984x128.size a

variable [Facts₀]

abbrev cc0_scratch5 : DmaSems sig S_ := SemArray.consecutive 0 S_ hcc0_scratch5
abbrev cc0_scratch6 : DmaSems sig S_ := SemArray.consecutive 1 S_ hcc0_scratch6
abbrev cc0_scratch7 : DmaSems sig S_ := SemArray.consecutive 2 S_ hcc0_scratch7
abbrev cc0_scratch8 : DmaSems sig S_ := SemArray.consecutive 3 S_ hcc0_scratch8
abbrev cc0_scratch9 : DmaSems sig S_ := SemArray.consecutive 4 S_ hcc0_scratch9
abbrev cc0_scratch10 : DmaSems sig S_ := SemArray.consecutive 5 S_ hcc0_scratch10
abbrev cc0_scratch11 : DmaSems sig S_ := SemArray.consecutive 6 S_ hcc0_scratch11
abbrev cc0_scratch12 : DmaSems sig S_ := SemArray.consecutive 7 S_ hcc0_scratch12
abbrev cc0_scoped0 : DmaSems sig S_ := SemArray.consecutive 8 S_ hcc0_scoped0

class Facts : Prop extends Facts₀ where

variable [Facts]
-- ==== ReferenceIdeal.lean ====
abbrev S16384x26 : Shape := ⟨2, ![16384, 26]⟩
abbrev S100000x128 : Shape := ⟨2, ![100000, 128]⟩
abbrev S_ : Shape := ⟨0, ![]⟩
abbrev S16384x26x1 : Shape := ⟨3, ![16384, 26, 1]⟩
abbrev S1 : Shape := ⟨1, ![1]⟩
abbrev S1x1x1 : Shape := ⟨3, ![1, 1, 1]⟩
abbrev S16384x26x128 : Shape := ⟨3, ![16384, 26, 128]⟩

abbrev nBuf : Space → Nat
  | .hbm => 25
  | .vmem => 0
  | .smem => 0
  | _ => 0

abbrev bufTy : (tb : Table) → Fin (tcTables nBuf tb) → BufTy
  | .hbm, ⟨0, _⟩ => ⟨S16384x26, .i32⟩
  | .hbm, ⟨1, _⟩ => ⟨S100000x128, .f32⟩
  | .hbm, ⟨2, _⟩ => ⟨S_, .i32⟩
  | .hbm, ⟨3, _⟩ => ⟨S16384x26, .i32⟩
  | .hbm, ⟨4, _⟩ => ⟨S16384x26, .i1⟩
  | .hbm, ⟨5, _⟩ => ⟨S_, .i32⟩
  | .hbm, ⟨6, _⟩ => ⟨S16384x26, .i32⟩
  | .hbm, ⟨7, _⟩ => ⟨S16384x26, .i32⟩
  | .hbm, ⟨8, _⟩ => ⟨S16384x26, .i32⟩
  | .hbm, ⟨9, _⟩ => ⟨S16384x26x1, .i32⟩
  | .hbm, ⟨10, _⟩ => ⟨S1, .i32⟩
  | .hbm, ⟨11, _⟩ => ⟨S_, .i32⟩
  | .hbm, ⟨12, _⟩ => ⟨S16384x26x1, .i32⟩
  | .hbm, ⟨13, _⟩ => ⟨S16384x26x1, .i1⟩
  | .hbm, ⟨14, _⟩ => ⟨S1x1x1, .i32⟩
  | .hbm, ⟨15, _⟩ => ⟨S16384x26x1, .i32⟩
  | .hbm, ⟨16, _⟩ => ⟨S16384x26x1, .i1⟩
  | .hbm, ⟨17, _⟩ => ⟨S16384x26x1, .i1⟩
  | .hbm, ⟨18, _⟩ => ⟨S_, .i1⟩
  | .hbm, ⟨19, _⟩ => ⟨S16384x26, .i1⟩
  | .hbm, ⟨20, _⟩ => ⟨S16384x26x128, .f32⟩
  | .hbm, ⟨21, _⟩ => ⟨S16384x26x128, .i1⟩
  | .hbm, ⟨22, _⟩ => ⟨S_, .f32⟩
  | .hbm, ⟨23, _⟩ => ⟨S16384x26x128, .f32⟩
  | .hbm, ⟨24, _⟩ => ⟨S16384x26x128, .f32⟩
  | _, _ => ⟨S16384x26, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩

abbrev nD : Nat := 1
abbrev τ : Topo := Topo.v7x

variable {F : FTy → Type} [FloatOps F]

class Facts₀ : Prop where
  bcast_S_S16384x26 : S_.BroadcastsInDim S16384x26 (![] : Fin 0 → Fin S16384x26.rank)
  bcast_S16384x26_S16384x26x1_0_1 : S16384x26.BroadcastsInDim S16384x26x1 (![0, 1] : Fin 2 → Fin S16384x26x1.rank)
  bcast_S_S16384x26x1 : S_.BroadcastsInDim S16384x26x1 (![] : Fin 0 → Fin S16384x26x1.rank)
  bcast_S1_S1x1x1_2 : S1.BroadcastsInDim S1x1x1 (![2] : Fin 1 → Fin S1x1x1.rank)
  bcast_S1x1x1_S16384x26x1_0_1_2 : S1x1x1.BroadcastsInDim S16384x26x1 (![0, 1, 2] : Fin 3 → Fin S16384x26x1.rank)
  reducesTo_S16384x26x1_S16384x26_d2 : S16384x26x1.ReducesTo [2] S16384x26
  h_S_ : 0 < S_.numel
  bcast_S16384x26_S16384x26x128_0_1 : S16384x26.BroadcastsInDim S16384x26x128 (![0, 1] : Fin 2 → Fin S16384x26x128.rank)
  bcast_S_S16384x26x128 : S_.BroadcastsInDim S16384x26x128 (![] : Fin 0 → Fin S16384x26x128.rank)
  gather_S100000x128_S16384x26x1_S16384x26x128_2_0_n_n_0_2_1128_wf : GatherDims.WF S100000x128 S16384x26x1 S16384x26x128 [2] [0] [] [0] [] 2 ![1, 128]

variable [Facts₀]

def gather_S100000x128_S16384x26x1_S16384x26x128_2_0_n_n_0_2_1128 : GatherDims S100000x128 S16384x26x1 S16384x26x128 where
  offsetDims := [2]
  collapsedSliceDims := [0]
  operandBatchingDims := []
  startIndicesBatchingDims := []
  startIndexMap := [0]
  indexVectorDim := 2
  sliceSizes := ![1, 128]
  wf := gather_S100000x128_S16384x26x1_S16384x26x128_2_0_n_n_0_2_1128_wf

class Facts : Prop extends Facts₀ where

variable [Facts]
-- ==== Proof.Spec.lean ====
/-
  The specification both programs are compared with: the embedding lookup as ONE function of the two argument
  arrays. Entry (b, f, k) of the result is entry k of the table's row number x[b, f], the index word read as a
  natural number. (The row number is reduced modulo the table's height only to make the function total: where
  every index is below the height — `InRange` — the reduction changes nothing.)
-/
import Idealize.ShloMosaic.PureOps.Ideal
import Idealize.ShloMosaic.Lib.ValueIdx

namespace Cert.Spec

open Idealize.ShloMosaic Idealize.ShloMosaic.ValueIdx

/-- The index array, the table, the result. -/
abbrev SX : Shape := ⟨2, ![16384, 26]⟩
abbrev ST : Shape := ⟨2, ![100000, 128]⟩
abbrev SO : Shape := ⟨3, ![16384, 26, 128]⟩

/-- Row `x[b, f]` of the table at position `(b, f)`: `lookup x t (b, f, k) = t (x[b, f], k)`. -/
def lookup {α : Type} (x : SX.Idx → BitVec 32) (t : ST.Idx → α) : SO.Idx → α :=
  fun i => t (ix2 (n0 := 100000) (n1 := 128) ⟨(x (ix2 (n0 := 16384) (n1 := 26) (i 0) (i 1))).toNat % 100000, Nat.mod_lt _ (by decide)⟩ (i 2))

/-- Every index names a row of the table. -/
def InRange (x : SX.Idx → BitVec 32) : Prop := ∀ j, (x j).toNat < 100000

theorem lookup_apply {α : Type} (x : SX.Idx → BitVec 32) (t : ST.Idx → α) (hx : InRange x) (b : Fin 16384) (f : Fin 26) (k : Fin 128) :
    lookup x t (ix3 b f k) = t (ix2 ⟨(x (ix2 b f)).toNat, hx _⟩ k) := by
  unfold lookup
  congr 1
  funext a
  match a with
  | ⟨0, _⟩ => exact Fin.ext (Nat.mod_eq_of_lt (hx _))
  | ⟨1, _⟩ => rfl

end Cert.Spec
-- ==== Proof.PreRange.lean ====
/-
  The precondition's index conjunct, decoded: where the printed domain predicate evaluates to the bit 1, every
  index word is at least 0 and at most 99999 read as a signed integer, hence below 100000 read as a natural number.
-/
import proofs.«204381_g2808908611931_cont_9to1_1564_4_alg».proof.Pre_input_domain
import proofs.«204381_g2808908611931_cont_9to1_1564_4_alg».proof.Proof.Gen.Pre_input_domain
import proofs.«204381_g2808908611931_cont_9to1_1564_4_alg».proof.Proof.Spec
import Idealize.ShloMosaic.Lib.ReduceAll
import Idealize.ShloMosaic.Lib.ValueIdx

namespace Cert.Proof.PreRange

open Idealize.ShloMosaic

/-- The scalar shape has one index. -/
instance : Subsingleton Cert.Pre_input_domain.S_.Idx := ⟨fun a b => funext fun d => d.elim0⟩

/-- A 32-bit word that is at least 0 and at most 99999 as a signed integer is below 100000 as a natural number. -/
theorem toNat_lt_of_signed (v : BitVec 32) (h0 : (0#32 : BitVec 32).toInt ≤ v.toInt) (h1 : v.toInt ≤ (99999#32 : BitVec 32).toInt) :
    v.toNat < 100000 := by
  rw [show (0#32 : BitVec 32).toInt = 0 from by decide] at h0
  rw [show (99999#32 : BitVec 32).toInt = 99999 from by decide] at h1
  rw [BitVec.toInt_eq_toNat_cond] at h0 h1
  have := v.isLt
  split at h0 <;> omega

/-- The domain predicate holding gives every index in range. -/
theorem inRange_of_fn {F : FTy → Type} [FloatOps F] [Cert.Pre_input_domain.Facts]
    (x : IVec Cert.Pre_input_domain.S16384x26 32) (t : FVec F Cert.Pre_input_domain.S100000x128 .f32)
    (h : Cert.Pre_input_domain.fn (F := F) x t = fun _ => 1#1) : Cert.Spec.InRange x := by
  intro j
  have h0 := congrFun h ValueIdx.ix0
  dsimp only [Cert.Pre_input_domain.fn] at h0
  obtain ⟨-, h9⟩ := IntOp.andi_eq_one.1 h0
  have h8 := Host.reduce_andi_all _ _ _ _ _ h9 j
  obtain ⟨hge, hle⟩ := IntOp.andi_eq_one.1 h8
  exact toNat_lt_of_signed (x j) (IntOp.cmpi_sge.1 hge) (IntOp.cmpi_sle.1 hle)

end Cert.Proof.PreRange
-- ==== Proof.RefTerm.lean ====
/-
  The reference's value as ONE function of the two argument arrays, and that function read at an index.
  The reference is `take(table, x, axis = 0)` in fill mode: an index below zero is moved up by the table's
  height; the moved index is tested for lying in [0, 99999]; the table's row at the moved index (read signed and
  clamped into the table, as a gather clamps every start index) is selected where the test holds, a NaN constant
  elsewhere. Where every index word is below the table's height read as a natural number, no index is moved, the
  test holds everywhere, the clamp and the signed reading change nothing, and the value is the plain row lookup
  of the specification.
-/
import proofs.«204381_g2808908611931_cont_9to1_1564_4_alg».proof.ReferenceIdeal
import proofs.«204381_g2808908611931_cont_9to1_1564_4_alg».proof.Proof.Spec
import Idealize.ShloMosaic.Lib.ReduceAll
import Idealize.ShloMosaic.Lib.ValueIdx
import Idealize.ShloMosaic.Lib.Pipeline.Value

noncomputable section

namespace Cert.Proof.Ref

open Cert.ReferenceIdeal Idealize.ShloMosaic Idealize.ShloMosaic.ValueIdx

/-! ## Words -/

section Words

variable {v : BitVec 32}

/-- A word below 100000 reads the same signed and unsigned. -/
theorem toInt_of_lt (h : v.toNat < 100000) : v.toInt = (v.toNat : Int) :=
  BitVec.toInt_eq_toNat_of_lt (by omega)

/-- It is not below zero as a signed integer, -/
theorem slt_zero_of_lt (h : v.toNat < 100000) : IntOp.cmpi .slt v 0#32 = 0#1 :=
  eq_zero_of_ne_one fun h1 => by
    have h2 := IntOp.cmpi_slt.1 h1
    rw [toInt_of_lt h, show (0#32 : BitVec 32).toInt = 0 from by decide] at h2
    omega

/-- it is at least zero, -/
theorem sge_zero_of_lt (h : v.toNat < 100000) : IntOp.cmpi .sge v 0#32 = 1#1 :=
  IntOp.cmpi_sge.2 (by rw [toInt_of_lt h, show (0#32 : BitVec 32).toInt = 0 from by decide]; omega)

/-- and at most 99999. -/
theorem sle_max_of_lt (h : v.toNat < 100000) : IntOp.cmpi .sle v 99999#32 = 1#1 :=
  IntOp.cmpi_sle.2 (by rw [toInt_of_lt h, show (99999#32 : BitVec 32).toInt = 99999 from by decide]; omega)

/-- Read signed and clamped into [0, 99999] it is itself. -/
theorem clamp_of_lt (h : v.toNat < 100000) : min v.toInt.toNat 99999 = v.toNat := by
  rw [toInt_of_lt h, Int.toNat_natCast]; omega

end Words

/-! ## A reduction by `and` of ones -/

/-- A left fold by `and` from 1 over words that are all 1 is 1. -/
theorem foldl_andi_one {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a List.mem_cons_self, show IntOp.andi 1#1 1#1 = 1#1 from by decide]
    exact foldl_andi_one f l fun n hn => h n (List.mem_cons_of_mem _ hn)

/-- A reduce by `and` from 1 of an array of ones is 1 at every result index. -/
theorem reduce_andi_of_all_one {s t u : Shape} {axes : List (Fin s.rank)} (x : s.Idx → BitVec 1) (init : u.Idx → BitVec 1)
    (h : s.ReducesTo axes t) (hu : 0 < u.numel) (hx : ∀ i, x i = 1#1) (hi : init (Shape.Idx.first hu) = 1#1) (j : t.Idx) :
    Host.reduce IntOp.andi x init h hu j = 1#1 := by
  rw [Host.reduce_eq_foldl, hi]
  exact foldl_andi_one x _ fun n _ => hx n

/-! ## The reference's terms -/

variable [hR : Cert.ReferenceIdeal.Facts]
open Facts₀

local notation "gD" => gather_S100000x128_S16384x26x1_S16384x26x128_2_0_n_n_0_2_1128

/-- The index array after the wrap of negative indices: `x + 100000` where `x < 0`, else `x`. -/
def idxW (x : IVec S16384x26 32) : IVec S16384x26 32 :=
  select (cmpi .slt x (broadcastInDim S16384x26 ![] bcast_S_S16384x26 (constantI S_ 32 0#32)))
    (addi x (broadcastInDim S16384x26 ![] bcast_S_S16384x26 (constantI S_ 32 100000#32))) x

/-- The same with a trailing unit axis: the gather's start indices. -/
def idx3 (x : IVec S16384x26 32) : IVec S16384x26x1 32 :=
  broadcastInDim S16384x26x1 ![0, 1] bcast_S16384x26_S16384x26x1_0_1 (idxW x)

/-- The test `0 ≤ index ≤ 99999`, signed, at every start index. -/
def mask3 (x : IVec S16384x26 32) : IVec S16384x26x1 1 :=
  andi (cmpi .sge (idx3 x) (broadcastInDim S16384x26x1 ![] bcast_S_S16384x26x1 (constantI S_ 32 0#32)))
    (cmpi .sle (idx3 x) (broadcastInDim S16384x26x1 ![0, 1, 2] bcast_S1x1x1_S16384x26x1_0_1_2
      (broadcastInDim S1x1x1 ![2] bcast_S1_S1x1x1_2 (constantI S1 32 99999#32))))

/-- The test reduced by `and` over the unit axis. -/
def mask2 (x : IVec S16384x26 32) : IVec S16384x26 1 :=
  Host.reduce IntOp.andi (mask3 x) (constantI S_ 1 1#1) reducesTo_S16384x26x1_S16384x26_d2 h_S_

variable {F : FTy → Type} [FloatOps F]

/-- The reference's result: the gathered rows where the test holds, the NaN constant elsewhere. -/
def refTerm (x : IVec S16384x26 32) (t : FVec F S100000x128 .f32) : FVec F S16384x26x128 .f32 :=
  select (broadcastInDim S16384x26x128 ![0, 1] bcast_S16384x26_S16384x26x128_0_1 (mask2 x))
    (Host.gather gD t (idx3 x))
    (broadcastInDim S16384x26x128 ![] bcast_S_S16384x26x128 (constant S_ .f32 0x7FC00000#32))

/-! ## The terms at an index, every index in range -/

/-- No index is wrapped. -/
theorem idxW_apply (x : IVec S16384x26 32) (hx : Cert.Spec.InRange x) (j : S16384x26.Idx) : idxW x j = x j := by
  show Scalar.select (IntOp.cmpi .slt (x j) 0#32) _ _ = _
  rw [slt_zero_of_lt (hx j), select_zero]

/-- The start index at `(b, f, 0)` is `x[b, f]`. -/
theorem idx3_apply (x : IVec S16384x26 32) (hx : Cert.Spec.InRange x) (i : S16384x26x1.Idx) :
    idx3 x i = x (ix2 (n0 := 16384) (n1 := 26) (i 0) (i 1)) := by
  unfold idx3
  rw [broadcastInDim_apply _ _ _ i (ix2 (n0 := 16384) (n1 := 26) (i 0) (i 1))
    (fun a => match a with | ⟨0, _⟩ => rfl | ⟨1, _⟩ => rfl), idxW_apply x hx]

/-- The test holds at every start index. -/
theorem mask3_apply (x : IVec S16384x26 32) (hx : Cert.Spec.InRange x) (i : S16384x26x1.Idx) : mask3 x i = 1#1 := by
  show IntOp.andi (IntOp.cmpi .sge (idx3 x i) 0#32) (IntOp.cmpi .sle (idx3 x i) 99999#32) = 1#1
  rw [idx3_apply x hx, sge_zero_of_lt (hx _), sle_max_of_lt (hx _)]
  decide

/-- So does its reduction. -/
theorem mask2_apply (x : IVec S16384x26 32) (hx : Cert.Spec.InRange x) (j : S16384x26.Idx) : mask2 x j = 1#1 :=
  reduce_andi_of_all_one _ _ _ _ (mask3_apply x hx) rfl j

/-- THE GATHER READ AT `(b, f, k)`: the operand's row at the start index `idx[b, f, 0]`, read signed and clamped into
    `[0, 99999]`, at column `k`. -/
theorem gather_rows_apply {α : Type} (t : S100000x128.Idx → α) (idx : IVec S16384x26x1 32) (b : Fin 16384) (f : Fin 26)
    (k : Fin 128) (r : Fin 100000) (hr : min (idx (ix3 b f (0 : Fin 1))).toInt.toNat 99999 = r.val) :
    Host.gather gD t idx (ix3 b f k) = t (ix2 r k) := by
  unfold Host.gather
  congr 1
  funext a
  refine Fin.ext ?_
  match a with
  | ⟨0, _⟩ =>
    show GatherDims.start gD (ix3 b f k) idx 0 + GatherDims.batchCoord gD (ix3 b f k) 0 + GatherDims.offCoord gD (ix3 b f k) 0 = r.val
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ GatherDims.startIndexMap gD from List.mem_singleton.mpr rfl)]
    have hsi : GatherDims.siIdx gD (ix3 b f k) ⟨List.idxOf (0 : Fin 2) (GatherDims.startIndexMap gD),
        List.idxOf_lt_length_iff.2 (List.mem_singleton.mpr rfl)⟩ = ix3 b f (0 : Fin 1) := by
      funext c; refine Fin.ext ?_
      match c with
      | ⟨0, _⟩ => rfl
      | ⟨1, _⟩ => rfl
      | ⟨2, _⟩ => rfl
    rw [hsi]
    exact hr
  | ⟨1, _⟩ =>
    show GatherDims.start gD (ix3 b f k) idx 1 + GatherDims.batchCoord gD (ix3 b f k) 1 + GatherDims.offCoord gD (ix3 b f k) 1 = k.val
    rw [GatherDims.batchCoord_eq_zero _ _ _ List.not_mem_nil]
    have hs : GatherDims.start gD (ix3 b f k) idx 1 = 0 := by
      unfold GatherDims.start
      rw [dif_neg (show (1 : Fin 2) ∉ GatherDims.startIndexMap gD from fun h => absurd (List.mem_singleton.mp h) (by decide))]
    have ho : GatherDims.offCoord gD (ix3 b f k) 1 = k.val := by
      unfold GatherDims.offCoord
      rw [dif_pos (show (1 : Fin 2) ∈ GatherDims.sKept gD from (GatherDims.mem_sKept gD 1).2
        ⟨fun h => absurd (List.mem_singleton.mp h) (by decide), List.not_mem_nil⟩)]
      rfl
    rw [hs, ho]
    omega

/-- THE REFERENCE'S VALUE, every index in range: the specification's lookup. -/
theorem refTerm_eq_lookup (x : IVec S16384x26 32) (t : FVec F S100000x128 .f32) (hx : Cert.Spec.InRange x) :
    refTerm x t = Cert.Spec.lookup x t := by
  funext i
  obtain ⟨b, f, k, rfl⟩ : ∃ (b : Fin 16384) (f : Fin 26) (k : Fin 128), i = ix3 b f k := ⟨i 0, i 1, i 2, eq_ix3 i⟩
  rw [Cert.Spec.lookup_apply x t hx]
  unfold refTerm
  rw [select_apply, broadcastInDim_apply _ _ _ (ix3 b f k) (ix2 b f) (fun a => match a with | ⟨0, _⟩ => rfl | ⟨1, _⟩ => rfl),
    mask2_apply x hx, select_one]
  exact gather_rows_apply t (idx3 x) b f k ⟨(x (ix2 b f)).toNat, hx _⟩
    (by rw [idx3_apply x hx]; exact clamp_of_lt (hx _))

end Cert.Proof.Ref

end
-- ==== Proof.RefOps.lean ====
/-
  The reference's @main as a straight line of host operations, and what the line leaves in the result and argument
  buffers. @main is one call of `take`, which calls `where` once; with the two functions' bodies substituted at
  their calls it is twenty-three host operations over the call's buffers. The fold of their results over any
  contents is, at the result buffer, the reference's value as one function of the two argument buffers' contents;
  the argument buffers are written by no operation.
-/
import proofs.«204381_g2808908611931_cont_9to1_1564_4_alg».proof.ReferenceIdeal
import proofs.«204381_g2808908611931_cont_9to1_1564_4_alg».proof.Proof.RefTerm
import Idealize.ShloMosaic.Lib.StableHlo.Run

noncomputable section

namespace Cert.Proof.Ref

open Cert.ReferenceIdeal Idealize.ShloMosaic Idealize.ShloMosaic.TcCoe Idealize.SL.Sem Idealize.ShloMosaic.StableHlo

variable [hR : Cert.ReferenceIdeal.Facts]
open Facts₀

variable {F : FTy → Type} [FloatOps F]

/-- @main's twenty-three operations in order, the two calls unfolded: `take`'s six up to its call of `where`,
    `where`'s select into that call's buffer, `take`'s sixteen after it. -/
abbrev ops : List (HloOp τ sig (Elt F)) :=
  [ TRef.nullary main_call0.c (constantI S_ 32 0#32),
    TRef.unary main_call0.c main_call0.v0 (broadcastInDim S16384x26 ![] bcast_S_S16384x26),
    TRef.binary (.of main_arg0) main_call0.v0 main_call0.v1 (cmpi .slt),
    TRef.nullary main_call0.c_0 (constantI S_ 32 100000#32),
    TRef.unary main_call0.c_0 main_call0.v2 (broadcastInDim S16384x26 ![] bcast_S_S16384x26),
    TRef.binary (.of main_arg0) main_call0.v2 main_call0.v3 addi,
    TRef.ternary main_call0.v1 main_call0.v3 (.of main_arg0) main_call0.call0.v0 select,
    TRef.unary main_call0.call0.v0 main_call0.v5 (broadcastInDim S16384x26x1 ![0, 1] bcast_S16384x26_S16384x26x1_0_1),
    TRef.nullary main_call0.c_1 (constantI S1 32 99999#32),
    TRef.nullary main_call0.c_2 (constantI S_ 32 0#32),
    TRef.unary main_call0.c_2 main_call0.v6 (broadcastInDim S16384x26x1 ![] bcast_S_S16384x26x1),
    TRef.binary main_call0.v5 main_call0.v6 main_call0.v7 (cmpi .sge),
    TRef.unary main_call0.c_1 main_call0.v8 (broadcastInDim S1x1x1 ![2] bcast_S1_S1x1x1_2),
    TRef.unary main_call0.v8 main_call0.v9 (broadcastInDim S16384x26x1 ![0, 1, 2] bcast_S1x1x1_S16384x26x1_0_1_2),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S16384x26x1_S16384x26_d2 h_S_),
    TRef.binary (.of main_arg1) main_call0.v5 main_call0.v13 (fun x i => Host.gather gather_S100000x128_S16384x26x1_S16384x26x128_2_0_n_n_0_2_1128 x i),
    TRef.unary main_call0.v12 main_call0.v14 (broadcastInDim S16384x26x128 ![0, 1] bcast_S16384x26_S16384x26x128_0_1),
    TRef.nullary main_call0.cst (constant S_ .f32 0x7FC00000#32),
    TRef.unary main_call0.cst main_call0.v15 (broadcastInDim S16384x26x128 ![] bcast_S_S16384x26x128),
    TRef.ternary main_call0.v14 main_call0.v13 main_call0.v15 main_call0.v16 select ]

set_option maxRecDepth 1024 in
/-- @main is that straight line: the two functions' definitions unfolded at their calls, both sides are one chain
    of host steps once sequencing is reassociated. -/
theorem main_eq (c : Dev nD) : main (F := F) c = seq ops := by
  simp only [main, fn_take.body, fn_where.body, seq, bind_assoc, pure_bind]

attribute [local irreducible] Host.reduce Host.gather in
set_option maxRecDepth 8192 in
/-- The fold at the result buffer is the reference's value of the two argument buffers' contents: each operation's
    result is read at its own buffer as its function's value and at any other buffer as what was there; the typed
    references' casts are the identity at these literal references. The reduction and the gather are kept folded
    meanwhile: the equation never looks inside them. -/
theorem out_eq (V : Valuation τ sig (Elt F)) :
    after ops V (main_v0 : DevRef τ sig) = refTerm (V (main_arg0 : DevRef τ sig)) (V (main_arg1 : DevRef τ sig)) := by
  after_results_simp
  unfold refTerm mask2 mask3 idx3 idxW
  rfl

/-- No operation writes the index array's buffer, -/
theorem arg0_eq (V : Valuation τ sig (Elt F)) : after ops V (main_arg0 : DevRef τ sig) = V (main_arg0 : DevRef τ sig) := by
  simp only [after_cons, after_nil]
  rfl

/-- nor the table's. -/
theorem arg1_eq (V : Valuation τ sig (Elt F)) : after ops V (main_arg1 : DevRef τ sig) = V (main_arg1 : DevRef τ sig) := by
  simp only [after_cons, after_nil]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..⟩

end Cert.Proof.Ref

end
-- ==== Proof.RefRun.lean ====
/-
  The reference's run. Its @main is a straight line of host operations (the two module-local functions'
  bodies substituted at their calls), so every weakly fair execution terminates with each buffer at the operations'
  fold over the launch contents; at the result buffer that fold is the reference's value of the two argument arrays,
  which is the specification's lookup where every index is in range, and the argument buffers keep their contents.
  The certificate's precondition puts every index in range.
-/
import proofs.«204381_g2808908611931_cont_9to1_1564_4_alg».proof.Defs
import proofs.«204381_g2808908611931_cont_9to1_1564_4_alg».proof.Proof.Gen.ReferenceIdeal
import proofs.«204381_g2808908611931_cont_9to1_1564_4_alg».proof.Proof.Spec
import proofs.«204381_g2808908611931_cont_9to1_1564_4_alg».proof.Proof.PreRange
import proofs.«204381_g2808908611931_cont_9to1_1564_4_alg».proof.Proof.RefTerm
import proofs.«204381_g2808908611931_cont_9to1_1564_4_alg».proof.Proof.RefOps
import Idealize.ShloMosaic.Lib.StableHlo.Run
import Idealize.ShloMosaic.Lib.ValueIdx

noncomputable section

namespace Cert.Proof.Ref

open Cert.ReferenceIdeal Idealize.ShloMosaic Idealize.ShloMosaic.TcCoe Idealize.SL.Sem Idealize.ShloMosaic.StableHlo

variable [hR : Cert.ReferenceIdeal.Facts]

/-- On every device, for any float values, from any memory with zero counters whose index array is in range: every
    weakly fair execution of @main terminates with the result buffer at the specification's lookup of the two
    argument arrays' launch contents, and the argument buffers unchanged. -/
theorem run_any {F : FTy → Type} [FloatOps F] (m' : (ℓ : Loc nD τ sig) → Buf (Elt F) ℓ) (g' : Dev nD → PrngReg)
    (hx : ∀ c : Dev nD, Cert.Spec.InRange (m' ((c.tc : Thread nD τ).loc main_arg0))) :
    θ_run (defs (F := F)) (onTc (τ := τ) (main (F := F))) ⟨m', fun _ => 0, g'⟩ (fun r => ∀ c : Dev nD,
      r.2.mem ((c.tc : Thread nD τ).loc main_v0) = Cert.Spec.lookup (m' ((c.tc : Thread nD τ).loc main_arg0)) (m' ((c.tc : Thread nD τ).loc main_arg1))
      ∧ r.2.mem ((c.tc : Thread nD τ).loc main_arg0) = m' ((c.tc : Thread nD τ).loc main_arg0)
      ∧ r.2.mem ((c.tc : Thread nD τ).loc main_arg1) = m' ((c.tc : Thread nD τ).loc main_arg1)) :=
  (θ_run defs _ _).mono (fun _ h c => ⟨((h c main_v0).trans (out_eq _)).trans (refTerm_eq_lookup _ _ (hx c)),
      (h c main_arg0).trans (arg0_eq _), (h c main_arg1).trans (arg1_eq _)⟩)
    (run_seq scopedRefs_eq scopedSems_eq defs main (fun _ => ops) main_eq (fun _ => ops_sub) m' g')

/-- The same at the ideal instance, spelt as the certificate's claim spells the reference's run. -/
theorem run (m' : (ℓ : Loc Cert.ReferenceIdeal.nD Cert.ReferenceIdeal.τ Cert.ReferenceIdeal.sig) → Buf (Elt Ideal) ℓ) (g' : Dev Cert.ReferenceIdeal.nD → PrngReg)
    (hx : ∀ c : Dev Cert.ReferenceIdeal.nD, Cert.Spec.InRange (m' ((c.tc : Thread Cert.ReferenceIdeal.nD Cert.ReferenceIdeal.τ).loc Cert.ReferenceIdeal.main_arg0))) :
    θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
      r.2.mem ((c.tc : Thread Cert.ReferenceIdeal.nD Cert.ReferenceIdeal.τ).loc Cert.ReferenceIdeal.main_v0) = Cert.Spec.lookup (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1))
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)) :=
  run_any (F := Ideal) m' g' hx

/-- The certificate's precondition on the reference's memory puts every index in range, on every device. -/
theorem inRange_of_pre [Cert.Pre_input_domain.Facts]
    (m' : (ℓ : Loc Cert.ReferenceIdeal.nD Cert.ReferenceIdeal.τ Cert.ReferenceIdeal.sig) → Buf (Elt Ideal) ℓ) (h : Cert.Pre_ReferenceIdeal m') :
    ∀ c : Dev Cert.ReferenceIdeal.nD, Cert.Spec.InRange (m' ((c.tc : Thread Cert.ReferenceIdeal.nD Cert.ReferenceIdeal.τ).loc Cert.ReferenceIdeal.main_arg0)) :=
  fun c => Cert.Proof.PreRange.inRange_of_fn _ _ (h c)

end Cert.Proof.Ref

end
-- ==== Proof.IdealBase.lean ====
/-
  The embedding-lookup kernel as the launch theorem sees it: the program's configuration, the ghost state (the
  handshakes' rounds beside the local transfers' counters), the arrays and scratch buffers of one vector subcore,
  and the row ranges of the output array each subcore and each chunk owns.
-/
import proofs.«204381_g2808908611931_cont_9to1_1564_4_alg».proof.KernelIdeal
import proofs.«204381_g2808908611931_cont_9to1_1564_4_alg».proof.Proof.Gen.KernelIdeal
import proofs.«204381_g2808908611931_cont_9to1_1564_4_alg».proof.Proof.Gen.KernelIdeal.Skeleton
import proofs.«204381_g2808908611931_cont_9to1_1564_4_alg».proof.Proof.Spec
import Idealize.ShloMosaic.Lib.SparseCore.Launch
import Idealize.ShloMosaic.Lib.SparseCore.Stream
import Idealize.ShloMosaic.Lib.StableHlo.Run
import Idealize.ShloMosaic.Lib.Pipeline.Kit
import Idealize.ShloMosaic.Lib.Tactic

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

abbrev EH : Emb UH (MT nD τ sig (HIx 1) (Elt F) ℕ UU ℕ) := embL

end Cert.Proof.KI

end
-- ==== Proof.IdealGeom.lean ====
/-
  Row ranges of a rank-2 array, as sets of indices: the rows numbered lo ≤ r < hi. A range splits at any point in
  between into two disjoint ranges; a rectangle of whole rows is the range of its rows. Over them the output array
  is divided among the vector subcores (13312 rows each) and, inside a subcore's rows, among its chunks of 128.
-/
import proofs.«204381_g2808908611931_cont_9to1_1564_4_alg».proof.Proof.IdealBase

noncomputable section

namespace Cert.Proof.KI

open Cert.KernelIdeal Cert.KernelIdeal.Gen

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (SparseCore.Cfg.HIx 1) (Elt F) ℕ UU ℕ

/-- The rows `lo ≤ r < hi` of a rank-2 array. -/
def rowsOf {n0 n1 : Nat} (lo hi : Nat) : Finset ((⟨2, ![n0, n1]⟩ : Shape).Idx) :=
  Finset.univ.filter fun x => lo ≤ (x 0).val ∧ (x 0).val < hi

theorem mem_rowsOf {n0 n1 : Nat} {lo hi : Nat} {x : (⟨2, ![n0, n1]⟩ : Shape).Idx} :
    x ∈ rowsOf lo hi ↔ lo ≤ (x 0).val ∧ (x 0).val < hi := by
  unfold rowsOf; rw [Finset.mem_filter]; exact ⟨fun h => h.2, fun h => ⟨Finset.mem_univ _, h⟩⟩

theorem rowsOf_union {n0 n1 : Nat} {a b c : Nat} (hab : a ≤ b) (hbc : b ≤ c) :
    (rowsOf a c : Finset ((⟨2, ![n0, n1]⟩ : Shape).Idx)) = rowsOf a b ∪ rowsOf b c := by
  ext x; rw [Finset.mem_union, mem_rowsOf, mem_rowsOf, mem_rowsOf]; omega

theorem rowsOf_disjoint {n0 n1 : Nat} (a b c : Nat) :
    Disjoint (rowsOf a b : Finset ((⟨2, ![n0, n1]⟩ : Shape).Idx)) (rowsOf b c) := by
  rw [Finset.disjoint_left]; intro x h1 h2; rw [mem_rowsOf] at h1 h2; omega

/-- All the rows. -/
theorem rowsOf_all {n0 n1 : Nat} : (rowsOf 0 n0 : Finset ((⟨2, ![n0, n1]⟩ : Shape).Idx)) = Finset.univ := by
  ext x; rw [mem_rowsOf]; exact ⟨fun _ => Finset.mem_univ _, fun _ => ⟨Nat.zero_le _, (x 0).isLt⟩⟩

/-- A rectangle of whole rows is the range of its rows. -/
theorem set_unit_rows {n0 n1 : Nat} {off size : Fin 2 → Nat} {inb} (h1 : off 1 = 0) (hs : size 1 = n1) :
    (Rect.unit (s := (⟨2, ![n0, n1]⟩ : Shape)) off size inb).set = rowsOf (off 0) (off 0 + size 0) := by
  ext x
  rw [Rect.mem_set_unit, mem_rowsOf]
  constructor
  · intro h; exact h 0
  · intro h a
    match a with
    | ⟨0, _⟩ => exact h
    | ⟨1, _⟩ =>
      refine ⟨?_, ?_⟩
      · show off 1 ≤ (x 1).val
        rw [h1]; exact Nat.zero_le _
      · show (x 1).val < off 1 + size 1
        rw [h1, hs, Nat.zero_add]; exact (x 1).isLt

end Cert.Proof.KI

end
-- ==== Proof.IdealTrip.lean ====
/-
  One vector subcore's loop over its chunks, trip by trip. Each of the four slots cycles: the gather of a chunk lands
  in the slot's buffer, the buffer is written back to the chunk's 128 rows of the output, and — while chunks remain —
  the write-back is awaited and the gather of the chunk four ahead is started into the same buffer. Before trip k the
  rows of chunks below 4k hold their final contents, the rows above their launch contents, and the gathers of chunks
  4k … 4k+3 are in flight; after the last trip the four last write-backs are.
-/
import proofs.«204381_g2808908611931_cont_9to1_1564_4_alg».proof.Proof.IdealGeom

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "aIdx" => (Memref.whole Cert.KernelIdeal.main_v0_scv : Memref Cert.KernelIdeal.sig Kind.scVector Space.hbm Cert.KernelIdeal.S32x104x128 EltTy.i32)
local notation "aTab" => (Memref.whole Cert.KernelIdeal.main_arg1_scv : Memref Cert.KernelIdeal.sig Kind.scVector Space.hbm Cert.KernelIdeal.S100000x128 EltTy.f32)
local notation "aOut" => (Memref.whole Cert.KernelIdeal.main_v1_scv : Memref Cert.KernelIdeal.sig Kind.scVector Space.hbm Cert.KernelIdeal.S425984x128 EltTy.f32)
local notation "sIdx" => (Memref.whole Cert.KernelIdeal.cc0_scratch0 : Memref Cert.KernelIdeal.sig Kind.scVector Space.vmem Cert.KernelIdeal.S104x128 EltTy.i32)
local notation "sB0" => (Memref.whole Cert.KernelIdeal.cc0_scratch1 : Memref Cert.KernelIdeal.sig Kind.scVector Space.vmem Cert.KernelIdeal.S128x128 EltTy.f32)
local notation "sB1" => (Memref.whole Cert.KernelIdeal.cc0_scratch2 : Memref Cert.KernelIdeal.sig Kind.scVector Space.vmem Cert.KernelIdeal.S128x128 EltTy.f32)
local notation "sB2" => (Memref.whole Cert.KernelIdeal.cc0_scratch3 : Memref Cert.KernelIdeal.sig Kind.scVector Space.vmem Cert.KernelIdeal.S128x128 EltTy.f32)
local notation "sB3" => (Memref.whole Cert.KernelIdeal.cc0_scratch4 : Memref Cert.KernelIdeal.sig Kind.scVector Space.vmem Cert.KernelIdeal.S128x128 EltTy.f32)

variable [FloatOps F]
variable (d : Dev nD) (L : grid0.Coords)

abbrev cV (L : grid0.Coords) : Fin τ.nSC := (L 0).castLE hcore0
abbrev jV (L : grid0.Coords) : Fin τ.nSub := (L 1).castLE hsub0
abbrev thr (d : Dev nD) (L : grid0.Coords) : Thread nD τ := V d (cV L) (jV L)

variable (O : CellTallies nD τ sig (HIx 1)) (W : Waits sig (HIx 1))
variable (qI : Nat → PosShare TreeShare) (qT : PosShare TreeShare)
variable (C : Buf (Elt F) ((sIdx).view.loc (thr d L))) (Tb : Buf (Elt F) ((aTab).view.loc (thr d L)))
variable (pay : Nat → Buf (Elt F) ((sB0).view.loc (thr d L)))
variable (G m0 : Buf (Elt F) ((aOut).view.loc (thr d L)))
variable (base : Nat)

omit [FloatOps F] in
/-- A range of rows of the output, held, is its two halves. -/
theorem out_split (f : Buf (Elt F) ((aOut).view.loc (thr d L))) {a b c : Nat} (hab : a ≤ b) (hbc : b ≤ c) :
    ((aOut).view.loc (thr d L) ↦[rowsOf (n0 := 425984) (n1 := 128) a c]{fullShare} f : sProp 𝕄)
      = iprop(((aOut).view.loc (thr d L) ↦[rowsOf (n0 := 425984) (n1 := 128) a b]{fullShare} f)
          ∗ ((aOut).view.loc (thr d L) ↦[rowsOf (n0 := 425984) (n1 := 128) b c]{fullShare} f)) := by
  rw [rowsOf_union hab hbc]
  exact BI.equiv_iff.mp ⟨(pointsTo_union (rowsOf_disjoint a b c)).1, (pointsTo_union (rowsOf_disjoint a b c)).2⟩

/-- A chunk of 128 whole rows of the output, as the program slices it. -/
abbrev chunkW (off : Fin 2 → Nat) (hb : ∀ a, off a + S128x128.size a ≤ S425984x128.size a) : Memref sig .scVector .hbm S128x128 .f32 :=
  (aOut).slice (Rect.unit (s := S425984x128) off S128x128.size hb) (fun _ => rfl)

omit [FloatOps F] in
theorem chunk_set' (off : Fin 2 → Nat) (hb) (h1 : off 1 = 0) :
    (chunkW off hb).view.set = rowsOf (n0 := 425984) (n1 := 128) (off 0) (off 0 + 128) := by
  show ((View.whole main_v1_scv).slice (Rect.unit (s := S425984x128) off S128x128.size hb)).set = _
  rw [View.set_slice_whole]
  exact set_unit_rows h1 rfl

omit [FloatOps F] in
/-- The chunk's rows held by range are the chunk held as the program's slice of the output. -/
theorem chunk_own (f : Buf (Elt F) ((aOut).view.loc (thr d L))) (off : Fin 2 → Nat) (hb) (h1 : off 1 = 0) {lo : Nat} (hlo : off 0 = lo) :
    ((aOut).view.loc (thr d L) ↦[rowsOf (n0 := 425984) (n1 := 128) lo (lo + 128)]{fullShare} f : sProp 𝕄)
      = ((chunkW off hb).view.loc (thr d L) ↦[(chunkW off hb).view.set]{fullShare} f) := by
  rw [chunk_set' off hb h1, hlo]

/-- A row of the list, as the program slices and squeezes it. -/
abbrev rowW (off : Fin 2 → Nat) (hb : ∀ a, off a + S1x128.size a ≤ S104x128.size a) : Memref sig .scVector .vmem S128 .i32 :=
  ((sIdx).slice (Rect.unit (s := S104x128) off S1x128.size hb) (fun _ => rfl)).squeeze S128 squeezes_S1x128_S128

omit [FloatOps F] in
theorem row_set' (off : Fin 2 → Nat) (hb) (h1 : off 1 = 0) :
    (rowW off hb).view.set = rowsOf (n0 := 104) (n1 := 128) (off 0) (off 0 + 1) := by
  show (((View.whole cc0_scratch0).slice (Rect.unit (s := S104x128) off S1x128.size hb)).reshape S128 squeezes_S1x128_S128.numel_eq).set = _
  rw [View.set_reshape, View.set_slice_whole]
  exact set_unit_rows h1 rfl

omit [FloatOps F] in
theorem off3_row (k : Fin k0_t1_loop.trips) (r : Fin 4) :
    k0_off3 L k (BitVec.ofNat 32 r.val) 0 = 26624 * (L 1).val + 13312 * (L 0).val + 512 * k.val + 128 * r.val :=
  congrFun (k0_off3_eq L k r) 0
omit [FloatOps F] in
theorem off3_col (k : Fin k0_t1_loop.trips) (r : Fin 4) : k0_off3 L k (BitVec.ofNat 32 r.val) 1 = 0 :=
  congrFun (k0_off3_eq L k r) 1

omit [FloatOps F] in
/-- The same rows, named by other expressions for their bounds. -/
theorem out_cast (f : Buf (Elt F) ((aOut).view.loc (thr d L))) {a b a' b' : Nat} (ha : a = a') (hb : b = b') :
    ((aOut).view.loc (thr d L) ↦[rowsOf (n0 := 425984) (n1 := 128) a b]{fullShare} f : sProp 𝕄)
      = ((aOut).view.loc (thr d L) ↦[rowsOf (n0 := 425984) (n1 := 128) a' b']{fullShare} f) := by
  rw [ha, hb]

omit [FloatOps F] in
/-- A row of the list held as the program's row slice is the row held by its number. -/
theorem row_own (q : PosShare TreeShare) (f : Buf (Elt F) ((sIdx).view.loc (thr d L))) (off : Fin 2 → Nat) (hb) (h1 : off 1 = 0) {j : Nat} (h0 : off 0 = j) :
    ((rowW off hb).view.loc (thr d L) ↦[(rowW off hb).view.set]{q} f : sProp 𝕄)
      = ((sIdx).view.loc (thr d L) ↦[rowsOf (n0 := 104) (n1 := 128) j (j + 1)]{q} f) := by
  rw [row_set' off hb h1, h0]

omit [FloatOps F] in
theorem row_rest (q : PosShare TreeShare) (f : Buf (Elt F) ((sIdx).view.loc (thr d L))) (off : Fin 2 → Nat) (hb) (h1 : off 1 = 0) {j : Nat} (h0 : off 0 = j) :
    ((rowW off hb).view.loc (thr d L) ↦[Finset.univ \ (rowW off hb).view.set]{q} f : sProp 𝕄)
      = ((sIdx).view.loc (thr d L) ↦[Finset.univ \ rowsOf (n0 := 104) (n1 := 128) j (j + 1)]{q} f) := by
  rw [row_set' off hb h1, h0]

/-- The table, whole, as the program slices it. -/
abbrev tabW : Memref sig .scVector .hbm S100000x128 .f32 :=
  (aTab).slice (Rect.unit (s := S100000x128) ![0, 0] S100000x128.size inb_S100000x128_S100000x128_0_0) (fun _ => rfl)

omit [FloatOps F] in
theorem tab_set' : (tabW).view.set = Finset.univ := by
  show ((View.whole main_arg1_scv).slice (Rect.unit (s := S100000x128) ![0, 0] S100000x128.size inb_S100000x128_S100000x128_0_0)).set = _
  rw [View.set_slice_whole, set_unit_rows (n0 := 100000) (n1 := 128) rfl rfl]
  exact rowsOf_all

omit [FloatOps F] in
/-- One more wait at no index keeps the recorded waits within the launch's and those at no index. -/
theorem waits_ins {W W' : Waits sig (HIx 1)} (sm : SemLoc sig) (h : ∀ p ∈ W', p ∈ W ∨ p.2 = none) :
    ∀ p ∈ insert (sm, (default : HIx 1)) W', p ∈ W ∨ p.2 = none := by
  intro p hp
  rcases Finset.mem_insert.mp hp with rfl | hp
  · exact .inr rfl
  · exact h p hp

omit [FloatOps F] in
/-- What slot 0's gather hands back, respelt: the buffer at the gathered rows `p`, the list's row by its number, the
    table's read share whole. -/
theorem gcanon0 (g p : Buf (Elt F) ((sB0).view.loc (thr d L))) (j : Nat) (off : Fin 2 → Nat) (hb) (h0 : off 0 = j) (h1 : off 1 = 0) (hp : p = pay j) :
    (iprop((((sB0).view.loc (thr d L) ↦{fullShare} (sB0).view.writes (Elt F) g [⟨Rect.whole _, p⟩])
          ∗ ((rowW off hb).view.loc (thr d L) ↦[(rowW off hb).view.set]{qI 0} C))
        ∗ ((aTab).view.loc (thr d L) ↦[(tabW).view.set]{Transfers.shareTokN qT 0} Tb)) : sProp 𝕄)
      ⊢ iprop((((sB0).view.loc (thr d L) ↦{fullShare} pay j) ∗ ((sIdx).view.loc (thr d L) ↦[rowsOf (n0 := 104) (n1 := 128) j (j + 1)]{qI 0} C))
        ∗ ((aTab).view.loc (thr d L) ↦{Transfers.shareTokN qT 0} Tb)) := by
  subst hp
  rw [row_own d L (qI 0) C off hb h1 h0, tab_set',
    show (sB0).view.writes (Elt F) g [⟨Rect.whole _, pay j⟩] = pay j from
      ((View.write_univ_eq_writes_whole (sB0).view g [] (pay j)).symm.trans (View.write_whole_univ _ _ _))]

omit [FloatOps F] in
/-- What slot 1's gather hands back, respelt: the buffer at the gathered rows `p`, the list's row by its number, the
    table's read share whole. -/
theorem gcanon1 (g p : Buf (Elt F) ((sB1).view.loc (thr d L))) (j : Nat) (off : Fin 2 → Nat) (hb) (h0 : off 0 = j) (h1 : off 1 = 0) (hp : p = pay j) :
    (iprop((((sB1).view.loc (thr d L) ↦{fullShare} (sB1).view.writes (Elt F) g [⟨Rect.whole _, p⟩])
          ∗ ((rowW off hb).view.loc (thr d L) ↦[(rowW off hb).view.set]{qI 1} C))
        ∗ ((aTab).view.loc (thr d L) ↦[(tabW).view.set]{Transfers.shareTokN qT 1} Tb)) : sProp 𝕄)
      ⊢ iprop((((sB1).view.loc (thr d L) ↦{fullShare} pay j) ∗ ((sIdx).view.loc (thr d L) ↦[rowsOf (n0 := 104) (n1 := 128) j (j + 1)]{qI 1} C))
        ∗ ((aTab).view.loc (thr d L) ↦{Transfers.shareTokN qT 1} Tb)) := by
  subst hp
  rw [row_own d L (qI 1) C off hb h1 h0, tab_set',
    show (sB1).view.writes (Elt F) g [⟨Rect.whole _, pay j⟩] = pay j from
      ((View.write_univ_eq_writes_whole (sB1).view g [] (pay j)).symm.trans (View.write_whole_univ _ _ _))]

omit [FloatOps F] in
/-- What slot 2's gather hands back, respelt: the buffer at the gathered rows `p`, the list's row by its number, the
    table's read share whole. -/
theorem gcanon2 (g p : Buf (Elt F) ((sB2).view.loc (thr d L))) (j : Nat) (off : Fin 2 → Nat) (hb) (h0 : off 0 = j) (h1 : off 1 = 0) (hp : p = pay j) :
    (iprop((((sB2).view.loc (thr d L) ↦{fullShare} (sB2).view.writes (Elt F) g [⟨Rect.whole _, p⟩])
          ∗ ((rowW off hb).view.loc (thr d L) ↦[(rowW off hb).view.set]{qI 2} C))
        ∗ ((aTab).view.loc (thr d L) ↦[(tabW).view.set]{Transfers.shareTokN qT 2} Tb)) : sProp 𝕄)
      ⊢ iprop((((sB2).view.loc (thr d L) ↦{fullShare} pay j) ∗ ((sIdx).view.loc (thr d L) ↦[rowsOf (n0 := 104) (n1 := 128) j (j + 1)]{qI 2} C))
        ∗ ((aTab).view.loc (thr d L) ↦{Transfers.shareTokN qT 2} Tb)) := by
  subst hp
  rw [row_own d L (qI 2) C off hb h1 h0, tab_set',
    show (sB2).view.writes (Elt F) g [⟨Rect.whole _, pay j⟩] = pay j from
      ((View.write_univ_eq_writes_whole (sB2).view g [] (pay j)).symm.trans (View.write_whole_univ _ _ _))]

omit [FloatOps F] in
/-- What slot 3's gather hands back, respelt: the buffer at the gathered rows `p`, the list's row by its number, the
    table's read share whole. -/
theorem gcanon3 (g p : Buf (Elt F) ((sB3).view.loc (thr d L))) (j : Nat) (off : Fin 2 → Nat) (hb) (h0 : off 0 = j) (h1 : off 1 = 0) (hp : p = pay j) :
    (iprop((((sB3).view.loc (thr d L) ↦{fullShare} (sB3).view.writes (Elt F) g [⟨Rect.whole _, p⟩])
          ∗ ((rowW off hb).view.loc (thr d L) ↦[(rowW off hb).view.set]{qI 3} C))
        ∗ ((aTab).view.loc (thr d L) ↦[(tabW).view.set]{Transfers.shareTokN qT 3} Tb)) : sProp 𝕄)
      ⊢ iprop((((sB3).view.loc (thr d L) ↦{fullShare} pay j) ∗ ((sIdx).view.loc (thr d L) ↦[rowsOf (n0 := 104) (n1 := 128) j (j + 1)]{qI 3} C))
        ∗ ((aTab).view.loc (thr d L) ↦{Transfers.shareTokN qT 3} Tb)) := by
  subst hp
  rw [row_own d L (qI 3) C off hb h1 h0, tab_set',
    show (sB3).view.writes (Elt F) g [⟨Rect.whole _, pay j⟩] = pay j from
      ((View.write_univ_eq_writes_whole (sB3).view g [] (pay j)).symm.trans (View.write_whole_univ _ _ _))]

omit [FloatOps F] in
/-- What slot 0's write-back hands back, respelt: the chunk's rows of the output at the final contents, the buffer whole. -/
theorem ccanon0 (f : Buf (Elt F) ((aOut).view.loc (thr d L))) (off : Fin 2 → Nat) (hb) (lo j j' : Nat) (h0 : off 0 = lo) (h1 : off 1 = 0)
    (hlo : lo = base + 128 * j) (hj : j' = j) (hf : ∀ x ∈ rowsOf (n0 := 425984) (n1 := 128) lo (lo + 128), f x = G x) :
    (iprop(((chunkW off hb).view.loc (thr d L) ↦[(chunkW off hb).view.set]{fullShare} f)
        ∗ ((sB0).view.loc (thr d L) ↦[(sB0).view.set]{fullShare} pay j')) : sProp 𝕄)
      ⊢ iprop(((aOut).view.loc (thr d L) ↦[rowsOf (n0 := 425984) (n1 := 128) (base + 128 * j) (base + 128 * j + 128)]{fullShare} G)
        ∗ ((sB0).view.loc (thr d L) ↦{fullShare} pay j)) := by
  subst hj hlo
  rw [← chunk_own d L f off hb h1 h0, pointsTo_congr hf, Memref.IsWhole.set_eq_univ (Memref.isWhole_whole _)]

omit [FloatOps F] in
/-- What slot 1's write-back hands back, respelt: the chunk's rows of the output at the final contents, the buffer whole. -/
theorem ccanon1 (f : Buf (Elt F) ((aOut).view.loc (thr d L))) (off : Fin 2 → Nat) (hb) (lo j j' : Nat) (h0 : off 0 = lo) (h1 : off 1 = 0)
    (hlo : lo = base + 128 * j) (hj : j' = j) (hf : ∀ x ∈ rowsOf (n0 := 425984) (n1 := 128) lo (lo + 128), f x = G x) :
    (iprop(((chunkW off hb).view.loc (thr d L) ↦[(chunkW off hb).view.set]{fullShare} f)
        ∗ ((sB1).view.loc (thr d L) ↦[(sB1).view.set]{fullShare} pay j')) : sProp 𝕄)
      ⊢ iprop(((aOut).view.loc (thr d L) ↦[rowsOf (n0 := 425984) (n1 := 128) (base + 128 * j) (base + 128 * j + 128)]{fullShare} G)
        ∗ ((sB1).view.loc (thr d L) ↦{fullShare} pay j)) := by
  subst hj hlo
  rw [← chunk_own d L f off hb h1 h0, pointsTo_congr hf, Memref.IsWhole.set_eq_univ (Memref.isWhole_whole _)]

omit [FloatOps F] in
/-- What slot 2's write-back hands back, respelt: the chunk's rows of the output at the final contents, the buffer whole. -/
theorem ccanon2 (f : Buf (Elt F) ((aOut).view.loc (thr d L))) (off : Fin 2 → Nat) (hb) (lo j j' : Nat) (h0 : off 0 = lo) (h1 : off 1 = 0)
    (hlo : lo = base + 128 * j) (hj : j' = j) (hf : ∀ x ∈ rowsOf (n0 := 425984) (n1 := 128) lo (lo + 128), f x = G x) :
    (iprop(((chunkW off hb).view.loc (thr d L) ↦[(chunkW off hb).view.set]{fullShare} f)
        ∗ ((sB2).view.loc (thr d L) ↦[(sB2).view.set]{fullShare} pay j')) : sProp 𝕄)
      ⊢ iprop(((aOut).view.loc (thr d L) ↦[rowsOf (n0 := 425984) (n1 := 128) (base + 128 * j) (base + 128 * j + 128)]{fullShare} G)
        ∗ ((sB2).view.loc (thr d L) ↦{fullShare} pay j)) := by
  subst hj hlo
  rw [← chunk_own d L f off hb h1 h0, pointsTo_congr hf, Memref.IsWhole.set_eq_univ (Memref.isWhole_whole _)]

omit [FloatOps F] in
/-- What slot 3's write-back hands back, respelt: the chunk's rows of the output at the final contents, the buffer whole. -/
theorem ccanon3 (f : Buf (Elt F) ((aOut).view.loc (thr d L))) (off : Fin 2 → Nat) (hb) (lo j j' : Nat) (h0 : off 0 = lo) (h1 : off 1 = 0)
    (hlo : lo = base + 128 * j) (hj : j' = j) (hf : ∀ x ∈ rowsOf (n0 := 425984) (n1 := 128) lo (lo + 128), f x = G x) :
    (iprop(((chunkW off hb).view.loc (thr d L) ↦[(chunkW off hb).view.set]{fullShare} f)
        ∗ ((sB3).view.loc (thr d L) ↦[(sB3).view.set]{fullShare} pay j')) : sProp 𝕄)
      ⊢ iprop(((aOut).view.loc (thr d L) ↦[rowsOf (n0 := 425984) (n1 := 128) (base + 128 * j) (base + 128 * j + 128)]{fullShare} G)
        ∗ ((sB3).view.loc (thr d L) ↦{fullShare} pay j)) := by
  subst hj hlo
  rw [← chunk_own d L f off hb h1 h0, pointsTo_congr hf, Memref.IsWhole.set_eq_univ (Memref.isWhole_whole _)]

/-- Slot 0 while the gather of chunk `j` flies: the flight hands back the buffer at the chunk's rows, the list's
    row and the table's read share; beside it the rest of the list's share and the write-back's counter at zero. -/
def slotG0 (j : Nat) : sProp 𝕄 :=
  iprop(Transfers.Flight countersEmb (thr d L) (SemLoc.dma cc0_scratch5.sem) default 524288
      iprop((((sB0).view.loc (thr d L) ↦{fullShare} pay j) ∗ ((sIdx).view.loc (thr d L) ↦[rowsOf (n0 := 104) (n1 := 128) j (j + 1)]{qI 0} C))
        ∗ ((aTab).view.loc (thr d L) ↦{Transfers.shareTokN qT 0} Tb))
    ∗ ((sIdx).view.loc (thr d L) ↦[Finset.univ \ rowsOf (n0 := 104) (n1 := 128) j (j + 1)]{qI 0} C)
    ∗ semVal (thr d L, SemLoc.dma cc0_scratch9.sem) 0)

/-- Slot 0 while the write-back of chunk `j` flies: the flight hands back the chunk's rows of the output at their
    final contents and the buffer; beside it the list's share, the table's read share, the gather's counter at zero. -/
def slotC0 (j : Nat) : sProp 𝕄 :=
  iprop(Transfers.Flight countersEmb (thr d L) (SemLoc.dma cc0_scratch9.sem) default 524288
      iprop(((aOut).view.loc (thr d L) ↦[rowsOf (n0 := 425984) (n1 := 128) (base + 128 * j) (base + 128 * j + 128)]{fullShare} G) ∗ ((sB0).view.loc (thr d L) ↦{fullShare} pay j))
    ∗ ((sIdx).view.loc (thr d L) ↦{qI 0} C)
    ∗ ((aTab).view.loc (thr d L) ↦{Transfers.shareTokN qT 0} Tb)
    ∗ semVal (thr d L, SemLoc.dma cc0_scratch5.sem) 0)

/-- Slot 1 while the gather of chunk `j` flies: the flight hands back the buffer at the chunk's rows, the list's
    row and the table's read share; beside it the rest of the list's share and the write-back's counter at zero. -/
def slotG1 (j : Nat) : sProp 𝕄 :=
  iprop(Transfers.Flight countersEmb (thr d L) (SemLoc.dma cc0_scratch6.sem) default 524288
      iprop((((sB1).view.loc (thr d L) ↦{fullShare} pay j) ∗ ((sIdx).view.loc (thr d L) ↦[rowsOf (n0 := 104) (n1 := 128) j (j + 1)]{qI 1} C))
        ∗ ((aTab).view.loc (thr d L) ↦{Transfers.shareTokN qT 1} Tb))
    ∗ ((sIdx).view.loc (thr d L) ↦[Finset.univ \ rowsOf (n0 := 104) (n1 := 128) j (j + 1)]{qI 1} C)
    ∗ semVal (thr d L, SemLoc.dma cc0_scratch10.sem) 0)

/-- Slot 1 while the write-back of chunk `j` flies: the flight hands back the chunk's rows of the output at their
    final contents and the buffer; beside it the list's share, the table's read share, the gather's counter at zero. -/
def slotC1 (j : Nat) : sProp 𝕄 :=
  iprop(Transfers.Flight countersEmb (thr d L) (SemLoc.dma cc0_scratch10.sem) default 524288
      iprop(((aOut).view.loc (thr d L) ↦[rowsOf (n0 := 425984) (n1 := 128) (base + 128 * j) (base + 128 * j + 128)]{fullShare} G) ∗ ((sB1).view.loc (thr d L) ↦{fullShare} pay j))
    ∗ ((sIdx).view.loc (thr d L) ↦{qI 1} C)
    ∗ ((aTab).view.loc (thr d L) ↦{Transfers.shareTokN qT 1} Tb)
    ∗ semVal (thr d L, SemLoc.dma cc0_scratch6.sem) 0)

/-- Slot 2 while the gather of chunk `j` flies: the flight hands back the buffer at the chunk's rows, the list's
    row and the table's read share; beside it the rest of the list's share and the write-back's counter at zero. -/
def slotG2 (j : Nat) : sProp 𝕄 :=
  iprop(Transfers.Flight countersEmb (thr d L) (SemLoc.dma cc0_scratch7.sem) default 524288
      iprop((((sB2).view.loc (thr d L) ↦{fullShare} pay j) ∗ ((sIdx).view.loc (thr d L) ↦[rowsOf (n0 := 104) (n1 := 128) j (j + 1)]{qI 2} C))
        ∗ ((aTab).view.loc (thr d L) ↦{Transfers.shareTokN qT 2} Tb))
    ∗ ((sIdx).view.loc (thr d L) ↦[Finset.univ \ rowsOf (n0 := 104) (n1 := 128) j (j + 1)]{qI 2} C)
    ∗ semVal (thr d L, SemLoc.dma cc0_scratch11.sem) 0)

/-- Slot 2 while the write-back of chunk `j` flies: the flight hands back the chunk's rows of the output at their
    final contents and the buffer; beside it the list's share, the table's read share, the gather's counter at zero. -/
def slotC2 (j : Nat) : sProp 𝕄 :=
  iprop(Transfers.Flight countersEmb (thr d L) (SemLoc.dma cc0_scratch11.sem) default 524288
      iprop(((aOut).view.loc (thr d L) ↦[rowsOf (n0 := 425984) (n1 := 128) (base + 128 * j) (base + 128 * j + 128)]{fullShare} G) ∗ ((sB2).view.loc (thr d L) ↦{fullShare} pay j))
    ∗ ((sIdx).view.loc (thr d L) ↦{qI 2} C)
    ∗ ((aTab).view.loc (thr d L) ↦{Transfers.shareTokN qT 2} Tb)
    ∗ semVal (thr d L, SemLoc.dma cc0_scratch7.sem) 0)

/-- Slot 3 while the gather of chunk `j` flies: the flight hands back the buffer at the chunk's rows, the list's
    row and the table's read share; beside it the rest of the list's share and the write-back's counter at zero. -/
def slotG3 (j : Nat) : sProp 𝕄 :=
  iprop(Transfers.Flight countersEmb (thr d L) (SemLoc.dma cc0_scratch8.sem) default 524288
      iprop((((sB3).view.loc (thr d L) ↦{fullShare} pay j) ∗ ((sIdx).view.loc (thr d L) ↦[rowsOf (n0 := 104) (n1 := 128) j (j + 1)]{qI 3} C))
        ∗ ((aTab).view.loc (thr d L) ↦{Transfers.shareTokN qT 3} Tb))
    ∗ ((sIdx).view.loc (thr d L) ↦[Finset.univ \ rowsOf (n0 := 104) (n1 := 128) j (j + 1)]{qI 3} C)
    ∗ semVal (thr d L, SemLoc.dma cc0_scratch12.sem) 0)

/-- Slot 3 while the write-back of chunk `j` flies: the flight hands back the chunk's rows of the output at their
    final contents and the buffer; beside it the list's share, the table's read share, the gather's counter at zero. -/
def slotC3 (j : Nat) : sProp 𝕄 :=
  iprop(Transfers.Flight countersEmb (thr d L) (SemLoc.dma cc0_scratch12.sem) default 524288
      iprop(((aOut).view.loc (thr d L) ↦[rowsOf (n0 := 425984) (n1 := 128) (base + 128 * j) (base + 128 * j + 128)]{fullShare} G) ∗ ((sB3).view.loc (thr d L) ↦{fullShare} pay j))
    ∗ ((sIdx).view.loc (thr d L) ↦{qI 3} C)
    ∗ ((aTab).view.loc (thr d L) ↦{Transfers.shareTokN qT 3} Tb)
    ∗ semVal (thr d L, SemLoc.dma cc0_scratch8.sem) 0)

/-- Before trip `k`: the rows of the subcore's part of the output written so far hold their final contents, the rows
    still to write their launch contents, and each of the four slots has its gather of chunk `4k + b` in flight —
    or, after the last trip, the write-back of its last chunk. -/
def loopInv (k : Nat) (_ : Unit) : sProp 𝕄 :=
  iprop(Transfers.MayWaits (thr d L) (none : HIx 1) O
    ∗ (∃ W', ⌜∀ p ∈ W', p ∈ W ∨ p.2 = none⌝ ∗ owes (thr d L) O W')
    ∗ (if k < 26 then
        iprop(((aOut).view.loc (thr d L) ↦[rowsOf (n0 := 425984) (n1 := 128) base (base + 512 * k)]{fullShare} G)
          ∗ ((aOut).view.loc (thr d L) ↦[rowsOf (n0 := 425984) (n1 := 128) (base + 512 * k) (base + 13312)]{fullShare} m0)
          ∗ slotG0 d L qI qT C Tb pay (4 * k) ∗ slotG1 d L qI qT C Tb pay (4 * k + 1)
          ∗ slotG2 d L qI qT C Tb pay (4 * k + 2) ∗ slotG3 d L qI qT C Tb pay (4 * k + 3))
      else
        iprop(((aOut).view.loc (thr d L) ↦[rowsOf (n0 := 425984) (n1 := 128) base (base + 12800)]{fullShare} G)
          ∗ slotC0 d L qI qT C Tb pay G base 100 ∗ slotC1 d L qI qT C Tb pay G base 101
          ∗ slotC2 d L qI qT C Tb pay G base 102 ∗ slotC3 d L qI qT C Tb pay G base 103)))

theorem cond_true : ∀ k : Fin k0_t1_loop.trips, k.val < 25 → k0_cond1 k = 1#1 ∧ k0_cond2 k = 1#1 ∧ k0_cond3 k = 1#1 ∧ k0_cond4 k = 1#1 := by decide
theorem cond_false : ∀ k : Fin k0_t1_loop.trips, ¬ k.val < 25 → ¬ k0_cond1 k = 1#1 ∧ ¬ k0_cond2 k = 1#1 ∧ ¬ k0_cond3 k = 1#1 ∧ ¬ k0_cond4 k = 1#1 := by decide

theorem trip_lt (hbase : base = 26624 * (L 1).val + 13312 * (L 0).val)
    (hCin : ∀ (off : Fin 2 → Nat) (hb : ∀ a, off a + S1x128.size a ≤ S104x128.size a) (x : S128.Idx),
      ((rowW off hb).view.read (Elt F) C x).toNat < S100000x128.size gathers_S100000x128_S128x128.axis)
    (hpay : ∀ (off : Fin 2 → Nat) (hb : ∀ a, off a + S1x128.size a ≤ S104x128.size a) (j : Nat) (_ : off 0 = j) (_ : off 1 = 0) (hn) (hin),
      SparseCore.gatherPayload gathers_S100000x128_S128x128 (View.read (Elt F) (tabW).view Tb) (SparseCore.rows (View.read (Elt F) (rowW off hb).view C) hn hin) = pay j)
    (hG : ∀ (off : Fin 2 → Nat) (hb : ∀ a, off a + S128x128.size a ≤ S425984x128.size a) (lo j : Nat) (_ : off 0 = lo) (_ : off 1 = 0) (_ : lo = base + 128 * j) (_ : j < 104),
      ∀ x ∈ rowsOf (n0 := 425984) (n1 := 128) lo (lo + 128), (chunkW off hb).view.writes (Elt F) m0 [⟨Rect.whole S128x128, pay j⟩] x = G x) (v2 c0 : BitVec 32) (k : Fin k0_t1_loop.trips) (hk : k.val < 25) :
    loopInv d L O W qI qT C Tb pay G m0 base k.val ()
      ⊢ wp frame (wpE (defs₀ (F := F)) 𝒱₀ (thr d L) none) Set.univ
          (k0_t1_body L aIdx (Memref.isWhole_whole _) aTab (Memref.isWhole_whole _) aOut (Memref.isWhole_whole _)
            sIdx (Memref.isWhole_whole _) sB0 (Memref.isWhole_whole _) sB1 (Memref.isWhole_whole _) sB2 (Memref.isWhole_whole _) sB3 (Memref.isWhole_whole _)
            cc0_scratch5 cc0_scratch6 cc0_scratch7 cc0_scratch8 cc0_scratch9 cc0_scratch10 cc0_scratch11 cc0_scratch12 cc0_scoped0 v2 c0 k ())
          (loopInv d L O W qI qT C Tb pay G m0 base (k.val + 1)) := by
  obtain ⟨hc1, hc2, hc3, hc4⟩ := cond_true k hk
  have hk26 : k.val < 26 := by omega
  unfold loopInv
  rw [if_pos hk26, if_pos (show k.val + 1 < 26 by omega)]
  unfold slotG0 slotG1 slotG2 slotG3
  iintro ⟨#Hmw, ⟨%W', %hW', HO⟩, Hdone, Htodo, ⟨Hf0, Hrest0, Ho0⟩, ⟨Hf1, Hrest1, Ho1⟩, ⟨Hf2, Hrest2, Ho2⟩, ⟨Hf3, Hrest3, Ho3⟩⟩
  ihave Htodo := (Entails.of_eq (show ((aOut).view.loc (thr d L) ↦[rowsOf (n0 := 425984) (n1 := 128) (base + 512 * k.val) (base + 13312)]{fullShare} m0 : sProp 𝕄) = ((aOut).view.loc (thr d L) ↦[rowsOf (n0 := 425984) (n1 := 128) (base + 512 * k.val + 0) (base + 13312)]{fullShare} m0) from rfl)) $$ Htodo
  have hlo0 : k0_off3 L k 0#32 0 = base + 512 * k.val + 0 := by
    rw [hbase]; exact (off3_row L k ⟨0, by decide⟩).trans (by show _ + 128 * 0 = _; omega)
  have hcol0 : k0_off3 L k 0#32 1 = 0 := off3_col L k ⟨0, by decide⟩
  ihave Hsp := (Entails.of_eq (out_split d L m0 (a := base + 512 * k.val + 0) (b := base + 512 * k.val + 0 + 128) (c := base + 13312) (by omega) (by omega))) $$ Htodo
  icases Hsp with ⟨Hch0, Htodo⟩
  ihave Hch0 := (Entails.of_eq (chunk_own d L m0 (k0_off3 L k 0#32) (k0_off3_inb L k 0) hcol0 hlo0)) $$ Hch0
  have hlo1 : k0_off3 L k 1#32 0 = base + 512 * k.val + 128 := by
    rw [hbase]; exact (off3_row L k ⟨1, by decide⟩).trans (by show _ + 128 * 1 = _; omega)
  have hcol1 : k0_off3 L k 1#32 1 = 0 := off3_col L k ⟨1, by decide⟩
  ihave Hsp := (Entails.of_eq (out_split d L m0 (a := base + 512 * k.val + 128) (b := base + 512 * k.val + 128 + 128) (c := base + 13312) (by omega) (by omega))) $$ Htodo
  icases Hsp with ⟨Hch1, Htodo⟩
  ihave Hch1 := (Entails.of_eq (chunk_own d L m0 (k0_off3 L k 1#32) (k0_off3_inb L k 1) hcol1 hlo1)) $$ Hch1
  have hlo2 : k0_off3 L k 2#32 0 = base + 512 * k.val + 256 := by
    rw [hbase]; exact (off3_row L k ⟨2, by decide⟩).trans (by show _ + 128 * 2 = _; omega)
  have hcol2 : k0_off3 L k 2#32 1 = 0 := off3_col L k ⟨2, by decide⟩
  ihave Hsp := (Entails.of_eq (out_split d L m0 (a := base + 512 * k.val + 256) (b := base + 512 * k.val + 256 + 128) (c := base + 13312) (by omega) (by omega))) $$ Htodo
  icases Hsp with ⟨Hch2, Htodo⟩
  ihave Hch2 := (Entails.of_eq (chunk_own d L m0 (k0_off3 L k 2#32) (k0_off3_inb L k 2) hcol2 hlo2)) $$ Hch2
  have hlo3 : k0_off3 L k 3#32 0 = base + 512 * k.val + 384 := by
    rw [hbase]; exact (off3_row L k ⟨3, by decide⟩).trans (by show _ + 128 * 3 = _; omega)
  have hcol3 : k0_off3 L k 3#32 1 = 0 := off3_col L k ⟨3, by decide⟩
  ihave Hsp := (Entails.of_eq (out_split d L m0 (a := base + 512 * k.val + 384) (b := base + 512 * k.val + 384 + 128) (c := base + 13312) (by omega) (by omega))) $$ Htodo
  icases Hsp with ⟨Hch3, Htodo⟩
  ihave Hch3 := (Entails.of_eq (chunk_own d L m0 (k0_off3 L k 3#32) (k0_off3_inb L k 3) hcol3 hlo3)) $$ Hch3
  sl_unfold [k0_t1_body]
  sl_exec
  icases Hf0_dst with ⟨Hb0, Hrow0⟩
  sl_exec
  -- slot 0: the list's row comes back to its share, the next chunk's row goes out
  ihave HI0 := ((pointsTo_split_subset (ℓ := (sIdx).view.loc (thr d L)) (I := rowsOf (n0 := 104) (n1 := 128) (4 * k.val) (4 * k.val + 1)) (S := Finset.univ) (q := qI 0) (f := C) (Finset.subset_univ _)).2) $$ [Hrow0 Hrest0]
  · isplitl [Hrow0] <;> iassumption
  ihave Hs' := ((pointsTo_split_subset (ℓ := (rowW (k0_off5 k) (k0_off5_inb k hc1)).view.loc (thr d L)) (I := (rowW (k0_off5 k) (k0_off5_inb k hc1)).view.set) (S := Finset.univ) (q := qI 0) (f := C) (Finset.subset_univ _)).1) $$ HI0
  icases Hs' with ⟨Hrow0, Hrest0⟩
  have hin0 := hCin (k0_off5 k) (k0_off5_inb k hc1)
  sl_exec
  icases Hf1_dst with ⟨Hb1, Hrow1⟩
  sl_exec
  -- slot 1: the list's row comes back to its share, the next chunk's row goes out
  ihave HI1 := ((pointsTo_split_subset (ℓ := (sIdx).view.loc (thr d L)) (I := rowsOf (n0 := 104) (n1 := 128) (4 * k.val + 1) (4 * k.val + 1 + 1)) (S := Finset.univ) (q := qI 1) (f := C) (Finset.subset_univ _)).2) $$ [Hrow1 Hrest1]
  · isplitl [Hrow1] <;> iassumption
  ihave Hs' := ((pointsTo_split_subset (ℓ := (rowW (k0_off7 k) (k0_off7_inb k hc2)).view.loc (thr d L)) (I := (rowW (k0_off7 k) (k0_off7_inb k hc2)).view.set) (S := Finset.univ) (q := qI 1) (f := C) (Finset.subset_univ _)).1) $$ HI1
  icases Hs' with ⟨Hrow1, Hrest1⟩
  have hin1 := hCin (k0_off7 k) (k0_off7_inb k hc2)
  sl_exec
  icases Hf2_dst with ⟨Hb2, Hrow2⟩
  sl_exec
  -- slot 2: the list's row comes back to its share, the next chunk's row goes out
  ihave HI2 := ((pointsTo_split_subset (ℓ := (sIdx).view.loc (thr d L)) (I := rowsOf (n0 := 104) (n1 := 128) (4 * k.val + 2) (4 * k.val + 2 + 1)) (S := Finset.univ) (q := qI 2) (f := C) (Finset.subset_univ _)).2) $$ [Hrow2 Hrest2]
  · isplitl [Hrow2] <;> iassumption
  ihave Hs' := ((pointsTo_split_subset (ℓ := (rowW (k0_off9 k) (k0_off9_inb k hc3)).view.loc (thr d L)) (I := (rowW (k0_off9 k) (k0_off9_inb k hc3)).view.set) (S := Finset.univ) (q := qI 2) (f := C) (Finset.subset_univ _)).1) $$ HI2
  icases Hs' with ⟨Hrow2, Hrest2⟩
  have hin2 := hCin (k0_off9 k) (k0_off9_inb k hc3)
  sl_exec
  icases Hf3_dst with ⟨Hb3, Hrow3⟩
  sl_exec
  -- slot 3: the list's row comes back to its share, the next chunk's row goes out
  ihave HI3 := ((pointsTo_split_subset (ℓ := (sIdx).view.loc (thr d L)) (I := rowsOf (n0 := 104) (n1 := 128) (4 * k.val + 3) (4 * k.val + 3 + 1)) (S := Finset.univ) (q := qI 3) (f := C) (Finset.subset_univ _)).2) $$ [Hrow3 Hrest3]
  · isplitl [Hrow3] <;> iassumption
  ihave Hs' := ((pointsTo_split_subset (ℓ := (rowW (k0_off11 k) (k0_off11_inb k hc4)).view.loc (thr d L)) (I := (rowW (k0_off11 k) (k0_off11_inb k hc4)).view.set) (S := Finset.univ) (q := qI 3) (f := C) (Finset.subset_univ _)).1) $$ HI3
  icases Hs' with ⟨Hrow3, Hrest3⟩
  have hin3 := hCin (k0_off11 k) (k0_off11_inb k hc4)
  sl_exec
  -- the four chunks written: their rows hold the final contents and join the rows done
  ihave Hdone := (Entails.of_eq (out_cast d L G (a := base) (b := base + 512 * k.val) (a' := base) (b' := base + 512 * k.val + 0) rfl rfl)) $$ Hdone
  ihave Hch0 := (Entails.of_eq (chunk_own d L _ (k0_off3 L k 0#32) (k0_off3_inb L k 0) hcol0 hlo0).symm) $$ Hch0
  ihave Hch0 := (Entails.of_eq (pointsTo_congr (hG (k0_off3 L k 0#32) (k0_off3_inb L k 0) (base + 512 * k.val + 0) (4 * k.val + 0) hlo0 hcol0 (by omega) (by omega)))) $$ Hch0
  ihave Hdone := (Entails.of_eq (out_split d L G (a := base) (b := base + 512 * k.val + 0) (c := base + 512 * k.val + 0 + 128) (by omega) (by omega)).symm) $$ [Hdone Hch0]
  · isplitl [Hdone] <;> iassumption
  ihave Hdone := (Entails.of_eq (out_cast d L G (a := base) (b := base + 512 * k.val + 0 + 128) (a' := base) (b' := base + 512 * k.val + 128) rfl (by omega))) $$ Hdone
  ihave Hch1 := (Entails.of_eq (chunk_own d L _ (k0_off3 L k 1#32) (k0_off3_inb L k 1) hcol1 hlo1).symm) $$ Hch1
  ihave Hch1 := (Entails.of_eq (pointsTo_congr (hG (k0_off3 L k 1#32) (k0_off3_inb L k 1) (base + 512 * k.val + 128) (4 * k.val + 1) hlo1 hcol1 (by omega) (by omega)))) $$ Hch1
  ihave Hdone := (Entails.of_eq (out_split d L G (a := base) (b := base + 512 * k.val + 128) (c := base + 512 * k.val + 128 + 128) (by omega) (by omega)).symm) $$ [Hdone Hch1]
  · isplitl [Hdone] <;> iassumption
  ihave Hdone := (Entails.of_eq (out_cast d L G (a := base) (b := base + 512 * k.val + 128 + 128) (a' := base) (b' := base + 512 * k.val + 256) rfl (by omega))) $$ Hdone
  ihave Hch2 := (Entails.of_eq (chunk_own d L _ (k0_off3 L k 2#32) (k0_off3_inb L k 2) hcol2 hlo2).symm) $$ Hch2
  ihave Hch2 := (Entails.of_eq (pointsTo_congr (hG (k0_off3 L k 2#32) (k0_off3_inb L k 2) (base + 512 * k.val + 256) (4 * k.val + 2) hlo2 hcol2 (by omega) (by omega)))) $$ Hch2
  ihave Hdone := (Entails.of_eq (out_split d L G (a := base) (b := base + 512 * k.val + 256) (c := base + 512 * k.val + 256 + 128) (by omega) (by omega)).symm) $$ [Hdone Hch2]
  · isplitl [Hdone] <;> iassumption
  ihave Hdone := (Entails.of_eq (out_cast d L G (a := base) (b := base + 512 * k.val + 256 + 128) (a' := base) (b' := base + 512 * k.val + 384) rfl (by omega))) $$ Hdone
  ihave Hch3 := (Entails.of_eq (chunk_own d L _ (k0_off3 L k 3#32) (k0_off3_inb L k 3) hcol3 hlo3).symm) $$ Hch3
  ihave Hch3 := (Entails.of_eq (pointsTo_congr (hG (k0_off3 L k 3#32) (k0_off3_inb L k 3) (base + 512 * k.val + 384) (4 * k.val + 3) hlo3 hcol3 (by omega) (by omega)))) $$ Hch3
  ihave Hdone := (Entails.of_eq (out_split d L G (a := base) (b := base + 512 * k.val + 384) (c := base + 512 * k.val + 384 + 128) (by omega) (by omega)).symm) $$ [Hdone Hch3]
  · isplitl [Hdone] <;> iassumption
  ihave Hdone := (Entails.of_eq (out_cast d L G (a := base) (b := base + 512 * k.val + 384 + 128) (a' := base) (b' := base + 512 * (k.val + 1)) rfl (by omega))) $$ Hdone
  ihave Htodo := (Entails.of_eq (out_cast d L m0 (a := base + 512 * k.val + 384 + 128) (b := base + 13312) (a' := base + 512 * (k.val + 1)) (b' := base + 13312) (by omega) rfl)) $$ Htodo
  -- the four gathers started: each flight in the invariant's spelling
  have hr00 : k0_off5 k 0 = (4 * (k.val + 1)) := (congrFun (k0_off5_eq k) 0).trans (by show 4 * k.val + 4 = _; omega)
  have hr01 : k0_off5 k 1 = 0 := congrFun (k0_off5_eq k) 1
  ihave Hf0 := (Transfers.Flight_mono countersEmb (thr d L) (gcanon0 d L qI qT C Tb pay _ (trip_lt.sl.gather0 d L C Tb k hc1 hin0) (4 * (k.val + 1)) (k0_off5 k) (k0_off5_inb k hc1) hr00 hr01
    (hpay (k0_off5 k) (k0_off5_inb k hc1) (4 * (k.val + 1)) hr00 hr01 _ hin0))) $$ Hf0
  ihave Hrest0 := (Entails.of_eq (row_rest d L (qI 0) C (k0_off5 k) (k0_off5_inb k hc1) hr01 hr00)) $$ Hrest0
  have hr10 : k0_off7 k 0 = (4 * (k.val + 1) + 1) := (congrFun (k0_off7_eq k) 0).trans (by show 4 * k.val + 5 = _; omega)
  have hr11 : k0_off7 k 1 = 0 := congrFun (k0_off7_eq k) 1
  ihave Hf1 := (Transfers.Flight_mono countersEmb (thr d L) (gcanon1 d L qI qT C Tb pay _ (trip_lt.sl.gather0_1 d L C Tb k hc2 hin1) (4 * (k.val + 1) + 1) (k0_off7 k) (k0_off7_inb k hc2) hr10 hr11
    (hpay (k0_off7 k) (k0_off7_inb k hc2) (4 * (k.val + 1) + 1) hr10 hr11 _ hin1))) $$ Hf1
  ihave Hrest1 := (Entails.of_eq (row_rest d L (qI 1) C (k0_off7 k) (k0_off7_inb k hc2) hr11 hr10)) $$ Hrest1
  have hr20 : k0_off9 k 0 = (4 * (k.val + 1) + 2) := (congrFun (k0_off9_eq k) 0).trans (by show 4 * k.val + 6 = _; omega)
  have hr21 : k0_off9 k 1 = 0 := congrFun (k0_off9_eq k) 1
  ihave Hf2 := (Transfers.Flight_mono countersEmb (thr d L) (gcanon2 d L qI qT C Tb pay _ (trip_lt.sl.gather0_2 d L C Tb k hc3 hin2) (4 * (k.val + 1) + 2) (k0_off9 k) (k0_off9_inb k hc3) hr20 hr21
    (hpay (k0_off9 k) (k0_off9_inb k hc3) (4 * (k.val + 1) + 2) hr20 hr21 _ hin2))) $$ Hf2
  ihave Hrest2 := (Entails.of_eq (row_rest d L (qI 2) C (k0_off9 k) (k0_off9_inb k hc3) hr21 hr20)) $$ Hrest2
  have hr30 : k0_off11 k 0 = (4 * (k.val + 1) + 3) := (congrFun (k0_off11_eq k) 0).trans (by show 4 * k.val + 7 = _; omega)
  have hr31 : k0_off11 k 1 = 0 := congrFun (k0_off11_eq k) 1
  ihave Hf3 := (Transfers.Flight_mono countersEmb (thr d L) (gcanon3 d L qI qT C Tb pay _ (trip_lt.sl.gather0_3 d L C Tb k hc4 hin3) (4 * (k.val + 1) + 3) (k0_off11 k) (k0_off11_inb k hc4) hr30 hr31
    (hpay (k0_off11 k) (k0_off11_inb k hc4) (4 * (k.val + 1) + 3) hr30 hr31 _ hin3))) $$ Hf3
  ihave Hrest3 := (Entails.of_eq (row_rest d L (qI 3) C (k0_off11 k) (k0_off11_inb k hc4) hr31 hr30)) $$ Hrest3
  sl_step
  isplitl [Hmw]; · iexact Hmw
  isplitl [HO]
  · iexists _; isplitr
    · ipureintro
      exact waits_ins (SemLoc.dma cc0_scratch12.sem) (waits_ins (SemLoc.dma cc0_scratch8.sem) (waits_ins (SemLoc.dma cc0_scratch11.sem) (waits_ins (SemLoc.dma cc0_scratch7.sem) (waits_ins (SemLoc.dma cc0_scratch10.sem) (waits_ins (SemLoc.dma cc0_scratch6.sem) (waits_ins (SemLoc.dma cc0_scratch9.sem) (waits_ins (SemLoc.dma cc0_scratch5.sem) (hW'))))))))
    · iexact HO
  isplitl [Hdone]; · iexact Hdone
  isplitl [Htodo]; · iexact Htodo
  isplitl [Hf0 Hrest0 Ho0]
  · isplitl [Hf0]; · iexact Hf0
    isplitl [Hrest0]; · iexact Hrest0
    iexact Ho0
  isplitl [Hf1 Hrest1 Ho1]
  · isplitl [Hf1]; · iexact Hf1
    isplitl [Hrest1]; · iexact Hrest1
    iexact Ho1
  isplitl [Hf2 Hrest2 Ho2]
  · isplitl [Hf2]; · iexact Hf2
    isplitl [Hrest2]; · iexact Hrest2
    iexact Ho2
  · isplitl [Hf3]; · iexact Hf3
    isplitl [Hrest3]; · iexact Hrest3
    iexact Ho3

theorem trip_last (hbase : base = 26624 * (L 1).val + 13312 * (L 0).val)
    (hCin : ∀ (off : Fin 2 → Nat) (hb : ∀ a, off a + S1x128.size a ≤ S104x128.size a) (x : S128.Idx),
      ((rowW off hb).view.read (Elt F) C x).toNat < S100000x128.size gathers_S100000x128_S128x128.axis)
    (hpay : ∀ (off : Fin 2 → Nat) (hb : ∀ a, off a + S1x128.size a ≤ S104x128.size a) (j : Nat) (_ : off 0 = j) (_ : off 1 = 0) (hn) (hin),
      SparseCore.gatherPayload gathers_S100000x128_S128x128 (View.read (Elt F) (tabW).view Tb) (SparseCore.rows (View.read (Elt F) (rowW off hb).view C) hn hin) = pay j)
    (hG : ∀ (off : Fin 2 → Nat) (hb : ∀ a, off a + S128x128.size a ≤ S425984x128.size a) (lo j : Nat) (_ : off 0 = lo) (_ : off 1 = 0) (_ : lo = base + 128 * j) (_ : j < 104),
      ∀ x ∈ rowsOf (n0 := 425984) (n1 := 128) lo (lo + 128), (chunkW off hb).view.writes (Elt F) m0 [⟨Rect.whole S128x128, pay j⟩] x = G x)
    (v2 c0 : BitVec 32) (k : Fin k0_t1_loop.trips) (hk : ¬ k.val < 25) :
    loopInv d L O W qI qT C Tb pay G m0 base k.val ()
      ⊢ wp frame (wpE (defs₀ (F := F)) 𝒱₀ (thr d L) none) Set.univ
          (k0_t1_body L aIdx (Memref.isWhole_whole _) aTab (Memref.isWhole_whole _) aOut (Memref.isWhole_whole _)
            sIdx (Memref.isWhole_whole _) sB0 (Memref.isWhole_whole _) sB1 (Memref.isWhole_whole _) sB2 (Memref.isWhole_whole _) sB3 (Memref.isWhole_whole _)
            cc0_scratch5 cc0_scratch6 cc0_scratch7 cc0_scratch8 cc0_scratch9 cc0_scratch10 cc0_scratch11 cc0_scratch12 cc0_scoped0 v2 c0 k ())
          (loopInv d L O W qI qT C Tb pay G m0 base (k.val + 1)) := by
  obtain ⟨hc1, hc2, hc3, hc4⟩ := cond_false k hk
  have hk26 : k.val < 26 := k.isLt
  have hk25 : k.val = 25 := by omega
  unfold loopInv
  rw [if_pos hk26, if_neg (show ¬ k.val + 1 < 26 by omega)]
  unfold slotG0 slotG1 slotG2 slotG3 slotC0 slotC1 slotC2 slotC3
  iintro ⟨#Hmw, ⟨%W', %hW', HO⟩, Hdone, Htodo, ⟨Hf0, Hrest0, Ho0⟩, ⟨Hf1, Hrest1, Ho1⟩, ⟨Hf2, Hrest2, Ho2⟩, ⟨Hf3, Hrest3, Ho3⟩⟩
  ihave Htodo := (Entails.of_eq (show ((aOut).view.loc (thr d L) ↦[rowsOf (n0 := 425984) (n1 := 128) (base + 512 * k.val) (base + 13312)]{fullShare} m0 : sProp 𝕄) = ((aOut).view.loc (thr d L) ↦[rowsOf (n0 := 425984) (n1 := 128) (base + 512 * k.val + 0) (base + 13312)]{fullShare} m0) from rfl)) $$ Htodo
  have hlo0 : k0_off3 L k 0#32 0 = base + 512 * k.val + 0 := by
    rw [hbase]; exact (off3_row L k ⟨0, by decide⟩).trans (by show _ + 128 * 0 = _; omega)
  have hcol0 : k0_off3 L k 0#32 1 = 0 := off3_col L k ⟨0, by decide⟩
  ihave Hsp := (Entails.of_eq (out_split d L m0 (a := base + 512 * k.val + 0) (b := base + 512 * k.val + 0 + 128) (c := base + 13312) (by omega) (by omega))) $$ Htodo
  icases Hsp with ⟨Hch0, Htodo⟩
  ihave Hch0 := (Entails.of_eq (chunk_own d L m0 (k0_off3 L k 0#32) (k0_off3_inb L k 0) hcol0 hlo0)) $$ Hch0
  have hlo1 : k0_off3 L k 1#32 0 = base + 512 * k.val + 128 := by
    rw [hbase]; exact (off3_row L k ⟨1, by decide⟩).trans (by show _ + 128 * 1 = _; omega)
  have hcol1 : k0_off3 L k 1#32 1 = 0 := off3_col L k ⟨1, by decide⟩
  ihave Hsp := (Entails.of_eq (out_split d L m0 (a := base + 512 * k.val + 128) (b := base + 512 * k.val + 128 + 128) (c := base + 13312) (by omega) (by omega))) $$ Htodo
  icases Hsp with ⟨Hch1, Htodo⟩
  ihave Hch1 := (Entails.of_eq (chunk_own d L m0 (k0_off3 L k 1#32) (k0_off3_inb L k 1) hcol1 hlo1)) $$ Hch1
  have hlo2 : k0_off3 L k 2#32 0 = base + 512 * k.val + 256 := by
    rw [hbase]; exact (off3_row L k ⟨2, by decide⟩).trans (by show _ + 128 * 2 = _; omega)
  have hcol2 : k0_off3 L k 2#32 1 = 0 := off3_col L k ⟨2, by decide⟩
  ihave Hsp := (Entails.of_eq (out_split d L m0 (a := base + 512 * k.val + 256) (b := base + 512 * k.val + 256 + 128) (c := base + 13312) (by omega) (by omega))) $$ Htodo
  icases Hsp with ⟨Hch2, Htodo⟩
  ihave Hch2 := (Entails.of_eq (chunk_own d L m0 (k0_off3 L k 2#32) (k0_off3_inb L k 2) hcol2 hlo2)) $$ Hch2
  have hlo3 : k0_off3 L k 3#32 0 = base + 512 * k.val + 384 := by
    rw [hbase]; exact (off3_row L k ⟨3, by decide⟩).trans (by show _ + 128 * 3 = _; omega)
  have hcol3 : k0_off3 L k 3#32 1 = 0 := off3_col L k ⟨3, by decide⟩
  ihave Hsp := (Entails.of_eq (out_split d L m0 (a := base + 512 * k.val + 384) (b := base + 512 * k.val + 384 + 128) (c := base + 13312) (by omega) (by omega))) $$ Htodo
  icases Hsp with ⟨Hch3, Htodo⟩
  ihave Hch3 := (Entails.of_eq (chunk_own d L m0 (k0_off3 L k 3#32) (k0_off3_inb L k 3) hcol3 hlo3)) $$ Hch3
  sl_unfold [k0_t1_body]
  sl_exec
  icases Hf0_dst with ⟨Hb0, Hrow0⟩
  sl_exec
  icases Hf1_dst with ⟨Hb1, Hrow1⟩
  sl_exec
  icases Hf2_dst with ⟨Hb2, Hrow2⟩
  sl_exec
  icases Hf3_dst with ⟨Hb3, Hrow3⟩
  sl_exec
  -- the rows done, named by the trip's number
  ihave Hdone := (Entails.of_eq (out_cast d L G (a := base) (b := base + 512 * k.val) (a' := base) (b' := base + 12800) rfl (by omega))) $$ Hdone
  -- slot 0: the write-back's flight in the invariant's spelling; the list's share whole again
  ihave Ho0 := (Transfers.Flight_mono countersEmb (thr d L) (ccanon0 d L pay G base ((chunkW (k0_off3 L k 0#32) (k0_off3_inb L k 0)).view.writes (Elt F) m0 [⟨Rect.whole S128x128, trip_last.sl.dma0 d L pay k⟩]) (k0_off3 L k 0#32) (k0_off3_inb L k 0) (base + 512 * k.val + 0) 100 (4 * k.val) hlo0 hcol0 (by omega) (by omega)
    (hG (k0_off3 L k 0#32) (k0_off3_inb L k 0) (base + 512 * k.val + 0) (4 * k.val) hlo0 hcol0 (by omega) (by omega)))) $$ Ho0
  ihave HI0 := ((pointsTo_split_subset (ℓ := (sIdx).view.loc (thr d L)) (I := rowsOf (n0 := 104) (n1 := 128) (4 * k.val) (4 * k.val + 1)) (S := Finset.univ) (q := qI 0) (f := C) (Finset.subset_univ _)).2) $$ [Hrow0 Hrest0]
  · isplitl [Hrow0] <;> iassumption
  -- slot 1: the write-back's flight in the invariant's spelling; the list's share whole again
  ihave Ho1 := (Transfers.Flight_mono countersEmb (thr d L) (ccanon1 d L pay G base ((chunkW (k0_off3 L k 1#32) (k0_off3_inb L k 1)).view.writes (Elt F) m0 [⟨Rect.whole S128x128, trip_last.sl.dma0_1 d L pay k⟩]) (k0_off3 L k 1#32) (k0_off3_inb L k 1) (base + 512 * k.val + 128) 101 (4 * k.val + 1) hlo1 hcol1 (by omega) (by omega)
    (hG (k0_off3 L k 1#32) (k0_off3_inb L k 1) (base + 512 * k.val + 128) (4 * k.val + 1) hlo1 hcol1 (by omega) (by omega)))) $$ Ho1
  ihave HI1 := ((pointsTo_split_subset (ℓ := (sIdx).view.loc (thr d L)) (I := rowsOf (n0 := 104) (n1 := 128) (4 * k.val + 1) (4 * k.val + 1 + 1)) (S := Finset.univ) (q := qI 1) (f := C) (Finset.subset_univ _)).2) $$ [Hrow1 Hrest1]
  · isplitl [Hrow1] <;> iassumption
  -- slot 2: the write-back's flight in the invariant's spelling; the list's share whole again
  ihave Ho2 := (Transfers.Flight_mono countersEmb (thr d L) (ccanon2 d L pay G base ((chunkW (k0_off3 L k 2#32) (k0_off3_inb L k 2)).view.writes (Elt F) m0 [⟨Rect.whole S128x128, trip_last.sl.dma0_2 d L pay k⟩]) (k0_off3 L k 2#32) (k0_off3_inb L k 2) (base + 512 * k.val + 256) 102 (4 * k.val + 2) hlo2 hcol2 (by omega) (by omega)
    (hG (k0_off3 L k 2#32) (k0_off3_inb L k 2) (base + 512 * k.val + 256) (4 * k.val + 2) hlo2 hcol2 (by omega) (by omega)))) $$ Ho2
  ihave HI2 := ((pointsTo_split_subset (ℓ := (sIdx).view.loc (thr d L)) (I := rowsOf (n0 := 104) (n1 := 128) (4 * k.val + 2) (4 * k.val + 2 + 1)) (S := Finset.univ) (q := qI 2) (f := C) (Finset.subset_univ _)).2) $$ [Hrow2 Hrest2]
  · isplitl [Hrow2] <;> iassumption
  -- slot 3: the write-back's flight in the invariant's spelling; the list's share whole again
  ihave Ho3 := (Transfers.Flight_mono countersEmb (thr d L) (ccanon3 d L pay G base ((chunkW (k0_off3 L k 3#32) (k0_off3_inb L k 3)).view.writes (Elt F) m0 [⟨Rect.whole S128x128, trip_last.sl.dma0_3 d L pay k⟩]) (k0_off3 L k 3#32) (k0_off3_inb L k 3) (base + 512 * k.val + 384) 103 (4 * k.val + 3) hlo3 hcol3 (by omega) (by omega)
    (hG (k0_off3 L k 3#32) (k0_off3_inb L k 3) (base + 512 * k.val + 384) (4 * k.val + 3) hlo3 hcol3 (by omega) (by omega)))) $$ Ho3
  ihave HI3 := ((pointsTo_split_subset (ℓ := (sIdx).view.loc (thr d L)) (I := rowsOf (n0 := 104) (n1 := 128) (4 * k.val + 3) (4 * k.val + 3 + 1)) (S := Finset.univ) (q := qI 3) (f := C) (Finset.subset_univ _)).2) $$ [Hrow3 Hrest3]
  · isplitl [Hrow3] <;> iassumption
  sl_step
  isplitl [Hmw]; · iexact Hmw
  isplitl [HO]
  · iexists _; isplitr
    · ipureintro
      exact waits_ins (SemLoc.dma cc0_scratch8.sem) (waits_ins (SemLoc.dma cc0_scratch7.sem) (waits_ins (SemLoc.dma cc0_scratch6.sem) (waits_ins (SemLoc.dma cc0_scratch5.sem) (hW'))))
    · iexact HO
  isplitl [Hdone]; · iexact Hdone
  isplitl [Ho0 HI0 Hf0_src Hf0]
  · isplitl [Ho0]; · iexact Ho0
    isplitl [HI0]; · iexact HI0
    isplitl [Hf0_src]; · iexact Hf0_src
    iexact Hf0
  isplitl [Ho1 HI1 Hf1_src Hf1]
  · isplitl [Ho1]; · iexact Ho1
    isplitl [HI1]; · iexact HI1
    isplitl [Hf1_src]; · iexact Hf1_src
    iexact Hf1
  isplitl [Ho2 HI2 Hf2_src Hf2]
  · isplitl [Ho2]; · iexact Ho2
    isplitl [HI2]; · iexact HI2
    isplitl [Hf2_src]; · iexact Hf2_src
    iexact Hf2
  · isplitl [Ho3]; · iexact Ho3
    isplitl [HI3]; · iexact HI3
    isplitl [Hf3_src]; · iexact Hf3_src
    iexact Hf3

end Cert.Proof.KI

end
-- ==== Proof.IdealDefs.lean ====
/-
  The embedding-lookup kernel's values, as functions of the index array and the table. A vector subcore with grid
  coordinates L has number w = 2·L₁ + L₀ below 32; it fetches row w of the index array [32, 104, 128] (`idxC`), then
  for each chunk j below 104 gathers, for each r below 128, the table's row named by entry (j, r) of the fetched list
  into row r of a [128, 128] buffer (`payC`), and copies the buffer to rows 13312·w + 128·j … + 128 of the output
  array [425984, 128]. The output array's row q therefore holds the table's row named by entry
  (q / 13312, q % 13312 / 128, q % 128) of the index array (`outG`).
-/
import proofs.«204381_g2808908611931_cont_9to1_1564_4_alg».proof.Proof.IdealGeom
import Idealize.ShloMosaic.Lib.ValueIdx

noncomputable section

namespace Cert.Proof.KI

open Cert.KernelIdeal Cert.KernelIdeal.Gen Idealize.ShloMosaic Idealize.ShloMosaic.ValueIdx

variable {F : FTy → Type}

/-- The table row a word names (reduced modulo the table's height only to be total). -/
def rowOfWord (w : BitVec 32) : Fin 100000 := ⟨w.toNat % 100000, Nat.mod_lt _ (by decide)⟩

/-- A word below the table's height names the row of its own number. -/
theorem rowOfWord_val_of_lt {w : BitVec 32} (h : w.toNat < 100000) : (rowOfWord w).val = w.toNat := Nat.mod_eq_of_lt h

/-- The subcore's number. -/
def widN (L : grid0.Coords) : Nat := 2 * (L 1).val + (L 0).val

theorem widN_lt (L : grid0.Coords) : widN L < 32 := by
  have h0 : (L 0).val < 2 := (L 0).isLt
  have h1 : (L 1).val < 16 := (L 1).isLt
  unfold widN; omega

/-- The subcore's list: row `widN L` of the index array. -/
def idxC (L : grid0.Coords) (I : S32x104x128.Idx → BitVec 32) : S104x128.Idx → BitVec 32 :=
  fun y => I (ix3 (n0 := 32) (n1 := 104) (n2 := 128) ⟨widN L, widN_lt L⟩ (y 0) (y 1))

/-- Chunk `j`'s gathered rows: row `r` is the table's row named by entry `(j, r)` of the list. -/
def payC (C : S104x128.Idx → BitVec 32) (Tb : S100000x128.Idx → F .f32) (j : Nat) : S128x128.Idx → F .f32 :=
  fun y => Tb (ix2 (n0 := 100000) (n1 := 128) (rowOfWord (C (ix2 (n0 := 104) (n1 := 128) ⟨j % 104, Nat.mod_lt _ (by decide)⟩ (y 0)))) (y 1))

/-- The output array: row `q` is the table's row named by entry `(q / 13312, q % 13312 / 128, q % 128)` of the index array. -/
def outG (I : S32x104x128.Idx → BitVec 32) (Tb : S100000x128.Idx → F .f32) : S425984x128.Idx → F .f32 :=
  fun x => Tb (ix2 (n0 := 100000) (n1 := 128) (rowOfWord (I (ix3 (n0 := 32) (n1 := 104) (n2 := 128)
    ⟨(x 0).val / 13312, by have := idx2_lt0 x; omega⟩ ⟨(x 0).val % 13312 / 128, by omega⟩ ⟨(x 0).val % 128, by omega⟩))) (x 1))

end Cert.Proof.KI

end
-- ==== Proof.IdealValue.lean ====
/-
  The embedding-lookup kernel's windows and what moves through them, in terms of the value functions `idxC`, `payC`,
  `outG`: which buffer elements the kernel's windows cover; that words in range stay in range through them; what the
  fetch, one gather and one write-back move; and that the host's two reshapes around the kernel turn `outG` of the
  reshaped index array into the specification's lookup.
-/
import proofs.«204381_g2808908611931_cont_9to1_1564_4_alg».proof.Proof.IdealDefs
import Idealize.ShloMosaic.Lib.ValueIdx
import Idealize.ShloMosaic.Lib.Pipeline.Value
import Idealize.ShloMosaic.Lib.SparseCore.Stream

noncomputable section

namespace Cert.Proof.KI

open Cert.KernelIdeal Cert.KernelIdeal.Gen Idealize.ShloMosaic Idealize.ShloMosaic.ValueIdx

variable {F : FTy → Type} [FloatOps F]

/-! ## The arrays, the scratch buffers and the kernel's windows -/
local notation "aIdx" => (Memref.whole Cert.KernelIdeal.main_v0_scv : Memref Cert.KernelIdeal.sig Kind.scVector Space.hbm Cert.KernelIdeal.S32x104x128 EltTy.i32)
local notation "aTab" => (Memref.whole Cert.KernelIdeal.main_arg1_scv : Memref Cert.KernelIdeal.sig Kind.scVector Space.hbm Cert.KernelIdeal.S100000x128 EltTy.f32)
local notation "aOut" => (Memref.whole Cert.KernelIdeal.main_v1_scv : Memref Cert.KernelIdeal.sig Kind.scVector Space.hbm Cert.KernelIdeal.S425984x128 EltTy.f32)
local notation "sIdx" => (Memref.whole Cert.KernelIdeal.cc0_scratch0 : Memref Cert.KernelIdeal.sig Kind.scVector Space.vmem Cert.KernelIdeal.S104x128 EltTy.i32)
local notation "sBuf" => (Memref.whole Cert.KernelIdeal.cc0_scratch1 : Memref Cert.KernelIdeal.sig Kind.scVector Space.vmem Cert.KernelIdeal.S128x128 EltTy.f32)

/-- Row `w` of the index array, as a [104, 128] list: the fetch's source. -/
abbrev fetchM (L : grid0.Coords) : Memref Cert.KernelIdeal.sig Kind.scVector Space.hbm Cert.KernelIdeal.S104x128 EltTy.i32 :=
  ((aIdx).slice (Rect.unit (s := S32x104x128) (k0_off1 L) S1x104x128.size (k0_off1_inb L)) (fun _ => rfl)).squeeze S104x128 squeezes_S1x104x128_S104x128

/-- One row of the fetched list, as a list of 128 words: a gather's offsets. -/
abbrev rowM (off : Fin 2 → Nat) (hb : ∀ a, off a + S1x128.size a ≤ S104x128.size a)
    (hs : ∀ a, (Rect.unit (s := S104x128) off S1x128.size hb).stride a = 1) : Memref Cert.KernelIdeal.sig Kind.scVector Space.vmem Cert.KernelIdeal.S128 EltTy.i32 :=
  ((sIdx).slice (Rect.unit (s := S104x128) off S1x128.size hb) hs).squeeze S128 squeezes_S1x128_S128

/-- The whole table, as the gather names it. -/
abbrev tabM : Memref Cert.KernelIdeal.sig Kind.scVector Space.hbm Cert.KernelIdeal.S100000x128 EltTy.f32 :=
  (aTab).slice (Rect.unit (s := S100000x128) ![0, 0] S100000x128.size inb_S100000x128_S100000x128_0_0) (fun _ => rfl)

/-- 128 rows of the output array: a write-back's target. -/
abbrev chunkM (off : Fin 2 → Nat) (hb : ∀ a, off a + S128x128.size a ≤ S425984x128.size a)
    (hs : ∀ a, (Rect.unit (s := S425984x128) off S128x128.size hb).stride a = 1) : Memref Cert.KernelIdeal.sig Kind.scVector Space.hbm Cert.KernelIdeal.S128x128 EltTy.f32 :=
  (aOut).slice (Rect.unit (s := S425984x128) off S128x128.size hb) hs

/-! ## The windows' elements -/

/-- A write-back's target covers its 128 rows. -/
theorem chunk_set (off : Fin 2 → Nat) (hb) (hs) (h1 : off 1 = 0) :
    (chunkM off hb hs).view.set = rowsOf (n0 := 425984) (n1 := 128) (off 0) (off 0 + 128) := by
  show ((View.whole main_v1_scv).slice _).set = _
  rw [View.set_slice_whole]
  exact set_unit_rows h1 rfl

/-- A gather's offsets cover their one row of the list. -/
theorem row_set (off : Fin 2 → Nat) (hb) (hs) (h1 : off 1 = 0) :
    (rowM off hb hs).view.set = rowsOf (n0 := 104) (n1 := 128) (off 0) (off 0 + 1) := by
  show (((View.whole cc0_scratch0).slice _).reshape _ _).set = _
  rw [View.set_reshape, View.set_slice_whole]
  exact set_unit_rows h1 rfl

/-- The gather's source covers the table. -/
theorem tab_set : (tabM).view.set = Finset.univ := by
  show ((View.whole main_arg1_scv).slice _).set = _
  rw [View.set_slice_whole]
  exact (set_unit_rows (n0 := 100000) (n1 := 128) rfl rfl).trans rowsOf_all

/-! ## Words in range -/

/-- A list in range stays in range read through one of its rows. -/
theorem list_inRange (C : S104x128.Idx → BitVec 32) (hC : ∀ y, (C y).toNat < 100000) (off : Fin 2 → Nat) (hb) (hs) :
    ∀ x, ((rowM off hb hs).view.read (Elt F) C x).toNat < S100000x128.size gathers_S100000x128_S128x128.axis :=
  fun x => hC _

/-- An index array in range gives every subcore a list in range. -/
theorem idxC_inRange (L : grid0.Coords) (I : S32x104x128.Idx → BitVec 32) (hI : ∀ y, (I y).toNat < 100000) :
    ∀ y, (idxC L I y).toNat < 100000 :=
  fun y => hI _

/-! ## Reading through the windows -/

/-- Read through the gather's source, the table is itself. -/
theorem tab_read (Tb : S100000x128.Idx → F .f32) (z : S100000x128.Idx) : View.read (Elt F) (tabM).view Tb z = Tb z := by
  show Tb ((Rect.unit (s := S100000x128) ![0, 0] S100000x128.size inb_S100000x128_S100000x128_0_0).emb z) = Tb z
  refine congrArg Tb (funext fun a => Fin.ext ?_)
  rw [Rect.emb_apply]
  match a with
  | ⟨0, _⟩ => show 0 + 1 * (z 0).val = (z 0).val; omega
  | ⟨1, _⟩ => show 0 + 1 * (z 1).val = (z 1).val; omega

/-- The one index of a rank-1 shape at a row-major position has that position as its coordinate. -/
theorem rowMajor_symm_one {n : Nat} (k : Fin (⟨1, ![n]⟩ : Shape).numel) :
    (((⟨1, ![n]⟩ : Shape).rowMajor.symm k) 0).val = k.val := by
  have h := Shape.rowMajor_val_one ((⟨1, ![n]⟩ : Shape).rowMajor.symm k)
  rw [Equiv.apply_symm_apply] at h
  exact h.symm

/-- Entry `k` of a row of the list, read through the row's window: the list at `(off 0, off 1 + k)`. -/
theorem row_read (C : S104x128.Idx → BitVec 32) (off : Fin 2 → Nat) (hb) (hs) (k : S128.Idx) :
    View.read (Elt F) (rowM off hb hs).view C k
      = C (ix2 (n0 := 104) (n1 := 128) ⟨off 0, by have := hb 0; exact Nat.lt_of_succ_le this⟩
          ⟨off 1 + (k 0).val, by have := hb 1; have hk : (k 0).val < 128 := (k 0).isLt; exact Nat.lt_of_lt_of_le (Nat.add_lt_add_left hk _) this⟩) := by
  have hre : Shape.reshapeEquiv (squeezes_S1x128_S128).numel_eq k = ix2 (n0 := 1) (n1 := 128) 0 (k 0) :=
    Shape.reshapeEquiv_eq_of_rowMajor _ (by
      rw [Shape.rowMajor_val_two, Shape.rowMajor_val_one]
      show 0 * 128 + (k 0).val = (k 0).val
      omega)
  show C ((Rect.unit (s := S104x128) off S1x128.size hb).emb (Shape.reshapeEquiv (squeezes_S1x128_S128).numel_eq k)) = _
  rw [hre]
  refine congrArg C (funext fun a => Fin.ext ?_)
  rw [Rect.emb_apply]
  match a with
  | ⟨0, _⟩ => show off 0 + 1 * 0 = off 0; omega
  | ⟨1, _⟩ => show off 1 + 1 * (k 0).val = off 1 + (k 0).val; omega

/-! ## The fetch, one gather, one write-back -/

/-- THE FETCH: the subcore's window of the index array reads its list. -/
theorem fetch_val (L : grid0.Coords) (I : S32x104x128.Idx → BitVec 32) :
    View.read (Elt F) (fetchM L).view I = idxC L I := by
  funext y
  have hre : Shape.reshapeEquiv (squeezes_S1x104x128_S104x128).numel_eq y = ix3 (n0 := 1) (n1 := 104) (n2 := 128) 0 (y 0) (y 1) :=
    Shape.reshapeEquiv_eq_of_rowMajor _ (by
      rw [Shape.rowMajor_val_three, Shape.rowMajor_val_two]
      show (0 * 104 + (y 0).val) * 128 + (y 1).val = (y 0).val * 128 + (y 1).val
      omega)
  show I ((Rect.unit (s := S32x104x128) (k0_off1 L) S1x104x128.size (k0_off1_inb L)).emb
      (Shape.reshapeEquiv (squeezes_S1x104x128_S104x128).numel_eq y)) = _
  rw [hre]
  unfold idxC
  refine congrArg I (funext fun a => Fin.ext ?_)
  rw [Rect.emb_apply, Rect.off_unit, Rect.stride_unit]
  match a with
  | ⟨0, _⟩ =>
    have h := congrFun (k0_off1_eq L) 0
    show k0_off1 L 0 + 1 * 0 = widN L
    rw [h]
    show 2 * (L 1).val + (L 0).val + 1 * 0 = widN L
    unfold widN; omega
  | ⟨1, _⟩ =>
    have h := congrFun (k0_off1_eq L) 1
    show k0_off1 L 1 + 1 * (y 0).val = (y 0).val
    rw [h]
    show 0 + 1 * (y 0).val = (y 0).val
    omega
  | ⟨2, _⟩ =>
    have h := congrFun (k0_off1_eq L) 2
    show k0_off1 L 2 + 1 * (y 1).val = (y 1).val
    rw [h]
    show 0 + 1 * (y 1).val = (y 1).val
    omega

/-- The same with the plain copy's reading of its source spelt out. -/
theorem fetch_val_same (L : grid0.Coords) (I : S32x104x128.Idx → BitVec 32) :
    ReadAs.same.apply (View.read (Elt F) (fetchM L).view I) = idxC L I := fetch_val L I

/-- ONE GATHER: row `r` of the payload is the table's row named by entry `(j, r)` of the list. -/
theorem gather_val (C : S104x128.Idx → BitVec 32) (Tb : S100000x128.Idx → F .f32) (off : Fin 2 → Nat) (hb) (hs) (j : Nat)
    (h0 : off 0 = j) (h1 : off 1 = 0) (hn : S128.numel = S128x128.size gathers_S100000x128_S128x128.axis')
    (hin : ∀ x, ((rowM off hb hs).view.read (Elt F) C x).toNat < S100000x128.size gathers_S100000x128_S128x128.axis) :
    SparseCore.gatherPayload gathers_S100000x128_S128x128 (View.read (Elt F) (tabM).view Tb)
        (SparseCore.rows (View.read (Elt F) (rowM off hb hs).view C) hn hin) = payC C Tb j := by
  funext y
  have hj : j < 104 := by have := hb 0; rw [h0] at this; exact Nat.lt_of_succ_le this
  unfold SparseCore.gatherPayload payC
  rw [tab_read]
  refine congrArg Tb (funext fun a => Fin.ext ?_)
  match a with
  | ⟨0, _⟩ =>
    have key : View.read (Elt F) (rowM off hb hs).view C (S128.rowMajor.symm ((y gathers_S100000x128_S128x128.axis').cast hn.symm))
        = C (ix2 (n0 := 104) (n1 := 128) ⟨j % 104, Nat.mod_lt _ (by decide)⟩ (y 0)) := by
      rw [row_read]
      refine congrArg C (funext fun b => Fin.ext ?_)
      match b with
      | ⟨0, _⟩ => show off 0 = j % 104; rw [h0, Nat.mod_eq_of_lt hj]
      | ⟨1, _⟩ =>
        show off 1 + ((S128.rowMajor.symm ((y gathers_S100000x128_S128x128.axis').cast hn.symm)) 0).val = (y 0).val
        rw [h1, rowMajor_symm_one]
        show 0 + (y 0).val = (y 0).val
        omega
    have hlt := hin (S128.rowMajor.symm ((y gathers_S100000x128_S128x128.axis').cast hn.symm))
    rw [key] at hlt
    show ((gathers_S100000x128_S128x128).idx _ y (gathers_S100000x128_S128x128).axis).val = (rowOfWord _).val
    rw [Shape.Gathers.idx_axis, rowOfWord_val_of_lt hlt]
    show (View.read (Elt F) (rowM off hb hs).view C (S128.rowMajor.symm ((y gathers_S100000x128_S128x128.axis').cast hn.symm))).toNat = _
    rw [key]
  | ⟨1, _⟩ =>
    exact Shape.Gathers.idx_of_ne gathers_S100000x128_S128x128 _ y ⟨1, by decide⟩ (by decide)

/-- ONE WRITE-BACK: the chunk's gathered rows, written over its 128 rows of the output array, are the output array's. -/
theorem chunk_val (L : grid0.Coords) (I : S32x104x128.Idx → BitVec 32) (Tb : S100000x128.Idx → F .f32) (m0 : S425984x128.Idx → F .f32)
    (off : Fin 2 → Nat) (hb) (hs) (j : Nat) (hj : j < 104) (h0 : off 0 = 13312 * widN L + 128 * j) (h1 : off 1 = 0) :
    ∀ x ∈ rowsOf (n0 := 425984) (n1 := 128) (off 0) (off 0 + 128),
      View.write (Elt F) (chunkM off hb hs).view m0 (payC (idxC L I) Tb j) Finset.univ x = outG I Tb x := by
  intro x hx
  rw [mem_rowsOf] at hx
  have hw := widN_lt L
  have hx0 : (x 0).val < 425984 := idx2_lt0 x
  let y : S128x128.Idx := ix2 (n0 := 128) (n1 := 128) ⟨(x 0).val - off 0, by omega⟩ (x 1)
  have hxe : (chunkM off hb hs).view.emb y = x := by
    funext a; refine Fin.ext ?_
    show ((Rect.unit (s := S425984x128) off S128x128.size hb).emb y a).val = (x a).val
    rw [Rect.emb_apply]
    match a with
    | ⟨0, _⟩ => show off 0 + 1 * ((x 0).val - off 0) = (x 0).val; omega
    | ⟨1, _⟩ => show off 1 + 1 * (x 1).val = (x 1).val; omega
  have hwr := View.write_emb_of_mem (v := (chunkM off hb hs).view) (Val := Elt F) m0
    (payC (idxC L I) Tb j) (Finset.mem_univ y)
  rw [hxe] at hwr
  rw [hwr]
  show payC (idxC L I) Tb j y = outG I Tb x
  unfold payC outG idxC
  refine congrArg Tb (funext fun a => ?_)
  match a with
  | ⟨0, _⟩ =>
    show rowOfWord (I _) = rowOfWord (I _)
    refine congrArg (fun z => rowOfWord (I z)) (funext fun b => Fin.ext ?_)
    match b with
    | ⟨0, _⟩ => show widN L = (x 0).val / 13312; omega
    | ⟨1, _⟩ => show j % 104 = (x 0).val % 13312 / 128; omega
    | ⟨2, _⟩ => show (x 0).val - off 0 = (x 0).val % 128; omega
  | ⟨1, _⟩ => rfl

/-- The same with the source spelt as the copy reads it off the whole scratch buffer. -/
theorem chunk_val_read (L : grid0.Coords) (I : S32x104x128.Idx → BitVec 32) (Tb : S100000x128.Idx → F .f32) (m0 : S425984x128.Idx → F .f32)
    (off : Fin 2 → Nat) (hb) (hs) (j : Nat) (hj : j < 104) (h0 : off 0 = 13312 * widN L + 128 * j) (h1 : off 1 = 0) :
    ∀ x ∈ rowsOf (n0 := 425984) (n1 := 128) (off 0) (off 0 + 128),
      View.write (Elt F) (chunkM off hb hs).view m0 (ReadAs.same.apply (View.read (Elt F) (sBuf).view (payC (idxC L I) Tb j))) Finset.univ x = outG I Tb x :=
  chunk_val L I Tb m0 off hb hs j hj h0 h1

/-! ## The host's reshapes around the kernel -/

/-- The reshaped index array is in range where the index array is. -/
theorem reshaped_inRange (x : S16384x26.Idx → BitVec 32) (hx : Cert.Spec.InRange x) :
    ∀ y, ((shapeCast S32x104x128 x shapeCasts_S16384x26_S32x104x128) y).toNat < 100000 :=
  fun y => hx _

/-- THE RESULT: the output array of the reshaped index array, reshaped to [16384, 26, 128], is the specification's
    lookup. Entry (b, f, k) of the result is row 26·b + f of the output array, whose list entry sits at flat position
    26·b + f of the reshaped index array, which is x[b, f]. -/
theorem result_val (x : S16384x26.Idx → BitVec 32) (t : S100000x128.Idx → F .f32) (hx : Cert.Spec.InRange x) :
    shapeCast S16384x26x128 (outG (shapeCast S32x104x128 x shapeCasts_S16384x26_S32x104x128) t) shapeCasts_S425984x128_S16384x26x128
      = Cert.Spec.lookup x t := by
  funext i
  obtain ⟨b, f, k, rfl⟩ : ∃ (b : Fin 16384) (f : Fin 26) (k : Fin 128), i = ix3 b f k := ⟨i 0, i 1, i 2, eq_ix3 i⟩
  have hb : b.val < 16384 := b.isLt
  have hf : f.val < 26 := f.isLt
  rw [Cert.Spec.lookup_apply x t hx]
  rw [shapeCast_apply _ shapeCasts_S425984x128_S16384x26x128 (ix3 b f k)
    (ix2 (n0 := 425984) (n1 := 128) ⟨26 * b.val + f.val, by omega⟩ k) (by
      rw [Shape.rowMajor_val_two, Shape.rowMajor_val_three]
      show (26 * b.val + f.val) * 128 + k.val = (b.val * 26 + f.val) * 128 + k.val
      omega)]
  unfold outG
  refine congrArg t (funext fun a => ?_)
  match a with
  | ⟨0, _⟩ =>
    show rowOfWord _ = (⟨(x (ix2 b f)).toNat, hx _⟩ : Fin 100000)
    refine Fin.ext ?_
    rw [shapeCast_apply x shapeCasts_S16384x26_S32x104x128 _ (ix2 b f) (by
      rw [Shape.rowMajor_val_two, Shape.rowMajor_val_three]
      show b.val * 26 + f.val = ((26 * b.val + f.val) / 13312 * 104 + (26 * b.val + f.val) % 13312 / 128) * 128 + (26 * b.val + f.val) % 128
      omega)]
    exact rowOfWord_val_of_lt (hx _)
  | ⟨1, _⟩ => rfl

end Cert.Proof.KI

end
-- ==== Proof.IdealTile.lean ====
/-
  The task of one vector subcore: it fetches its row of the index array (the 104 × 128 indices of its 13312 output
  rows), starts the gathers of its first four chunks, runs the loop over its chunks, and waits for the last four
  write-backs. Each of its 13312 rows of the output ends at the row of the table its index names.
-/
import proofs.«204381_g2808908611931_cont_9to1_1564_4_alg».proof.Proof.IdealTrip
import proofs.«204381_g2808908611931_cont_9to1_1564_4_alg».proof.Proof.IdealValue

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "aIdx" => (Memref.whole Cert.KernelIdeal.main_v0_scv : Memref Cert.KernelIdeal.sig Kind.scVector Space.hbm Cert.KernelIdeal.S32x104x128 EltTy.i32)
local notation "aTab" => (Memref.whole Cert.KernelIdeal.main_arg1_scv : Memref Cert.KernelIdeal.sig Kind.scVector Space.hbm Cert.KernelIdeal.S100000x128 EltTy.f32)
local notation "aOut" => (Memref.whole Cert.KernelIdeal.main_v1_scv : Memref Cert.KernelIdeal.sig Kind.scVector Space.hbm Cert.KernelIdeal.S425984x128 EltTy.f32)
local notation "sIdx" => (Memref.whole Cert.KernelIdeal.cc0_scratch0 : Memref Cert.KernelIdeal.sig Kind.scVector Space.vmem Cert.KernelIdeal.S104x128 EltTy.i32)
local notation "sB0" => (Memref.whole Cert.KernelIdeal.cc0_scratch1 : Memref Cert.KernelIdeal.sig Kind.scVector Space.vmem Cert.KernelIdeal.S128x128 EltTy.f32)
local notation "sB1" => (Memref.whole Cert.KernelIdeal.cc0_scratch2 : Memref Cert.KernelIdeal.sig Kind.scVector Space.vmem Cert.KernelIdeal.S128x128 EltTy.f32)
local notation "sB2" => (Memref.whole Cert.KernelIdeal.cc0_scratch3 : Memref Cert.KernelIdeal.sig Kind.scVector Space.vmem Cert.KernelIdeal.S128x128 EltTy.f32)
local notation "sB3" => (Memref.whole Cert.KernelIdeal.cc0_scratch4 : Memref Cert.KernelIdeal.sig Kind.scVector Space.vmem Cert.KernelIdeal.S128x128 EltTy.f32)

variable [FloatOps F]
variable (d : Dev nD) (L : grid0.Coords)

omit [FloatOps F] in
theorem cell_ne {a b : DmaSem sig} (h : a ≠ b) : ((thr d L, SemLoc.dma a) : GSem nD τ sig) ≠ (thr d L, SemLoc.dma b) :=
  fun e => h (SemLoc.dma.inj (Prod.mk.inj e).2)

omit [FloatOps F] in
theorem cell_mem (a : DmaSem sig) : ((thr d L, SemLoc.dma a) : GSem nD τ sig) ∈ ownCells (thr d L) :=
  mem_ownCells.mpr ⟨rfl, by show (SemLoc.dma a : SemLoc sig).isScoped .scVector = true; revert a; decide⟩

omit [FloatOps F] in
/-- The subcore's own semaphores at zero: the kernel's nine DMA semaphores, and the rest. -/
theorem ownSems0_V :
    (ownSems0 (thr d L) : sProp 𝕄)
      = iprop(semVal ((thr d L, SemLoc.dma cc0_scoped0.sem) : GSem nD τ sig) 0
          ∗ semVal ((thr d L, SemLoc.dma cc0_scratch5.sem) : GSem nD τ sig) 0
          ∗ semVal ((thr d L, SemLoc.dma cc0_scratch6.sem) : GSem nD τ sig) 0
          ∗ semVal ((thr d L, SemLoc.dma cc0_scratch7.sem) : GSem nD τ sig) 0
          ∗ semVal ((thr d L, SemLoc.dma cc0_scratch8.sem) : GSem nD τ sig) 0
          ∗ semVal ((thr d L, SemLoc.dma cc0_scratch9.sem) : GSem nD τ sig) 0
          ∗ semVal ((thr d L, SemLoc.dma cc0_scratch10.sem) : GSem nD τ sig) 0
          ∗ semVal ((thr d L, SemLoc.dma cc0_scratch11.sem) : GSem nD τ sig) 0
          ∗ semVal ((thr d L, SemLoc.dma cc0_scratch12.sem) : GSem nD τ sig) 0
          ∗ bigSep ((((((((((ownCells (thr d L)).erase ((thr d L, SemLoc.dma cc0_scoped0.sem) : GSem nD τ sig)).erase ((thr d L, SemLoc.dma cc0_scratch5.sem) : GSem nD τ sig)).erase ((thr d L, SemLoc.dma cc0_scratch6.sem) : GSem nD τ sig)).erase ((thr d L, SemLoc.dma cc0_scratch7.sem) : GSem nD τ sig)).erase ((thr d L, SemLoc.dma cc0_scratch8.sem) : GSem nD τ sig)).erase ((thr d L, SemLoc.dma cc0_scratch9.sem) : GSem nD τ sig)).erase ((thr d L, SemLoc.dma cc0_scratch10.sem) : GSem nD τ sig)).erase ((thr d L, SemLoc.dma cc0_scratch11.sem) : GSem nD τ sig)).erase ((thr d L, SemLoc.dma cc0_scratch12.sem) : GSem nD τ sig)) fun g => semVal g 0) := by
  unfold SparseCore.Cfg.ownSems0
  rw [SparseCore.bigSep_erase' (cell_mem d L cc0_scoped0.sem),
    SparseCore.bigSep_erase' (Finset.mem_erase.mpr ⟨cell_ne d L (show (cc0_scratch5.sem : DmaSem sig) ≠ cc0_scoped0.sem by decide), (cell_mem d L cc0_scratch5.sem)⟩),
    SparseCore.bigSep_erase' (Finset.mem_erase.mpr ⟨cell_ne d L (show (cc0_scratch6.sem : DmaSem sig) ≠ cc0_scratch5.sem by decide), (Finset.mem_erase.mpr ⟨cell_ne d L (show (cc0_scratch6.sem : DmaSem sig) ≠ cc0_scoped0.sem by decide), (cell_mem d L cc0_scratch6.sem)⟩)⟩),
    SparseCore.bigSep_erase' (Finset.mem_erase.mpr ⟨cell_ne d L (show (cc0_scratch7.sem : DmaSem sig) ≠ cc0_scratch6.sem by decide), (Finset.mem_erase.mpr ⟨cell_ne d L (show (cc0_scratch7.sem : DmaSem sig) ≠ cc0_scratch5.sem by decide), (Finset.mem_erase.mpr ⟨cell_ne d L (show (cc0_scratch7.sem : DmaSem sig) ≠ cc0_scoped0.sem by decide), (cell_mem d L cc0_scratch7.sem)⟩)⟩)⟩),
    SparseCore.bigSep_erase' (Finset.mem_erase.mpr ⟨cell_ne d L (show (cc0_scratch8.sem : DmaSem sig) ≠ cc0_scratch7.sem by decide), (Finset.mem_erase.mpr ⟨cell_ne d L (show (cc0_scratch8.sem : DmaSem sig) ≠ cc0_scratch6.sem by decide), (Finset.mem_erase.mpr ⟨cell_ne d L (show (cc0_scratch8.sem : DmaSem sig) ≠ cc0_scratch5.sem by decide), (Finset.mem_erase.mpr ⟨cell_ne d L (show (cc0_scratch8.sem : DmaSem sig) ≠ cc0_scoped0.sem by decide), (cell_mem d L cc0_scratch8.sem)⟩)⟩)⟩)⟩),
    SparseCore.bigSep_erase' (Finset.mem_erase.mpr ⟨cell_ne d L (show (cc0_scratch9.sem : DmaSem sig) ≠ cc0_scratch8.sem by decide), (Finset.mem_erase.mpr ⟨cell_ne d L (show (cc0_scratch9.sem : DmaSem sig) ≠ cc0_scratch7.sem by decide), (Finset.mem_erase.mpr ⟨cell_ne d L (show (cc0_scratch9.sem : DmaSem sig) ≠ cc0_scratch6.sem by decide), (Finset.mem_erase.mpr ⟨cell_ne d L (show (cc0_scratch9.sem : DmaSem sig) ≠ cc0_scratch5.sem by decide), (Finset.mem_erase.mpr ⟨cell_ne d L (show (cc0_scratch9.sem : DmaSem sig) ≠ cc0_scoped0.sem by decide), (cell_mem d L cc0_scratch9.sem)⟩)⟩)⟩)⟩)⟩),
    SparseCore.bigSep_erase' (Finset.mem_erase.mpr ⟨cell_ne d L (show (cc0_scratch10.sem : DmaSem sig) ≠ cc0_scratch9.sem by decide), (Finset.mem_erase.mpr ⟨cell_ne d L (show (cc0_scratch10.sem : DmaSem sig) ≠ cc0_scratch8.sem by decide), (Finset.mem_erase.mpr ⟨cell_ne d L (show (cc0_scratch10.sem : DmaSem sig) ≠ cc0_scratch7.sem by decide), (Finset.mem_erase.mpr ⟨cell_ne d L (show (cc0_scratch10.sem : DmaSem sig) ≠ cc0_scratch6.sem by decide), (Finset.mem_erase.mpr ⟨cell_ne d L (show (cc0_scratch10.sem : DmaSem sig) ≠ cc0_scratch5.sem by decide), (Finset.mem_erase.mpr ⟨cell_ne d L (show (cc0_scratch10.sem : DmaSem sig) ≠ cc0_scoped0.sem by decide), (cell_mem d L cc0_scratch10.sem)⟩)⟩)⟩)⟩)⟩)⟩),
    SparseCore.bigSep_erase' (Finset.mem_erase.mpr ⟨cell_ne d L (show (cc0_scratch11.sem : DmaSem sig) ≠ cc0_scratch10.sem by decide), (Finset.mem_erase.mpr ⟨cell_ne d L (show (cc0_scratch11.sem : DmaSem sig) ≠ cc0_scratch9.sem by decide), (Finset.mem_erase.mpr ⟨cell_ne d L (show (cc0_scratch11.sem : DmaSem sig) ≠ cc0_scratch8.sem by decide), (Finset.mem_erase.mpr ⟨cell_ne d L (show (cc0_scratch11.sem : DmaSem sig) ≠ cc0_scratch7.sem by decide), (Finset.mem_erase.mpr ⟨cell_ne d L (show (cc0_scratch11.sem : DmaSem sig) ≠ cc0_scratch6.sem by decide), (Finset.mem_erase.mpr ⟨cell_ne d L (show (cc0_scratch11.sem : DmaSem sig) ≠ cc0_scratch5.sem by decide), (Finset.mem_erase.mpr ⟨cell_ne d L (show (cc0_scratch11.sem : DmaSem sig) ≠ cc0_scoped0.sem by decide), (cell_mem d L cc0_scratch11.sem)⟩)⟩)⟩)⟩)⟩)⟩)⟩),
    SparseCore.bigSep_erase' (Finset.mem_erase.mpr ⟨cell_ne d L (show (cc0_scratch12.sem : DmaSem sig) ≠ cc0_scratch11.sem by decide), (Finset.mem_erase.mpr ⟨cell_ne d L (show (cc0_scratch12.sem : DmaSem sig) ≠ cc0_scratch10.sem by decide), (Finset.mem_erase.mpr ⟨cell_ne d L (show (cc0_scratch12.sem : DmaSem sig) ≠ cc0_scratch9.sem by decide), (Finset.mem_erase.mpr ⟨cell_ne d L (show (cc0_scratch12.sem : DmaSem sig) ≠ cc0_scratch8.sem by decide), (Finset.mem_erase.mpr ⟨cell_ne d L (show (cc0_scratch12.sem : DmaSem sig) ≠ cc0_scratch7.sem by decide), (Finset.mem_erase.mpr ⟨cell_ne d L (show (cc0_scratch12.sem : DmaSem sig) ≠ cc0_scratch6.sem by decide), (Finset.mem_erase.mpr ⟨cell_ne d L (show (cc0_scratch12.sem : DmaSem sig) ≠ cc0_scratch5.sem by decide), (Finset.mem_erase.mpr ⟨cell_ne d L (show (cc0_scratch12.sem : DmaSem sig) ≠ cc0_scoped0.sem by decide), (cell_mem d L cc0_scratch12.sem)⟩)⟩)⟩)⟩)⟩)⟩)⟩)⟩)]

omit [FloatOps F] in
/-- The subcore's own buffers: the kernel's five scratch buffers at some contents, and the rest. -/
theorem ownBufs_V :
    (ownBufs (thr d L) : sProp 𝕄)
      = iprop((∃ f, (sIdx).view.loc (thr d L) ↦{fullShare} f)
          ∗ (∃ f, (sB0).view.loc (thr d L) ↦{fullShare} f)
          ∗ (∃ f, (sB1).view.loc (thr d L) ↦{fullShare} f)
          ∗ (∃ f, (sB2).view.loc (thr d L) ↦{fullShare} f)
          ∗ (∃ f, (sB3).view.loc (thr d L) ↦{fullShare} f)
          ∗ bigSep ((((((ownRefs (τ := τ) (.scVector (cV L) (jV L))).erase ((Proc.scVector (cV L) (jV L)).devRef cc0_scratch0)).erase ((Proc.scVector (cV L) (jV L)).devRef cc0_scratch1)).erase ((Proc.scVector (cV L) (jV L)).devRef cc0_scratch2)).erase ((Proc.scVector (cV L) (jV L)).devRef cc0_scratch3)).erase ((Proc.scVector (cV L) (jV L)).devRef cc0_scratch4)) fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L)) (b := ((Proc.scVector (cV L) (jV L)).devRef cc0_scratch0)) rfl)).trans ?_
  rw [SparseCore.bigSep_erase' (Finset.mem_erase.mpr ⟨fun e => absurd (Proc.devRef_injective _ e) (show (cc0_scratch1 : Ref sig .scVector) ≠ cc0_scratch0 by decide), (SparseCore.Cfg.mem_ownRefs_of_owner (p := Proc.scVector (cV L) (jV L)) (b := ((Proc.scVector (cV L) (jV L)).devRef cc0_scratch1)) rfl)⟩),
    SparseCore.bigSep_erase' (Finset.mem_erase.mpr ⟨fun e => absurd (Proc.devRef_injective _ e) (show (cc0_scratch2 : Ref sig .scVector) ≠ cc0_scratch1 by decide), (Finset.mem_erase.mpr ⟨fun e => absurd (Proc.devRef_injective _ e) (show (cc0_scratch2 : Ref sig .scVector) ≠ cc0_scratch0 by decide), (SparseCore.Cfg.mem_ownRefs_of_owner (p := Proc.scVector (cV L) (jV L)) (b := ((Proc.scVector (cV L) (jV L)).devRef cc0_scratch2)) rfl)⟩)⟩),
    SparseCore.bigSep_erase' (Finset.mem_erase.mpr ⟨fun e => absurd (Proc.devRef_injective _ e) (show (cc0_scratch3 : Ref sig .scVector) ≠ cc0_scratch2 by decide), (Finset.mem_erase.mpr ⟨fun e => absurd (Proc.devRef_injective _ e) (show (cc0_scratch3 : Ref sig .scVector) ≠ cc0_scratch1 by decide), (Finset.mem_erase.mpr ⟨fun e => absurd (Proc.devRef_injective _ e) (show (cc0_scratch3 : Ref sig .scVector) ≠ cc0_scratch0 by decide), (SparseCore.Cfg.mem_ownRefs_of_owner (p := Proc.scVector (cV L) (jV L)) (b := ((Proc.scVector (cV L) (jV L)).devRef cc0_scratch3)) rfl)⟩)⟩)⟩),
    SparseCore.bigSep_erase' (Finset.mem_erase.mpr ⟨fun e => absurd (Proc.devRef_injective _ e) (show (cc0_scratch4 : Ref sig .scVector) ≠ cc0_scratch3 by decide), (Finset.mem_erase.mpr ⟨fun e => absurd (Proc.devRef_injective _ e) (show (cc0_scratch4 : Ref sig .scVector) ≠ cc0_scratch2 by decide), (Finset.mem_erase.mpr ⟨fun e => absurd (Proc.devRef_injective _ e) (show (cc0_scratch4 : Ref sig .scVector) ≠ cc0_scratch1 by decide), (Finset.mem_erase.mpr ⟨fun e => absurd (Proc.devRef_injective _ e) (show (cc0_scratch4 : Ref sig .scVector) ≠ cc0_scratch0 by decide), (SparseCore.Cfg.mem_ownRefs_of_owner (p := Proc.scVector (cV L) (jV L)) (b := ((Proc.scVector (cV L) (jV L)).devRef cc0_scratch4)) rfl)⟩)⟩)⟩)⟩)]

omit [FloatOps F] in
/-- The table's read share as one read token per gather semaphore, and the remainder. -/
theorem tab_toks (q : PosShare TreeShare) (f : Buf (Elt F) ((aTab).view.loc (thr d L))) :
    ((aTab).view.loc (thr d L) ↦{q} f : sProp 𝕄)
      = iprop(((aTab).view.loc (thr d L) ↦{Transfers.shareDrop q 4} f) ∗ ((aTab).view.loc (thr d L) ↦{Transfers.shareTokN q 0} f)
          ∗ ((aTab).view.loc (thr d L) ↦{Transfers.shareTokN q 1} f) ∗ ((aTab).view.loc (thr d L) ↦{Transfers.shareTokN q 2} f)
          ∗ ((aTab).view.loc (thr d L) ↦{Transfers.shareTokN q 3} f)) := by
  have h : ((aTab).view.loc (thr d L) ↦{q} f : sProp 𝕄) ⊣⊢ _ := Transfers.pointsTo_toks_range q 4
  rw [show Finset.range 4 = {0, 1, 2, 3} by decide, SparseCore.bigSep_insert' (by decide), SparseCore.bigSep_insert' (by decide),
    SparseCore.bigSep_insert' (by decide), bigSep_singleton] at h
  exact BI.equiv_iff.mp ⟨h.1, h.2⟩

/-- The list's four shares, one per slot. -/
def qIv (b : Nat) : PosShare TreeShare := if h : b < 4 then pieceOf fullShare 4 (by decide) ⟨b, h⟩ else fullShare

omit [FloatOps F] in
theorem scr_pieces (f : Buf (Elt F) ((sIdx).view.loc (thr d L))) :
    ((sIdx).view.loc (thr d L) ↦{fullShare} f : sProp 𝕄)
      = iprop(((sIdx).view.loc (thr d L) ↦{qIv 0} f) ∗ ((sIdx).view.loc (thr d L) ↦{qIv 1} f)
          ∗ ((sIdx).view.loc (thr d L) ↦{qIv 2} f) ∗ ((sIdx).view.loc (thr d L) ↦{qIv 3} f)) := by
  rw [pointsTo_piecesOf Finset.univ f (o := 4) (by decide) fullShare, show (Finset.univ : Finset (Fin 4)) = {0, 1, 2, 3} by decide,
    SparseCore.bigSep_insert' (by decide), SparseCore.bigSep_insert' (by decide), SparseCore.bigSep_insert' (by decide), bigSep_singleton]
  rfl

/-- The first row of the subcore's part of the output. -/
def tileBase (L : grid0.Coords) : Nat := 26624 * (L 1).val + 13312 * (L 0).val

set_option maxHeartbeats 2000000 in
/-- The task of vector subcore `(L 0, L 1)`: from a read share of the index array and of the table and its own 13312
    rows of the output, to the same with those rows at the looked-up contents. -/
theorem tile_body (hF : (K (F := F)).Facts) (O : CellTallies nD τ sig (HIx 1)) (W : Waits sig (HIx 1)) (hO : ∀ g, O g none = 0)
    (qi qt : PosShare TreeShare)
    (I : Buf (Elt F) ((aIdx).view.loc (thr d L))) (Tb : Buf (Elt F) ((aTab).view.loc (thr d L))) (m0 : Buf (Elt F) ((aOut).view.loc (thr d L)))
    (hI : ∀ y, (I y).toNat < 100000) :
    (iprop(levAts (K (F := F)).L (K (F := F)).lev ∗ emp
        ∗ (((aIdx).view.loc (thr d L) ↦{qi} I) ∗ ((aTab).view.loc (thr d L) ↦{qt} Tb)
            ∗ ((aOut).view.loc (thr d L) ↦[rowsOf (n0 := 425984) (n1 := 128) (tileBase L) (tileBase L + 13312)]{fullShare} m0))
        ∗ scopedBufs (thr d L) ∗ scopedSems0 (thr d L) ∗ owes (thr d L) O W) : sProp 𝕄)
      ⊢ wp frame (wpE (defs₀ (F := F)) 𝒱₀ (thr d L) none) Set.univ
          (cc0__sc_gather L aIdx (Memref.isWhole_whole _) aTab (Memref.isWhole_whole _) aOut (Memref.isWhole_whole _)
            sIdx (Memref.isWhole_whole _) sB0 (Memref.isWhole_whole _) sB1 (Memref.isWhole_whole _) sB2 (Memref.isWhole_whole _) sB3 (Memref.isWhole_whole _)
            cc0_scratch5 cc0_scratch6 cc0_scratch7 cc0_scratch8 cc0_scratch9 cc0_scratch10 cc0_scratch11 cc0_scratch12 cc0_scoped0)
          fun _ => iprop((((aIdx).view.loc (thr d L) ↦{qi} I) ∗ ((aTab).view.loc (thr d L) ↦{qt} Tb)
              ∗ ((aOut).view.loc (thr d L) ↦[rowsOf (n0 := 425984) (n1 := 128) (tileBase L) (tileBase L + 13312)]{fullShare} outG I Tb))
            ∗ scopedBufs (thr d L) ∗ scopedSems0 (thr d L) ∗ ∃ W', ⌜∀ p ∈ W', p ∈ W ∨ p.2 = none⌝ ∗ owes (thr d L) O W') := by
  rw [(K (F := F)).scopedBufs_V hF d (cV L) (jV L), SparseCore.Cfg.scopedSems0_V (Val := Elt F) d (cV L) (jV L), ownSems0_V, ownBufs_V]
  iintro ⟨#Hlv, -, ⟨HI, HT, Hout⟩, ⟨⟨%f0, Hs⟩, ⟨%g0, H0⟩, ⟨%g1, H1⟩, ⟨%g2, H2⟩, ⟨%g3, H3⟩, Hbufs⟩, ⟨Hc, Hg0, Hg1, Hg2, Hg3, Ho0, Ho1, Ho2, Ho3, Hsems⟩, HO⟩
  ihave Hmw := ((K (F := F)).mayWaits_none (thr := thr d L) hO) $$ Hlv
  ihave HT := (Entails.of_eq (tab_toks d L qt Tb)) $$ HT
  icases HT with ⟨HTd, HT0, HT1, HT2, HT3⟩
  sl_unfold [cc0__sc_gather]
  sl_exec
  -- the list is fetched: the scratch holds row `wid` of the index array; one share of it per slot
  have hw : View.write (Elt F) (sIdx).view f0 (tile_body.sl.dma0 d L I) Finset.univ = idxC L I :=
    (View.write_whole_univ _ _ _).trans (fetch_val_same L I)
  ihave Hs := (Entails.of_eq (congrArg (fun f => ((sIdx).view.loc (thr d L) ↦{fullShare} f : sProp 𝕄)) hw)) $$ Hs
  ihave Hs := (Entails.of_eq (scr_pieces d L (idxC L I))) $$ Hs
  icases Hs with ⟨HI0, HI1, HI2, HI3⟩
  have hC := idxC_inRange L I hI
  ihave Hs' := ((pointsTo_split_subset (ℓ := (rowW ![0, 0] inb_S104x128_S1x128_0_0).view.loc (thr d L)) (I := (rowW ![0, 0] inb_S104x128_S1x128_0_0).view.set) (S := Finset.univ) (q := qIv 0) (f := idxC L I) (Finset.subset_univ _)).1) $$ HI0
  icases Hs' with ⟨Hrow0, Hrest0⟩
  have hin0 : ∀ x, (((rowW ![0, 0] inb_S104x128_S1x128_0_0)).view.read (Elt F) (idxC L I) x).toNat < S100000x128.size gathers_S100000x128_S128x128.axis :=
    list_inRange (F := F) (idxC L I) hC ![0, 0] inb_S104x128_S1x128_0_0 (fun _ => rfl)
  sl_exec
  ihave Hs' := ((pointsTo_split_subset (ℓ := (rowW ![1, 0] inb_S104x128_S1x128_1_0).view.loc (thr d L)) (I := (rowW ![1, 0] inb_S104x128_S1x128_1_0).view.set) (S := Finset.univ) (q := qIv 1) (f := idxC L I) (Finset.subset_univ _)).1) $$ HI1
  icases Hs' with ⟨Hrow1, Hrest1⟩
  have hin1 : ∀ x, (((rowW ![1, 0] inb_S104x128_S1x128_1_0)).view.read (Elt F) (idxC L I) x).toNat < S100000x128.size gathers_S100000x128_S128x128.axis :=
    list_inRange (F := F) (idxC L I) hC ![1, 0] inb_S104x128_S1x128_1_0 (fun _ => rfl)
  sl_exec
  ihave Hs' := ((pointsTo_split_subset (ℓ := (rowW ![2, 0] inb_S104x128_S1x128_2_0).view.loc (thr d L)) (I := (rowW ![2, 0] inb_S104x128_S1x128_2_0).view.set) (S := Finset.univ) (q := qIv 2) (f := idxC L I) (Finset.subset_univ _)).1) $$ HI2
  icases Hs' with ⟨Hrow2, Hrest2⟩
  have hin2 : ∀ x, (((rowW ![2, 0] inb_S104x128_S1x128_2_0)).view.read (Elt F) (idxC L I) x).toNat < S100000x128.size gathers_S100000x128_S128x128.axis :=
    list_inRange (F := F) (idxC L I) hC ![2, 0] inb_S104x128_S1x128_2_0 (fun _ => rfl)
  sl_exec
  ihave Hs' := ((pointsTo_split_subset (ℓ := (rowW ![3, 0] inb_S104x128_S1x128_3_0).view.loc (thr d L)) (I := (rowW ![3, 0] inb_S104x128_S1x128_3_0).view.set) (S := Finset.univ) (q := qIv 3) (f := idxC L I) (Finset.subset_univ _)).1) $$ HI3
  icases Hs' with ⟨Hrow3, Hrest3⟩
  have hin3 : ∀ x, (((rowW ![3, 0] inb_S104x128_S1x128_3_0)).view.read (Elt F) (idxC L I) x).toNat < S100000x128.size gathers_S100000x128_S128x128.axis :=
    list_inRange (F := F) (idxC L I) hC ![3, 0] inb_S104x128_S1x128_3_0 (fun _ => rfl)
  sl_exec
  -- the four first gathers are started: their flights in the invariant's spelling
  ihave Hg0 := (Transfers.Flight_mono countersEmb (thr d L) (gcanon0 d L qIv qt (idxC L I) Tb (payC (idxC L I) Tb) g0 (tile_body.sl.gather0 d L I Tb hin0) 0 ![0, 0] inb_S104x128_S1x128_0_0 rfl rfl
    (gather_val (idxC L I) Tb ![0, 0] inb_S104x128_S1x128_0_0 (fun _ => rfl) 0 rfl rfl _ hin0))) $$ Hg0
  ihave Hrest0 := (Entails.of_eq (row_rest d L (qIv 0) (idxC L I) ![0, 0] inb_S104x128_S1x128_0_0 rfl (j := 0) rfl)) $$ Hrest0
  ihave Hg1 := (Transfers.Flight_mono countersEmb (thr d L) (gcanon1 d L qIv qt (idxC L I) Tb (payC (idxC L I) Tb) g1 (tile_body.sl.gather0_1 d L I Tb hin1) 1 ![1, 0] inb_S104x128_S1x128_1_0 rfl rfl
    (gather_val (idxC L I) Tb ![1, 0] inb_S104x128_S1x128_1_0 (fun _ => rfl) 1 rfl rfl _ hin1))) $$ Hg1
  ihave Hrest1 := (Entails.of_eq (row_rest d L (qIv 1) (idxC L I) ![1, 0] inb_S104x128_S1x128_1_0 rfl (j := 1) rfl)) $$ Hrest1
  ihave Hg2 := (Transfers.Flight_mono countersEmb (thr d L) (gcanon2 d L qIv qt (idxC L I) Tb (payC (idxC L I) Tb) g2 (tile_body.sl.gather0_2 d L I Tb hin2) 2 ![2, 0] inb_S104x128_S1x128_2_0 rfl rfl
    (gather_val (idxC L I) Tb ![2, 0] inb_S104x128_S1x128_2_0 (fun _ => rfl) 2 rfl rfl _ hin2))) $$ Hg2
  ihave Hrest2 := (Entails.of_eq (row_rest d L (qIv 2) (idxC L I) ![2, 0] inb_S104x128_S1x128_2_0 rfl (j := 2) rfl)) $$ Hrest2
  ihave Hg3 := (Transfers.Flight_mono countersEmb (thr d L) (gcanon3 d L qIv qt (idxC L I) Tb (payC (idxC L I) Tb) g3 (tile_body.sl.gather0_3 d L I Tb hin3) 3 ![3, 0] inb_S104x128_S1x128_3_0 rfl rfl
    (gather_val (idxC L I) Tb ![3, 0] inb_S104x128_S1x128_3_0 (fun _ => rfl) 3 rfl rfl _ hin3))) $$ Hg3
  ihave Hrest3 := (Entails.of_eq (row_rest d L (qIv 3) (idxC L I) ![3, 0] inb_S104x128_S1x128_3_0 rfl (j := 3) rfl)) $$ Hrest3
  -- no row of the subcore's part is written yet
  ihave Hsp := (Entails.of_eq (out_split d L m0 (a := tileBase L) (b := tileBase L + 512 * 0) (c := tileBase L + 13312) (by omega) (by omega))) $$ Hout
  icases Hsp with ⟨Hdone, Htodo⟩
  ihave Hdone := (Entails.of_eq (pointsTo_congr (g := outG I Tb) (fun i hi => absurd hi (by rw [mem_rowsOf]; omega)))) $$ Hdone
  have hpay : ∀ (off : Fin 2 → Nat) (hb : ∀ a, off a + S1x128.size a ≤ S104x128.size a) (j : Nat) (_ : off 0 = j) (_ : off 1 = 0) (hn) (hin),
      SparseCore.gatherPayload gathers_S100000x128_S128x128 (View.read (Elt F) (tabW).view Tb) (SparseCore.rows (View.read (Elt F) (rowW off hb).view (idxC L I)) hn hin) = payC (idxC L I) Tb j :=
    fun off hb j h0 h1 hn hin => gather_val (idxC L I) Tb off hb (fun _ => rfl) j h0 h1 hn hin
  have hCin : ∀ (off : Fin 2 → Nat) (hb : ∀ a, off a + S1x128.size a ≤ S104x128.size a) (x : S128.Idx),
      ((rowW off hb).view.read (Elt F) (idxC L I) x).toNat < S100000x128.size gathers_S100000x128_S128x128.axis :=
    fun off hb => list_inRange (F := F) (idxC L I) hC off hb (fun _ => rfl)
  have hG : ∀ (off : Fin 2 → Nat) (hb : ∀ a, off a + S128x128.size a ≤ S425984x128.size a) (lo j : Nat) (_ : off 0 = lo) (_ : off 1 = 0) (_ : lo = tileBase L + 128 * j) (_ : j < 104),
      ∀ x ∈ rowsOf (n0 := 425984) (n1 := 128) lo (lo + 128), (chunkW off hb).view.writes (Elt F) m0 [⟨Rect.whole S128x128, payC (idxC L I) Tb j⟩] x = outG I Tb x := by
    intro off hb lo j h0 h1 hlo hj x hx
    subst h0
    rw [← View.write_univ_eq_writes_whole]
    exact chunk_val L I Tb m0 off hb (fun _ => rfl) j hj (by rw [hlo]; unfold tileBase widN; omega) h1 x hx
  sl_for (loopInv d L O W qIv qt (idxC L I) Tb (payC (idxC L I) Tb) (outG I Tb) m0 (tileBase L)) $$ [Hmw HO Hdone Htodo Hg0 Hrest0 Ho0 Hg1 Hrest1 Ho1 Hg2 Hrest2 Ho2 Hg3 Hrest3 Ho3]
  case region =>
    intro k acc
    obtain rfl : acc = () := rfl
    by_cases hk : k.val < 25
    · exact trip_lt d L O W qIv qt (idxC L I) Tb (payC (idxC L I) Tb) (outG I Tb) m0 (tileBase L) rfl hCin hpay hG (tile_body.sl.v2 L) 0#32 k hk
    · exact trip_last d L O W qIv qt (idxC L I) Tb (payC (idxC L I) Tb) (outG I Tb) m0 (tileBase L) rfl hCin hpay hG (tile_body.sl.v2 L) 0#32 k hk
  · iapply (Entails.of_eq (show _ = loopInv d L O W qIv qt (idxC L I) Tb (payC (idxC L I) Tb) (outG I Tb) m0 (tileBase L) 0 () from by unfold loopInv; rw [if_pos (show 0 < 26 by decide)]))
    unfold slotG0 slotG1 slotG2 slotG3
    isplitl [Hmw]; · iexact Hmw
    isplitl [HO]
    · iexists _; isplitr
      · ipureintro; exact waits_ins (SemLoc.dma cc0_scoped0.sem) (fun p hp => .inl hp)
      · iexact HO
    isplitl [Hdone]; · iexact Hdone
    isplitl [Htodo]; · iexact Htodo
    isplitl [Hg0 Hrest0 Ho0]
    · isplitl [Hg0]; · iexact Hg0
      isplitl [Hrest0]; · iexact Hrest0
      iexact Ho0
    isplitl [Hg1 Hrest1 Ho1]
    · isplitl [Hg1]; · iexact Hg1
      isplitl [Hrest1]; · iexact Hrest1
      iexact Ho1
    isplitl [Hg2 Hrest2 Ho2]
    · isplitl [Hg2]; · iexact Hg2
      isplitl [Hrest2]; · iexact Hrest2
      iexact Ho2
    · isplitl [Hg3]; · iexact Hg3
      isplitl [Hrest3]; · iexact Hrest3
      iexact Ho3
  iintro %acc HI
  ihave HI := (Entails.of_eq (show loopInv d L O W qIv qt (idxC L I) Tb (payC (idxC L I) Tb) (outG I Tb) m0 (tileBase L) k0_t1_loop.trips acc = _ from by unfold loopInv; rw [if_neg (show ¬ k0_t1_loop.trips < 26 by decide)])) $$ HI
  unfold slotC0 slotC1 slotC2 slotC3
  icases HI with ⟨-, ⟨%W', %hW', HO⟩, Hdone, ⟨Hf0, HI0, HT0, Hg0⟩, ⟨Hf1, HI1, HT1, Hg1⟩, ⟨Hf2, HI2, HT2, Hg2⟩, ⟨Hf3, HI3, HT3, Hg3⟩⟩
  sl_exec
  -- the last four chunks written: the subcore's rows all hold the final contents
  ihave Hdone := (Entails.of_eq (out_cast d L (outG I Tb) (a := tileBase L) (b := tileBase L + 12800) (a' := tileBase L) (b' := tileBase L + 12800 + 0) rfl rfl)) $$ Hdone
  ihave Hf0_dst := (Entails.of_eq (out_cast d L (outG I Tb) (a := tileBase L + 128 * 100) (b := tileBase L + 128 * 100 + 128) (a' := tileBase L + 12800 + 0) (b' := tileBase L + 12800 + 0 + 128) (by omega) (by omega))) $$ Hf0_dst
  ihave Hdone := (Entails.of_eq (out_split d L (outG I Tb) (a := tileBase L) (b := tileBase L + 12800 + 0) (c := tileBase L + 12800 + 0 + 128) (by omega) (by omega)).symm) $$ [Hdone Hf0_dst]
  · isplitl [Hdone] <;> iassumption
  ihave Hdone := (Entails.of_eq (out_cast d L (outG I Tb) (a := tileBase L) (b := tileBase L + 12800 + 0 + 128) (a' := tileBase L) (b' := tileBase L + 12800 + 128) rfl (by omega))) $$ Hdone
  ihave Hf1_dst := (Entails.of_eq (out_cast d L (outG I Tb) (a := tileBase L + 128 * 101) (b := tileBase L + 128 * 101 + 128) (a' := tileBase L + 12800 + 128) (b' := tileBase L + 12800 + 128 + 128) (by omega) (by omega))) $$ Hf1_dst
  ihave Hdone := (Entails.of_eq (out_split d L (outG I Tb) (a := tileBase L) (b := tileBase L + 12800 + 128) (c := tileBase L + 12800 + 128 + 128) (by omega) (by omega)).symm) $$ [Hdone Hf1_dst]
  · isplitl [Hdone] <;> iassumption
  ihave Hdone := (Entails.of_eq (out_cast d L (outG I Tb) (a := tileBase L) (b := tileBase L + 12800 + 128 + 128) (a' := tileBase L) (b' := tileBase L + 12800 + 256) rfl (by omega))) $$ Hdone
  ihave Hf2_dst := (Entails.of_eq (out_cast d L (outG I Tb) (a := tileBase L + 128 * 102) (b := tileBase L + 128 * 102 + 128) (a' := tileBase L + 12800 + 256) (b' := tileBase L + 12800 + 256 + 128) (by omega) (by omega))) $$ Hf2_dst
  ihave Hdone := (Entails.of_eq (out_split d L (outG I Tb) (a := tileBase L) (b := tileBase L + 12800 + 256) (c := tileBase L + 12800 + 256 + 128) (by omega) (by omega)).symm) $$ [Hdone Hf2_dst]
  · isplitl [Hdone] <;> iassumption
  ihave Hdone := (Entails.of_eq (out_cast d L (outG I Tb) (a := tileBase L) (b := tileBase L + 12800 + 256 + 128) (a' := tileBase L) (b' := tileBase L + 12800 + 384) rfl (by omega))) $$ Hdone
  ihave Hf3_dst := (Entails.of_eq (out_cast d L (outG I Tb) (a := tileBase L + 128 * 103) (b := tileBase L + 128 * 103 + 128) (a' := tileBase L + 12800 + 384) (b' := tileBase L + 12800 + 384 + 128) (by omega) (by omega))) $$ Hf3_dst
  ihave Hdone := (Entails.of_eq (out_split d L (outG I Tb) (a := tileBase L) (b := tileBase L + 12800 + 384) (c := tileBase L + 12800 + 384 + 128) (by omega) (by omega)).symm) $$ [Hdone Hf3_dst]
  · isplitl [Hdone] <;> iassumption
  ihave Hdone := (Entails.of_eq (out_cast d L (outG I Tb) (a := tileBase L) (b := tileBase L + 12800 + 384 + 128) (a' := tileBase L) (b' := tileBase L + 13312) rfl (by omega))) $$ Hdone
  -- the list's shares and the table's read tokens put back together
  ihave Hs := (Entails.of_eq (scr_pieces d L (idxC L I)).symm) $$ [HI0 HI1 HI2 HI3]
  · isplitl [HI0]; · iexact HI0
    isplitl [HI1]; · iexact HI1
    isplitl [HI2]; · iexact HI2
    iexact HI3
  ihave HT := (Entails.of_eq (tab_toks d L qt Tb).symm) $$ [HTd HT0 HT1 HT2 HT3]
  · isplitl [HTd]; · iexact HTd
    isplitl [HT0]; · iexact HT0
    isplitl [HT1]; · iexact HT1
    isplitl [HT2]; · iexact HT2
    iexact HT3
  sl_step
  isplitl [HI HT Hdone]
  · isplitl [HI]; · iexact HI
    isplitl [HT]; · iexact HT
    iexact Hdone
  isplitl [Hs Hf0_src Hf1_src Hf2_src Hf3_src Hbufs]
  · isplitl [Hs]; · iexists _; iexact Hs
    isplitl [Hf0_src]; · iexists _; iexact Hf0_src
    isplitl [Hf1_src]; · iexists _; iexact Hf1_src
    isplitl [Hf2_src]; · iexists _; iexact Hf2_src
    isplitl [Hf3_src]; · iexists _; iexact Hf3_src
    iexact Hbufs
  isplitl [Hc Hg0 Hg1 Hg2 Hg3 Hf0 Hf1 Hf2 Hf3 Hsems]
  · isplitl [Hc]; · iexact Hc
    isplitl [Hg0]; · iexact Hg0
    isplitl [Hg1]; · iexact Hg1
    isplitl [Hg2]; · iexact Hg2
    isplitl [Hg3]; · iexact Hg3
    isplitl [Hf0]; · iexact Hf0
    isplitl [Hf1]; · iexact Hf1
    isplitl [Hf2]; · iexact Hf2
    isplitl [Hf3]; · iexact Hf3
    iexact Hsems
  iexists _; isplitr
  · ipureintro
    exact waits_ins (SemLoc.dma cc0_scratch12.sem) (waits_ins (SemLoc.dma cc0_scratch11.sem) (waits_ins (SemLoc.dma cc0_scratch10.sem) (waits_ins (SemLoc.dma cc0_scratch9.sem) (hW'))))
  · iexact HO

end Cert.Proof.KI

end
-- ==== Proof.IdealLaunch.lean ====
/-
  The launch of the embedding-lookup program. @main on the TensorCore reshapes the index array to [32, 104, 128], starts
  the one vector-subcore call on both SparseCores' sixteen subcores and waits for it, and reshapes the output array
  [425984, 128] to [16384, 26, 128]. The call hands each SparseCore a read share of the reshaped index array and of the
  table and its sixteen subcores' row ranges of the output array; each sequencer deals its subcores a piece of those
  shares and their own 13312 rows; each subcore's task leaves its rows at the looked-up contents; the pieces come back
  the same way, the output array whole again at `outG` of the reshaped index array and the table. Every weakly fair
  execution of the device's threads therefore terminates with the result at the specification's lookup of the two
  arguments and the arguments unchanged.
-/
import proofs.«204381_g2808908611931_cont_9to1_1564_4_alg».proof.Proof.IdealTile
import Idealize.ShloMosaic.Lib.SparseCore.Launch
import Idealize.ShloMosaic.Lib.StableHlo.Run
import Idealize.ShloMosaic.Lib.Pipeline.Kit
import Idealize.ShloMosaic.Lib.Tactic

noncomputable section

namespace Cert.Proof.KI

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

local notation "aIdx" => (Memref.whole Cert.KernelIdeal.main_v0_scv : Memref Cert.KernelIdeal.sig Kind.scVector Space.hbm Cert.KernelIdeal.S32x104x128 EltTy.i32)
local notation "aTab" => (Memref.whole Cert.KernelIdeal.main_arg1_scv : Memref Cert.KernelIdeal.sig Kind.scVector Space.hbm Cert.KernelIdeal.S100000x128 EltTy.f32)
local notation "aOut" => (Memref.whole Cert.KernelIdeal.main_v1_scv : Memref Cert.KernelIdeal.sig Kind.scVector Space.hbm Cert.KernelIdeal.S425984x128 EltTy.f32)
local notation "sIdx" => (Memref.whole Cert.KernelIdeal.cc0_scratch0 : Memref Cert.KernelIdeal.sig Kind.scVector Space.vmem Cert.KernelIdeal.S104x128 EltTy.i32)
local notation "sB0" => (Memref.whole Cert.KernelIdeal.cc0_scratch1 : Memref Cert.KernelIdeal.sig Kind.scVector Space.vmem Cert.KernelIdeal.S128x128 EltTy.f32)
local notation "sB1" => (Memref.whole Cert.KernelIdeal.cc0_scratch2 : Memref Cert.KernelIdeal.sig Kind.scVector Space.vmem Cert.KernelIdeal.S128x128 EltTy.f32)
local notation "sB2" => (Memref.whole Cert.KernelIdeal.cc0_scratch3 : Memref Cert.KernelIdeal.sig Kind.scVector Space.vmem Cert.KernelIdeal.S128x128 EltTy.f32)
local notation "sB3" => (Memref.whole Cert.KernelIdeal.cc0_scratch4 : Memref Cert.KernelIdeal.sig Kind.scVector Space.vmem Cert.KernelIdeal.S128x128 EltTy.f32)

/-! ## The launch memory, the arrays and their values -/

variable (m : (ℓ : Loc nD τ sig) → Buf (Elt F) ℓ) (ρ : Dev nD → PrngReg)

/-- The index array and the table (the arguments), the reshaped index array, the output array and the result, as
    locations of device `d`. -/
abbrev xLoc (d : Dev nD) : Loc nD τ sig := (SparseCore.T d).loc main_arg0
abbrev tLoc (d : Dev nD) : Loc nD τ sig := (SparseCore.T d).loc main_arg1
abbrev iLoc (d : Dev nD) : Loc nD τ sig := (SparseCore.T d).loc main_v0
abbrev oLoc (d : Dev nD) : Loc nD τ sig := (SparseCore.T d).loc main_v1
abbrev rLoc (d : Dev nD) : Loc nD τ sig := (SparseCore.T d).loc main_v2

/-- The reshaped index array, -/
def Ival (d : Dev nD) : Buf (Elt F) (iLoc d) := shapeCast S32x104x128 (m (xLoc d)) shapeCasts_S16384x26_S32x104x128
/-- the output array the call leaves, -/
def Gval (d : Dev nD) : Buf (Elt F) (oLoc d) := outG (Ival m d) (m (tLoc d))
/-- and the result. -/
def Rval (d : Dev nD) : Buf (Elt F) (rLoc d) := shapeCast S16384x26x128 (Gval m d) shapeCasts_S425984x128_S16384x26x128

/-! ## Shares and rows -/

/-- A SparseCore's share of a read-only array, and a subcore's piece of it. -/
def qS (c : Fin 2) : PosShare TreeShare := pieceOf fullShare 2 (by decide) c
def qT (c : Fin 2) (i : Fin 16) : PosShare TreeShare := pieceOf (qS c) 16 (by decide) i

/-- A subcore's grid coordinates from its SparseCore's and its own number. -/
def coordsV (c : Fin (grid0.bound 0)) (s : Fin (grid0.bound 1)) : grid0.Coords :=
  fun | 0 => c | 1 => s | ⟨_ + 2, h⟩ => absurd h (Nat.not_lt.2 (Nat.le_add_left _ _))

/-- The output rows of subcore `i` of SparseCore `c`. -/
def tRows (c : Fin 2) (i : Fin 16) : Finset S425984x128.Idx :=
  rowsOf (n0 := 425984) (n1 := 128) (tileBase (coordsV c i)) (tileBase (coordsV c i) + 13312)

theorem tileBase_coordsV (c : Fin 2) (i : Fin 16) : tileBase (coordsV c i) = 13312 * (2 * i.val + c.val) := by
  show 26624 * i.val + 13312 * c.val = _
  omega

theorem mem_tRows {c : Fin 2} {i : Fin 16} {x : S425984x128.Idx} :
    x ∈ tRows c i ↔ 13312 * (2 * i.val + c.val) ≤ (x 0).val ∧ (x 0).val < 13312 * (2 * i.val + c.val) + 13312 := by
  unfold tRows; rw [mem_rowsOf, tileBase_coordsV]

/-- Different subcores' rows are disjoint, -/
theorem tRows_disjoint : ∀ p ∈ (Finset.univ : Finset (Fin 2 × Fin 16)), ∀ p' ∈ (Finset.univ : Finset (Fin 2 × Fin 16)), p ≠ p' →
    Disjoint (tRows p.1 p.2) (tRows p'.1 p'.2) := by
  intro p _ p' _ hne
  rw [Finset.disjoint_left]
  intro x h1 h2
  rw [mem_tRows] at h1 h2
  apply hne
  have hc : p.1.val < 2 := p.1.isLt
  have hc' : p'.1.val < 2 := p'.1.isLt
  have e : 2 * p.2.val + p.1.val = 2 * p'.2.val + p'.1.val := by omega
  exact Prod.ext (Fin.ext (by omega)) (Fin.ext (by omega))

/-- and together they are the whole output array: row `r` is subcore `(r / 13312 % 2, r / 26624)`'s. -/
theorem tRows_cover : (Finset.univ : Finset (Fin 2 × Fin 16)).biUnion (fun p => tRows p.1 p.2) = Finset.univ := by
  ext x
  simp only [Finset.mem_biUnion, Finset.mem_univ, true_and, iff_true]
  have hx : (x 0).val < 425984 := idx2_lt0 x
  refine ⟨(⟨(x 0).val / 13312 % 2, by omega⟩, ⟨(x 0).val / 26624, by omega⟩), ?_⟩
  rw [mem_tRows]
  show 13312 * (2 * ((x 0).val / 26624) + (x 0).val / 13312 % 2) ≤ (x 0).val
    ∧ (x 0).val < 13312 * (2 * ((x 0).val / 26624) + (x 0).val / 13312 % 2) + 13312
  omega

/-! ## What the handshakes carry -/

variable [FloatOps F]

/-- A subcore's operands: its pieces of the two read-only arrays and its rows of the output array at `fo`. -/
def tileGo (d : Dev nD) (c : Fin 2) (i : Fin 16) (fo : Buf (Elt F) (oLoc d)) : sProp 𝕄 :=
  iprop((iLoc d ↦{qT c i} Ival m d) ∗ (tLoc d ↦{qT c i} m (tLoc d)) ∗ (oLoc d ↦[tRows c i]{fullShare} fo))

/-- A SparseCore's operands: its shares of the two read-only arrays and its sixteen subcores' rows at `fo`. -/
def coreSt (d : Dev nD) (c : Fin 2) (fo : Buf (Elt F) (oLoc d)) : sProp 𝕄 :=
  iprop((iLoc d ↦{qS c} Ival m d) ∗ (tLoc d ↦{qS c} m (tLoc d)) ∗ bigSep Finset.univ fun i : Fin 16 => oLoc d ↦[tRows c i]{fullShare} fo)

/-- The one call takes each SparseCore's operands with the output array at its launch contents, each subcore its own,
    and brings them back with the output array at the looked-up contents. -/
def P : (K (F := F)).Pay (nD := nD) (Val := Elt F) (Name := ℕ) (U := UU) where
  st := fun q d c => match q with | 0 => coreSt m d (Fin.cast nCore_zero c) (m (oLoc d))
  dn := fun q d c => match q with | 0 => coreSt m d (Fin.cast nCore_zero c) (Gval m d)
  go := fun q d c i => match q with | 0 => tileGo m d (Fin.cast nCore_zero c) (Fin.cast nSub_zero i) (m (oLoc d))
  td := fun q d c i => match q with | 0 => tileGo m d (Fin.cast nCore_zero c) (Fin.cast nSub_zero i) (Gval m d)
  x := fun _ _ => iprop(emp)

instance tileGo_storable (d : Dev nD) (c : Fin 2) (i : Fin 16) (fo : Buf (Elt F) (oLoc d)) :
    BI.Storable (upEmb : UEmb _ 𝕄) (tileGo m d c i fo) := by unfold tileGo; infer_instance
instance coreSt_storable (d : Dev nD) (c : Fin 2) (fo : Buf (Elt F) (oLoc d)) :
    BI.Storable (upEmb : UEmb _ 𝕄) (coreSt m d c fo) := by unfold coreSt; infer_instance

instance P_storable : (P (F := F) m).IsStorable where
  st q d c := match q with | 0 => (inferInstance : BI.Storable (upEmb : UEmb _ 𝕄) (coreSt m d (Fin.cast nCore_zero c) (m (oLoc d))))
  dn q d c := match q with | 0 => (inferInstance : BI.Storable (upEmb : UEmb _ 𝕄) (coreSt m d (Fin.cast nCore_zero c) (Gval m d)))
  go q d c i := match q with
    | 0 => (inferInstance : BI.Storable (upEmb : UEmb _ 𝕄) (tileGo m d (Fin.cast nCore_zero c) (Fin.cast nSub_zero i) (m (oLoc d))))
  td q d c i := match q with
    | 0 => (inferInstance : BI.Storable (upEmb : UEmb _ 𝕄) (tileGo m d (Fin.cast nCore_zero c) (Fin.cast nSub_zero i) (Gval m d)))

/-! ## The launch theorem's obligations -/

theorem defs₀_vector (c : Fin τ.nSC) (s : Fin τ.nSub) :
    defs₀ (F := F) (.scVector c s) 0 ()
      = SparseCore.onTile hcore0 hsub0 (fun c s => cc0__sc_gather (coordsV c s)
          aIdx (Memref.isWhole_whole _) aTab (Memref.isWhole_whole _) aOut (Memref.isWhole_whole _)
          sIdx (Memref.isWhole_whole _) sB0 (Memref.isWhole_whole _) sB1 (Memref.isWhole_whole _) sB2 (Memref.isWhole_whole _) sB3 (Memref.isWhole_whole _)
          cc0_scratch5 cc0_scratch6 cc0_scratch7 cc0_scratch8 cc0_scratch9 cc0_scratch10 cc0_scratch11 cc0_scratch12 cc0_scoped0) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hF : (K (F := F)).Facts) (hx : ∀ d y, ((Ival m d) y).toNat < 100000) :
    (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body d (coordsV ⟨_, hc.1⟩ ⟨_, hc.2⟩) hF O W hO (qT (Fin.cast nCore_zero c) (Fin.cast nSub_zero i))
    (qT (Fin.cast nCore_zero c) (Fin.cast nSub_zero i)) (Ival m d) (m (tLoc d)) (m (oLoc d)) (hx d)).trans (wp_mono frame _ _ fun _ => obl_post)

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
omit [FloatOps F] in
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

/-- A SparseCore's operands are its subcores' (the shares cut into sixteen pieces), at any contents of the output array. -/
theorem coreSt_eq (d : Dev nD) (c : Fin 2) (fo : Buf (Elt F) (oLoc d)) :
    coreSt m d c fo = bigSep Finset.univ fun i : Fin 16 => tileGo m d c i fo := by
  unfold coreSt tileGo qT
  rw [bigSep_sep', bigSep_sep', ← pointsTo_piecesOf Finset.univ (Ival m d) (by decide) (qS c),
    ← pointsTo_piecesOf Finset.univ (m (tLoc d)) (by decide) (qS c)]

theorem vecSplit : (K (F := F)).VecSplit' (P m) 0 := by
  intro d c
  show coreSt m d (Fin.cast nCore_zero c) (m (oLoc d)) ⊢ |={Set.univ}=> iprop(
      (bigSep Finset.univ fun i : Fin ((K (F := F)).nSub 0) => tileGo m d (Fin.cast nCore_zero c) (Fin.cast nSub_zero i) (m (oLoc d)))
      ∗ ((bigSep Finset.univ fun i : Fin ((K (F := F)).nSub 0) => tileGo m d (Fin.cast nCore_zero c) (Fin.cast nSub_zero i) (Gval m d))
          -∗ coreSt m d (Fin.cast nCore_zero c) (Gval m d)))
  rw [bigSep_tasks (F := F) (fun i => tileGo m d (Fin.cast nCore_zero c) i (m (oLoc d))),
    bigSep_tasks (F := F) (fun i => tileGo m d (Fin.cast nCore_zero c) i (Gval m d)), coreSt_eq, coreSt_eq]
  iintro H; imodintro
  isplitl [H]; · iexact H
  iintro H; iexact H

/-! ## The launch element: the handshakes' rounds; nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

abbrev x' : DevRef τ sig := Proc.devRef .tc (main_arg0 : Ref sig .tc)
abbrev t' : DevRef τ sig := Proc.devRef .tc (main_arg1 : Ref sig .tc)
abbrev i' : DevRef τ sig := Proc.devRef .tc (main_v0 : Ref sig .tc)
abbrev o' : DevRef τ sig := Proc.devRef .tc (main_v1 : Ref sig .tc)
abbrev r' : DevRef τ sig := Proc.devRef .tc (main_v2 : Ref sig .tc)

/-- The two reshapes. -/
abbrev opIn : HloOp τ sig (Elt F) := StableHlo.reshape main_arg0 main_v0 rfl shapeCasts_S16384x26_S32x104x128
abbrev opOut : HloOp τ sig (Elt F) := StableHlo.reshape main_v1 main_v2 rfl shapeCasts_S425984x128_S16384x26x128

/-- The TensorCore's arrays, all unscoped. -/
abbrev S5 : Finset (DevRef τ sig) := {x', t', i', o', r'}

omit [FloatOps F] in
theorem held_S5 (d : Dev nD) (W : Valuation τ sig (Elt F)) :
    (held (T d) S5 W : sProp 𝕄) = iprop((xLoc d ↦{fullShare} W x') ∗ (tLoc d ↦{fullShare} W t') ∗ (iLoc d ↦{fullShare} W i')
      ∗ (oLoc d ↦{fullShare} W o') ∗ rLoc d ↦{fullShare} W r') := by
  unfold held S5
  rw [SparseCore.bigSep_insert' (by decide), SparseCore.bigSep_insert' (by decide), SparseCore.bigSep_insert' (by decide),
    SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄) = iprop((xLoc d ↦{fullShare} W main_arg0) ∗ (tLoc d ↦{fullShare} W main_arg1) ∗ (iLoc d ↦{fullShare} W main_v0)
      ∗ (oLoc d ↦{fullShare} W main_v1) ∗ rLoc d ↦{fullShare} W main_v2) := by
  unfold unscopedBufs
  rw [show (Finset.univ.filter fun b : Ref sig .tc => ¬ b.isScoped) = {main_arg0, main_arg1, main_v0, main_v1, main_v2} by decide,
    SparseCore.bigSep_insert' (by decide), SparseCore.bigSep_insert' (by decide), SparseCore.bigSep_insert' (by decide),
    SparseCore.bigSep_insert' (by decide), bigSep_singleton]

/-- The launch valuation; after the first reshape; after the call. -/
def V0 (d : Dev nD) : Valuation τ sig (Elt F) := fun b => m (d, b)
def V1 (d : Dev nD) : Valuation τ sig (Elt F) := (opIn (F := F)).result (V0 m d)
def V2 (d : Dev nD) : Valuation τ sig (Elt F) := Function.update (V1 m d) o' (Gval m d)
def V3 (d : Dev nD) : Valuation τ sig (Elt F) := (opOut (F := F)).result (V2 m d)

omit [FloatOps F] in
theorem unscoped_held (d : Dev nD) : (unscopedBufs d (fun b => m ((SparseCore.T d).loc b)) : sProp 𝕄) = held (T d) S5 (V0 m d) := by
  rw [unscopedBufs_eq, held_S5]; rfl

theorem V1_x (d : Dev nD) : V1 m d x' = m (xLoc d) :=
  (opIn (F := F)).result_of_not_mem (V0 m d) (b := x') (show x' ∉ ({i'} : Finset (DevRef τ sig)) by decide)
theorem V1_t (d : Dev nD) : V1 m d t' = m (tLoc d) :=
  (opIn (F := F)).result_of_not_mem (V0 m d) (b := t') (show t' ∉ ({i'} : Finset (DevRef τ sig)) by decide)
theorem V1_o (d : Dev nD) : V1 m d o' = m (oLoc d) :=
  (opIn (F := F)).result_of_not_mem (V0 m d) (b := o') (show o' ∉ ({i'} : Finset (DevRef τ sig)) by decide)
theorem V1_r (d : Dev nD) : V1 m d r' = m (rLoc d) :=
  (opIn (F := F)).result_of_not_mem (V0 m d) (b := r') (show r' ∉ ({i'} : Finset (DevRef τ sig)) by decide)
theorem V1_i (d : Dev nD) : V1 m d i' = Ival m d :=
  (StableHlo.reshape_result (τ := τ) (Val := Elt F) main_arg0 main_v0 rfl shapeCasts_S16384x26_S32x104x128 _ _ (V0 m d)).trans rfl

theorem V2_x (d : Dev nD) : V2 m d x' = m (xLoc d) := (Function.update_of_ne (show x' ≠ o' by decide) _ _).trans (V1_x m d)
theorem V2_t (d : Dev nD) : V2 m d t' = m (tLoc d) := (Function.update_of_ne (show t' ≠ o' by decide) _ _).trans (V1_t m d)
theorem V2_i (d : Dev nD) : V2 m d i' = Ival m d := (Function.update_of_ne (show i' ≠ o' by decide) _ _).trans (V1_i m d)
theorem V2_o (d : Dev nD) : V2 m d o' = Gval m d := Function.update_self _ _ _
theorem V2_r (d : Dev nD) : V2 m d r' = m (rLoc d) := (Function.update_of_ne (show r' ≠ o' by decide) _ _).trans (V1_r m d)

theorem V3_x (d : Dev nD) : V3 m d x' = m (xLoc d) :=
  ((opOut (F := F)).result_of_not_mem (V2 m d) (b := x') (show x' ∉ ({r'} : Finset (DevRef τ sig)) by decide)).trans (V2_x m d)
theorem V3_t (d : Dev nD) : V3 m d t' = m (tLoc d) :=
  ((opOut (F := F)).result_of_not_mem (V2 m d) (b := t') (show t' ∉ ({r'} : Finset (DevRef τ sig)) by decide)).trans (V2_t m d)
theorem V3_r (d : Dev nD) : V3 m d r' = Rval m d := by
  refine (StableHlo.reshape_result (τ := τ) (Val := Elt F) main_v1 main_v2 rfl shapeCasts_S425984x128_S16384x26x128 _ _ (V2 m d)).trans ?_
  show (fun i => shapeCast S16384x26x128 (V2 m d o') shapeCasts_S425984x128_S16384x26x128 i) = Rval m d
  rw [V2_o]; rfl

theorem hIn : (opIn (F := F)).bufs ⊆ S5 := show ({x', i'} : Finset (DevRef τ sig)) ⊆ S5 by decide
theorem hOut : (opOut (F := F)).bufs ⊆ S5 := show ({o', r'} : Finset (DevRef τ sig)) ⊆ S5 by decide

/-- The two SparseCores' operands are the three arrays whole (the read-only ones' shares halved, the output array's rows
    dealt to the thirty-two subcores), at any contents of the output array. -/
theorem allSt_eq (d : Dev nD) (fo : Buf (Elt F) (oLoc d)) :
    (bigSep Finset.univ fun c : Fin 2 => coreSt m d c fo)
      = iprop((iLoc d ↦{fullShare} Ival m d) ∗ (tLoc d ↦{fullShare} m (tLoc d)) ∗ oLoc d ↦{fullShare} fo) := by
  unfold coreSt qS
  rw [bigSep_sep', bigSep_sep', ← pointsTo_piecesOf Finset.univ (Ival m d) (by decide) fullShare,
    ← pointsTo_piecesOf Finset.univ (m (tLoc d)) (by decide) fullShare,
    ← bigSep_univ_prod (fun p : Fin 2 × Fin 16 => (oLoc d ↦[tRows p.1 p.2]{fullShare} fo : sProp 𝕄)),
    ← pointsTo_biUnion Finset.univ (ℓ := oLoc d) (fun p : Fin 2 × Fin 16 => tRows p.1 p.2) tRows_disjoint, tRows_cover]

theorem st0_eq (d : Dev nD) :
    (bigSep Finset.univ fun c : Fin ((K (F := F)).nCore 0) => (P m).st 0 d c)
      = iprop((iLoc d ↦{fullShare} Ival m d) ∗ (tLoc d ↦{fullShare} m (tLoc d)) ∗ oLoc d ↦{fullShare} m (oLoc d)) :=
  (bigSep_cores (F := F) (fun c => coreSt m d c (m (oLoc d)))).trans (allSt_eq m d _)
theorem dn0_eq (d : Dev nD) :
    (bigSep Finset.univ fun c : Fin ((K (F := F)).nCore 0) => (P m).dn 0 d c)
      = iprop((iLoc d ↦{fullShare} Ival m d) ∗ (tLoc d ↦{fullShare} m (tLoc d)) ∗ oLoc d ↦{fullShare} Gval m d) :=
  (bigSep_cores (F := F) (fun c => coreSt m d c (Gval m d))).trans (allSt_eq m d _)

/-- What @main leaves the claim: the arguments at their launch contents, the result at its value. -/
abbrev FIN (d : Dev nD) : sProp 𝕄 :=
  iprop((xLoc d ↦{fullShare} m (xLoc d)) ∗ (tLoc d ↦{fullShare} m (tLoc d)) ∗ rLoc d ↦{fullShare} Rval m d)

/-- @main on device `d`'s TensorCore: the first reshape, the call, the second reshape. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, -⟩
  -- the first reshape, over the five arrays
  iapply (wp_hlo_within 𝒱 (SparseCore.T d) none Set.univ (op := opIn) (S := S5) hIn (V := V0 m d)) $$ [Hb Hheld]
  · isplitl [Hb]; · iexact Hb
    iexact Hheld
  iintro ⟨Hb, Hheld⟩
  rw [wp_ret]; imodintro
  ihave Hh := (Entails.of_eq (held_S5 (F := F) d _)) $$ Hheld
  icases Hh with ⟨Hx, Ht, Hi, Ho, Hr⟩
  -- the call
  iapply ((K (F := F)).wp_run (D (F := F)) 𝒱 (EH := EH) (P := P m) κ d 0) $$ [Hst Hi Ht Ho Hb Hx Hr]
  isplitr; · iexact Hctx
  isplitl [Hst]; · iexact Hst
  isplitl [Hi Ht Ho]
  · rw [st0_eq]
    isplitl [Hi]; · iapply (Entails.of_eq (congrArg (fun f => (iLoc d ↦{fullShare} f : sProp 𝕄)) (V1_i m d))); iexact Hi
    isplitl [Ht]; · iapply (Entails.of_eq (congrArg (fun f => (tLoc d ↦{fullShare} f : sProp 𝕄)) (V1_t m d))); iexact Ht
    iapply (Entails.of_eq (congrArg (fun f => (oLoc d ↦{fullShare} f : sProp 𝕄)) (V1_o m d))); iexact Ho
  iintro ⟨Hst, Hdn⟩
  ihave Hdn' := (Entails.of_eq (dn0_eq m d)) $$ Hdn
  icases Hdn' with ⟨Hi, Ht, Ho⟩
  -- the second reshape
  iapply (wp_hlo_within 𝒱 (SparseCore.T d) none Set.univ (op := opOut) (S := S5) hOut (V := V2 m d)) $$ [Hb Hx Ht Hi Ho Hr]
  · isplitl [Hb]; · iexact Hb
    rw [held_S5, V2_x, V2_t, V2_i, V2_o, V2_r]
    isplitl [Hx]; · iapply (Entails.of_eq (congrArg (fun f => (xLoc d ↦{fullShare} f : sProp 𝕄)) (V1_x m d))); iexact Hx
    isplitl [Ht]; · iexact Ht
    isplitl [Hi]; · iexact Hi
    isplitl [Ho]; · iexact Ho
    iapply (Entails.of_eq (congrArg (fun f => (rLoc d ↦{fullShare} f : sProp 𝕄)) (V1_r m d))); iexact Hr
  iintro ⟨Hb, Hheld⟩
  ihave Hh := (Entails.of_eq (held_S5 (F := F) d _)) $$ Hheld
  icases Hh with ⟨Hx, Ht, -, -, Hr⟩
  rw [wp_ret]; imodintro; imodintro
  isplitl [Hst]; · iexact Hst
  isplitl [Hx]; · iapply (Entails.of_eq (congrArg (fun f => (xLoc d ↦{fullShare} f : sProp 𝕄)) (V3_x m d))); iexact Hx
  isplitl [Ht]; · iapply (Entails.of_eq (congrArg (fun f => (tLoc d ↦{fullShare} f : sProp 𝕄)) (V3_t m d))); iexact Ht
  iapply (Entails.of_eq (congrArg (fun f => (rLoc d ↦{fullShare} f : sProp 𝕄)) (V3_r m d))); iexact Hr

def fq (d : Dev nD) (s' : Phys nD τ sig (Elt F)) : Prop :=
  s'.mem.mem (rLoc d) = Rval m d ∧ s'.mem.mem (xLoc d) = m (xLoc d) ∧ s'.mem.mem (tLoc d) = m (tLoc d)

theorem hfin (d : Dev nD) (s' : Phys nD τ sig (Elt F)) : iprop(FIN m d ∗ SI s') ⊢ (⌜fq m d s'⌝ : sProp 𝕄) := by
  iintro ⟨⟨Hx, Ht, Hr⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%h1, HSI, -⟩
  ihave H := (persistent_entails_right (SI_pointsTo_agree (st := s') (ℓ := tLoc d) (I := Finset.univ) (q := fullShare) (f := m (tLoc d)))) $$ [HSI Ht]
  · isplitl [HSI] <;> iassumption
  icases H with ⟨%h2, HSI, -⟩
  ihave H := (SI_pointsTo_agree (st := s') (ℓ := rLoc d) (I := Finset.univ) (q := fullShare) (f := Rval m d)) $$ [HSI Hr]
  · isplitl [HSI] <;> iassumption
  icases H with %h3
  ipureintro
  exact ⟨funext fun i => h3 i (Finset.mem_univ i), funext fun i => h1 i (Finset.mem_univ i), funext fun i => h2 i (Finset.mem_univ i)⟩

/-! ## The program's run -/

def QC : PUnit × MemSt nD τ sig (Elt F) → Prop := fun r => ∀ c : Dev nD,
  r.2.mem (rLoc c) = Cert.Spec.lookup (m (xLoc c)) (m (tLoc c)) ∧ r.2.mem (xLoc c) = m (xLoc c) ∧ r.2.mem (tLoc c) = m (tLoc c)

/-- The result's value is the specification's lookup, every index in range. -/
theorem Rval_eq (hx : ∀ d, Cert.Spec.InRange (m (xLoc d))) (d : Dev nD) : Rval m d = Cert.Spec.lookup (m (xLoc d)) (m (tLoc d)) :=
  result_val (m (xLoc d)) (m (tLoc d)) (hx d)

/-- Every weakly fair execution of the device's threads terminates with the result at the specification's lookup of
    the two arguments' launch contents and the arguments unchanged, every index in range. -/
theorem run_main [∀ e, Nonempty (Elt F e)] (hx : ∀ d, Cert.Spec.InRange (m (xLoc d))) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m facts (fun d => reshaped_inRange (m (xLoc d)) (hx d)))
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m)
    (fun s' h c => ⟨(h c).1.trans (Rval_eq m hx c), (h c).2.1, (h c).2.2⟩)

end Cert.Proof.KI

end
-- ==== Proof.BitsBase.lean ====
/-
  The embedding-lookup kernel as the launch theorem sees it: the program's configuration, the ghost state (the
  handshakes' rounds beside the local transfers' counters), the arrays and scratch buffers of one vector subcore,
  and the row ranges of the output array each subcore and each chunk owns.
-/
import proofs.«204381_g2808908611931_cont_9to1_1564_4_alg».proof.Kernel
import proofs.«204381_g2808908611931_cont_9to1_1564_4_alg».proof.Proof.Gen.Kernel
import proofs.«204381_g2808908611931_cont_9to1_1564_4_alg».proof.Proof.Gen.Kernel.Skeleton
import proofs.«204381_g2808908611931_cont_9to1_1564_4_alg».proof.Proof.Spec
import Idealize.ShloMosaic.Lib.SparseCore.Launch
import Idealize.ShloMosaic.Lib.SparseCore.Stream
import Idealize.ShloMosaic.Lib.StableHlo.Run
import Idealize.ShloMosaic.Lib.Pipeline.Kit
import Idealize.ShloMosaic.Lib.Tactic

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

abbrev EH : Emb UH (MT nD τ sig (HIx 1) (Elt F) ℕ UU ℕ) := embL

end Cert.Proof.KB

end
-- ==== Proof.BitsGeom.lean ====
/-
  Row ranges of a rank-2 array, as sets of indices: the rows numbered lo ≤ r < hi. A range splits at any point in
  between into two disjoint ranges; a rectangle of whole rows is the range of its rows. Over them the output array
  is divided among the vector subcores (13312 rows each) and, inside a subcore's rows, among its chunks of 128.
-/
import proofs.«204381_g2808908611931_cont_9to1_1564_4_alg».proof.Proof.BitsBase

noncomputable section

namespace Cert.Proof.KB

open Cert.Kernel Cert.Kernel.Gen

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (SparseCore.Cfg.HIx 1) (Elt F) ℕ UU ℕ

/-- The rows `lo ≤ r < hi` of a rank-2 array. -/
def rowsOf {n0 n1 : Nat} (lo hi : Nat) : Finset ((⟨2, ![n0, n1]⟩ : Shape).Idx) :=
  Finset.univ.filter fun x => lo ≤ (x 0).val ∧ (x 0).val < hi

theorem mem_rowsOf {n0 n1 : Nat} {lo hi : Nat} {x : (⟨2, ![n0, n1]⟩ : Shape).Idx} :
    x ∈ rowsOf lo hi ↔ lo ≤ (x 0).val ∧ (x 0).val < hi := by
  unfold rowsOf; rw [Finset.mem_filter]; exact ⟨fun h => h.2, fun h => ⟨Finset.mem_univ _, h⟩⟩

theorem rowsOf_union {n0 n1 : Nat} {a b c : Nat} (hab : a ≤ b) (hbc : b ≤ c) :
    (rowsOf a c : Finset ((⟨2, ![n0, n1]⟩ : Shape).Idx)) = rowsOf a b ∪ rowsOf b c := by
  ext x; rw [Finset.mem_union, mem_rowsOf, mem_rowsOf, mem_rowsOf]; omega

theorem rowsOf_disjoint {n0 n1 : Nat} (a b c : Nat) :
    Disjoint (rowsOf a b : Finset ((⟨2, ![n0, n1]⟩ : Shape).Idx)) (rowsOf b c) := by
  rw [Finset.disjoint_left]; intro x h1 h2; rw [mem_rowsOf] at h1 h2; omega

/-- All the rows. -/
theorem rowsOf_all {n0 n1 : Nat} : (rowsOf 0 n0 : Finset ((⟨2, ![n0, n1]⟩ : Shape).Idx)) = Finset.univ := by
  ext x; rw [mem_rowsOf]; exact ⟨fun _ => Finset.mem_univ _, fun _ => ⟨Nat.zero_le _, (x 0).isLt⟩⟩

/-- A rectangle of whole rows is the range of its rows. -/
theorem set_unit_rows {n0 n1 : Nat} {off size : Fin 2 → Nat} {inb} (h1 : off 1 = 0) (hs : size 1 = n1) :
    (Rect.unit (s := (⟨2, ![n0, n1]⟩ : Shape)) off size inb).set = rowsOf (off 0) (off 0 + size 0) := by
  ext x
  rw [Rect.mem_set_unit, mem_rowsOf]
  constructor
  · intro h; exact h 0
  · intro h a
    match a with
    | ⟨0, _⟩ => exact h
    | ⟨1, _⟩ =>
      refine ⟨?_, ?_⟩
      · show off 1 ≤ (x 1).val
        rw [h1]; exact Nat.zero_le _
      · show (x 1).val < off 1 + size 1
        rw [h1, hs, Nat.zero_add]; exact (x 1).isLt

end Cert.Proof.KB

end
-- ==== Proof.BitsTrip.lean ====
/-
  One vector subcore's loop over its chunks, trip by trip. Each of the four slots cycles: the gather of a chunk lands
  in the slot's buffer, the buffer is written back to the chunk's 128 rows of the output, and — while chunks remain —
  the write-back is awaited and the gather of the chunk four ahead is started into the same buffer. Before trip k the
  rows of chunks below 4k hold their final contents, the rows above their launch contents, and the gathers of chunks
  4k … 4k+3 are in flight; after the last trip the four last write-backs are.
-/
import proofs.«204381_g2808908611931_cont_9to1_1564_4_alg».proof.Proof.BitsGeom

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "aIdx" => (Memref.whole Cert.Kernel.main_v0_scv : Memref Cert.Kernel.sig Kind.scVector Space.hbm Cert.Kernel.S32x104x128 EltTy.i32)
local notation "aTab" => (Memref.whole Cert.Kernel.main_arg1_scv : Memref Cert.Kernel.sig Kind.scVector Space.hbm Cert.Kernel.S100000x128 EltTy.f32)
local notation "aOut" => (Memref.whole Cert.Kernel.main_v1_scv : Memref Cert.Kernel.sig Kind.scVector Space.hbm Cert.Kernel.S425984x128 EltTy.f32)
local notation "sIdx" => (Memref.whole Cert.Kernel.cc0_scratch0 : Memref Cert.Kernel.sig Kind.scVector Space.vmem Cert.Kernel.S104x128 EltTy.i32)
local notation "sB0" => (Memref.whole Cert.Kernel.cc0_scratch1 : Memref Cert.Kernel.sig Kind.scVector Space.vmem Cert.Kernel.S128x128 EltTy.f32)
local notation "sB1" => (Memref.whole Cert.Kernel.cc0_scratch2 : Memref Cert.Kernel.sig Kind.scVector Space.vmem Cert.Kernel.S128x128 EltTy.f32)
local notation "sB2" => (Memref.whole Cert.Kernel.cc0_scratch3 : Memref Cert.Kernel.sig Kind.scVector Space.vmem Cert.Kernel.S128x128 EltTy.f32)
local notation "sB3" => (Memref.whole Cert.Kernel.cc0_scratch4 : Memref Cert.Kernel.sig Kind.scVector Space.vmem Cert.Kernel.S128x128 EltTy.f32)

variable [FloatOps F]
variable (d : Dev nD) (L : grid0.Coords)

abbrev cV (L : grid0.Coords) : Fin τ.nSC := (L 0).castLE hcore0
abbrev jV (L : grid0.Coords) : Fin τ.nSub := (L 1).castLE hsub0
abbrev thr (d : Dev nD) (L : grid0.Coords) : Thread nD τ := V d (cV L) (jV L)

variable (O : CellTallies nD τ sig (HIx 1)) (W : Waits sig (HIx 1))
variable (qI : Nat → PosShare TreeShare) (qT : PosShare TreeShare)
variable (C : Buf (Elt F) ((sIdx).view.loc (thr d L))) (Tb : Buf (Elt F) ((aTab).view.loc (thr d L)))
variable (pay : Nat → Buf (Elt F) ((sB0).view.loc (thr d L)))
variable (G m0 : Buf (Elt F) ((aOut).view.loc (thr d L)))
variable (base : Nat)

omit [FloatOps F] in
/-- A range of rows of the output, held, is its two halves. -/
theorem out_split (f : Buf (Elt F) ((aOut).view.loc (thr d L))) {a b c : Nat} (hab : a ≤ b) (hbc : b ≤ c) :
    ((aOut).view.loc (thr d L) ↦[rowsOf (n0 := 425984) (n1 := 128) a c]{fullShare} f : sProp 𝕄)
      = iprop(((aOut).view.loc (thr d L) ↦[rowsOf (n0 := 425984) (n1 := 128) a b]{fullShare} f)
          ∗ ((aOut).view.loc (thr d L) ↦[rowsOf (n0 := 425984) (n1 := 128) b c]{fullShare} f)) := by
  rw [rowsOf_union hab hbc]
  exact BI.equiv_iff.mp ⟨(pointsTo_union (rowsOf_disjoint a b c)).1, (pointsTo_union (rowsOf_disjoint a b c)).2⟩

/-- A chunk of 128 whole rows of the output, as the program slices it. -/
abbrev chunkW (off : Fin 2 → Nat) (hb : ∀ a, off a + S128x128.size a ≤ S425984x128.size a) : Memref sig .scVector .hbm S128x128 .f32 :=
  (aOut).slice (Rect.unit (s := S425984x128) off S128x128.size hb) (fun _ => rfl)

omit [FloatOps F] in
theorem chunk_set' (off : Fin 2 → Nat) (hb) (h1 : off 1 = 0) :
    (chunkW off hb).view.set = rowsOf (n0 := 425984) (n1 := 128) (off 0) (off 0 + 128) := by
  show ((View.whole main_v1_scv).slice (Rect.unit (s := S425984x128) off S128x128.size hb)).set = _
  rw [View.set_slice_whole]
  exact set_unit_rows h1 rfl

omit [FloatOps F] in
/-- The chunk's rows held by range are the chunk held as the program's slice of the output. -/
theorem chunk_own (f : Buf (Elt F) ((aOut).view.loc (thr d L))) (off : Fin 2 → Nat) (hb) (h1 : off 1 = 0) {lo : Nat} (hlo : off 0 = lo) :
    ((aOut).view.loc (thr d L) ↦[rowsOf (n0 := 425984) (n1 := 128) lo (lo + 128)]{fullShare} f : sProp 𝕄)
      = ((chunkW off hb).view.loc (thr d L) ↦[(chunkW off hb).view.set]{fullShare} f) := by
  rw [chunk_set' off hb h1, hlo]

/-- A row of the list, as the program slices and squeezes it. -/
abbrev rowW (off : Fin 2 → Nat) (hb : ∀ a, off a + S1x128.size a ≤ S104x128.size a) : Memref sig .scVector .vmem S128 .i32 :=
  ((sIdx).slice (Rect.unit (s := S104x128) off S1x128.size hb) (fun _ => rfl)).squeeze S128 squeezes_S1x128_S128

omit [FloatOps F] in
theorem row_set' (off : Fin 2 → Nat) (hb) (h1 : off 1 = 0) :
    (rowW off hb).view.set = rowsOf (n0 := 104) (n1 := 128) (off 0) (off 0 + 1) := by
  show (((View.whole cc0_scratch0).slice (Rect.unit (s := S104x128) off S1x128.size hb)).reshape S128 squeezes_S1x128_S128.numel_eq).set = _
  rw [View.set_reshape, View.set_slice_whole]
  exact set_unit_rows h1 rfl

omit [FloatOps F] in
theorem off3_row (k : Fin k0_t1_loop.trips) (r : Fin 4) :
    k0_off3 L k (BitVec.ofNat 32 r.val) 0 = 26624 * (L 1).val + 13312 * (L 0).val + 512 * k.val + 128 * r.val :=
  congrFun (k0_off3_eq L k r) 0
omit [FloatOps F] in
theorem off3_col (k : Fin k0_t1_loop.trips) (r : Fin 4) : k0_off3 L k (BitVec.ofNat 32 r.val) 1 = 0 :=
  congrFun (k0_off3_eq L k r) 1

omit [FloatOps F] in
/-- The same rows, named by other expressions for their bounds. -/
theorem out_cast (f : Buf (Elt F) ((aOut).view.loc (thr d L))) {a b a' b' : Nat} (ha : a = a') (hb : b = b') :
    ((aOut).view.loc (thr d L) ↦[rowsOf (n0 := 425984) (n1 := 128) a b]{fullShare} f : sProp 𝕄)
      = ((aOut).view.loc (thr d L) ↦[rowsOf (n0 := 425984) (n1 := 128) a' b']{fullShare} f) := by
  rw [ha, hb]

omit [FloatOps F] in
/-- A row of the list held as the program's row slice is the row held by its number. -/
theorem row_own (q : PosShare TreeShare) (f : Buf (Elt F) ((sIdx).view.loc (thr d L))) (off : Fin 2 → Nat) (hb) (h1 : off 1 = 0) {j : Nat} (h0 : off 0 = j) :
    ((rowW off hb).view.loc (thr d L) ↦[(rowW off hb).view.set]{q} f : sProp 𝕄)
      = ((sIdx).view.loc (thr d L) ↦[rowsOf (n0 := 104) (n1 := 128) j (j + 1)]{q} f) := by
  rw [row_set' off hb h1, h0]

omit [FloatOps F] in
theorem row_rest (q : PosShare TreeShare) (f : Buf (Elt F) ((sIdx).view.loc (thr d L))) (off : Fin 2 → Nat) (hb) (h1 : off 1 = 0) {j : Nat} (h0 : off 0 = j) :
    ((rowW off hb).view.loc (thr d L) ↦[Finset.univ \ (rowW off hb).view.set]{q} f : sProp 𝕄)
      = ((sIdx).view.loc (thr d L) ↦[Finset.univ \ rowsOf (n0 := 104) (n1 := 128) j (j + 1)]{q} f) := by
  rw [row_set' off hb h1, h0]

/-- The table, whole, as the program slices it. -/
abbrev tabW : Memref sig .scVector .hbm S100000x128 .f32 :=
  (aTab).slice (Rect.unit (s := S100000x128) ![0, 0] S100000x128.size inb_S100000x128_S100000x128_0_0) (fun _ => rfl)

omit [FloatOps F] in
theorem tab_set' : (tabW).view.set = Finset.univ := by
  show ((View.whole main_arg1_scv).slice (Rect.unit (s := S100000x128) ![0, 0] S100000x128.size inb_S100000x128_S100000x128_0_0)).set = _
  rw [View.set_slice_whole, set_unit_rows (n0 := 100000) (n1 := 128) rfl rfl]
  exact rowsOf_all

omit [FloatOps F] in
/-- One more wait at no index keeps the recorded waits within the launch's and those at no index. -/
theorem waits_ins {W W' : Waits sig (HIx 1)} (sm : SemLoc sig) (h : ∀ p ∈ W', p ∈ W ∨ p.2 = none) :
    ∀ p ∈ insert (sm, (default : HIx 1)) W', p ∈ W ∨ p.2 = none := by
  intro p hp
  rcases Finset.mem_insert.mp hp with rfl | hp
  · exact .inr rfl
  · exact h p hp

omit [FloatOps F] in
/-- What slot 0's gather hands back, respelt: the buffer at the gathered rows `p`, the list's row by its number, the
    table's read share whole. -/
theorem gcanon0 (g p : Buf (Elt F) ((sB0).view.loc (thr d L))) (j : Nat) (off : Fin 2 → Nat) (hb) (h0 : off 0 = j) (h1 : off 1 = 0) (hp : p = pay j) :
    (iprop((((sB0).view.loc (thr d L) ↦{fullShare} (sB0).view.writes (Elt F) g [⟨Rect.whole _, p⟩])
          ∗ ((rowW off hb).view.loc (thr d L) ↦[(rowW off hb).view.set]{qI 0} C))
        ∗ ((aTab).view.loc (thr d L) ↦[(tabW).view.set]{Transfers.shareTokN qT 0} Tb)) : sProp 𝕄)
      ⊢ iprop((((sB0).view.loc (thr d L) ↦{fullShare} pay j) ∗ ((sIdx).view.loc (thr d L) ↦[rowsOf (n0 := 104) (n1 := 128) j (j + 1)]{qI 0} C))
        ∗ ((aTab).view.loc (thr d L) ↦{Transfers.shareTokN qT 0} Tb)) := by
  subst hp
  rw [row_own d L (qI 0) C off hb h1 h0, tab_set',
    show (sB0).view.writes (Elt F) g [⟨Rect.whole _, pay j⟩] = pay j from
      ((View.write_univ_eq_writes_whole (sB0).view g [] (pay j)).symm.trans (View.write_whole_univ _ _ _))]

omit [FloatOps F] in
/-- What slot 1's gather hands back, respelt: the buffer at the gathered rows `p`, the list's row by its number, the
    table's read share whole. -/
theorem gcanon1 (g p : Buf (Elt F) ((sB1).view.loc (thr d L))) (j : Nat) (off : Fin 2 → Nat) (hb) (h0 : off 0 = j) (h1 : off 1 = 0) (hp : p = pay j) :
    (iprop((((sB1).view.loc (thr d L) ↦{fullShare} (sB1).view.writes (Elt F) g [⟨Rect.whole _, p⟩])
          ∗ ((rowW off hb).view.loc (thr d L) ↦[(rowW off hb).view.set]{qI 1} C))
        ∗ ((aTab).view.loc (thr d L) ↦[(tabW).view.set]{Transfers.shareTokN qT 1} Tb)) : sProp 𝕄)
      ⊢ iprop((((sB1).view.loc (thr d L) ↦{fullShare} pay j) ∗ ((sIdx).view.loc (thr d L) ↦[rowsOf (n0 := 104) (n1 := 128) j (j + 1)]{qI 1} C))
        ∗ ((aTab).view.loc (thr d L) ↦{Transfers.shareTokN qT 1} Tb)) := by
  subst hp
  rw [row_own d L (qI 1) C off hb h1 h0, tab_set',
    show (sB1).view.writes (Elt F) g [⟨Rect.whole _, pay j⟩] = pay j from
      ((View.write_univ_eq_writes_whole (sB1).view g [] (pay j)).symm.trans (View.write_whole_univ _ _ _))]

omit [FloatOps F] in
/-- What slot 2's gather hands back, respelt: the buffer at the gathered rows `p`, the list's row by its number, the
    table's read share whole. -/
theorem gcanon2 (g p : Buf (Elt F) ((sB2).view.loc (thr d L))) (j : Nat) (off : Fin 2 → Nat) (hb) (h0 : off 0 = j) (h1 : off 1 = 0) (hp : p = pay j) :
    (iprop((((sB2).view.loc (thr d L) ↦{fullShare} (sB2).view.writes (Elt F) g [⟨Rect.whole _, p⟩])
          ∗ ((rowW off hb).view.loc (thr d L) ↦[(rowW off hb).view.set]{qI 2} C))
        ∗ ((aTab).view.loc (thr d L) ↦[(tabW).view.set]{Transfers.shareTokN qT 2} Tb)) : sProp 𝕄)
      ⊢ iprop((((sB2).view.loc (thr d L) ↦{fullShare} pay j) ∗ ((sIdx).view.loc (thr d L) ↦[rowsOf (n0 := 104) (n1 := 128) j (j + 1)]{qI 2} C))
        ∗ ((aTab).view.loc (thr d L) ↦{Transfers.shareTokN qT 2} Tb)) := by
  subst hp
  rw [row_own d L (qI 2) C off hb h1 h0, tab_set',
    show (sB2).view.writes (Elt F) g [⟨Rect.whole _, pay j⟩] = pay j from
      ((View.write_univ_eq_writes_whole (sB2).view g [] (pay j)).symm.trans (View.write_whole_univ _ _ _))]

omit [FloatOps F] in
/-- What slot 3's gather hands back, respelt: the buffer at the gathered rows `p`, the list's row by its number, the
    table's read share whole. -/
theorem gcanon3 (g p : Buf (Elt F) ((sB3).view.loc (thr d L))) (j : Nat) (off : Fin 2 → Nat) (hb) (h0 : off 0 = j) (h1 : off 1 = 0) (hp : p = pay j) :
    (iprop((((sB3).view.loc (thr d L) ↦{fullShare} (sB3).view.writes (Elt F) g [⟨Rect.whole _, p⟩])
          ∗ ((rowW off hb).view.loc (thr d L) ↦[(rowW off hb).view.set]{qI 3} C))
        ∗ ((aTab).view.loc (thr d L) ↦[(tabW).view.set]{Transfers.shareTokN qT 3} Tb)) : sProp 𝕄)
      ⊢ iprop((((sB3).view.loc (thr d L) ↦{fullShare} pay j) ∗ ((sIdx).view.loc (thr d L) ↦[rowsOf (n0 := 104) (n1 := 128) j (j + 1)]{qI 3} C))
        ∗ ((aTab).view.loc (thr d L) ↦{Transfers.shareTokN qT 3} Tb)) := by
  subst hp
  rw [row_own d L (qI 3) C off hb h1 h0, tab_set',
    show (sB3).view.writes (Elt F) g [⟨Rect.whole _, pay j⟩] = pay j from
      ((View.write_univ_eq_writes_whole (sB3).view g [] (pay j)).symm.trans (View.write_whole_univ _ _ _))]

omit [FloatOps F] in
/-- What slot 0's write-back hands back, respelt: the chunk's rows of the output at the final contents, the buffer whole. -/
theorem ccanon0 (f : Buf (Elt F) ((aOut).view.loc (thr d L))) (off : Fin 2 → Nat) (hb) (lo j j' : Nat) (h0 : off 0 = lo) (h1 : off 1 = 0)
    (hlo : lo = base + 128 * j) (hj : j' = j) (hf : ∀ x ∈ rowsOf (n0 := 425984) (n1 := 128) lo (lo + 128), f x = G x) :
    (iprop(((chunkW off hb).view.loc (thr d L) ↦[(chunkW off hb).view.set]{fullShare} f)
        ∗ ((sB0).view.loc (thr d L) ↦[(sB0).view.set]{fullShare} pay j')) : sProp 𝕄)
      ⊢ iprop(((aOut).view.loc (thr d L) ↦[rowsOf (n0 := 425984) (n1 := 128) (base + 128 * j) (base + 128 * j + 128)]{fullShare} G)
        ∗ ((sB0).view.loc (thr d L) ↦{fullShare} pay j)) := by
  subst hj hlo
  rw [← chunk_own d L f off hb h1 h0, pointsTo_congr hf, Memref.IsWhole.set_eq_univ (Memref.isWhole_whole _)]

omit [FloatOps F] in
/-- What slot 1's write-back hands back, respelt: the chunk's rows of the output at the final contents, the buffer whole. -/
theorem ccanon1 (f : Buf (Elt F) ((aOut).view.loc (thr d L))) (off : Fin 2 → Nat) (hb) (lo j j' : Nat) (h0 : off 0 = lo) (h1 : off 1 = 0)
    (hlo : lo = base + 128 * j) (hj : j' = j) (hf : ∀ x ∈ rowsOf (n0 := 425984) (n1 := 128) lo (lo + 128), f x = G x) :
    (iprop(((chunkW off hb).view.loc (thr d L) ↦[(chunkW off hb).view.set]{fullShare} f)
        ∗ ((sB1).view.loc (thr d L) ↦[(sB1).view.set]{fullShare} pay j')) : sProp 𝕄)
      ⊢ iprop(((aOut).view.loc (thr d L) ↦[rowsOf (n0 := 425984) (n1 := 128) (base + 128 * j) (base + 128 * j + 128)]{fullShare} G)
        ∗ ((sB1).view.loc (thr d L) ↦{fullShare} pay j)) := by
  subst hj hlo
  rw [← chunk_own d L f off hb h1 h0, pointsTo_congr hf, Memref.IsWhole.set_eq_univ (Memref.isWhole_whole _)]

omit [FloatOps F] in
/-- What slot 2's write-back hands back, respelt: the chunk's rows of the output at the final contents, the buffer whole. -/
theorem ccanon2 (f : Buf (Elt F) ((aOut).view.loc (thr d L))) (off : Fin 2 → Nat) (hb) (lo j j' : Nat) (h0 : off 0 = lo) (h1 : off 1 = 0)
    (hlo : lo = base + 128 * j) (hj : j' = j) (hf : ∀ x ∈ rowsOf (n0 := 425984) (n1 := 128) lo (lo + 128), f x = G x) :
    (iprop(((chunkW off hb).view.loc (thr d L) ↦[(chunkW off hb).view.set]{fullShare} f)
        ∗ ((sB2).view.loc (thr d L) ↦[(sB2).view.set]{fullShare} pay j')) : sProp 𝕄)
      ⊢ iprop(((aOut).view.loc (thr d L) ↦[rowsOf (n0 := 425984) (n1 := 128) (base + 128 * j) (base + 128 * j + 128)]{fullShare} G)
        ∗ ((sB2).view.loc (thr d L) ↦{fullShare} pay j)) := by
  subst hj hlo
  rw [← chunk_own d L f off hb h1 h0, pointsTo_congr hf, Memref.IsWhole.set_eq_univ (Memref.isWhole_whole _)]

omit [FloatOps F] in
/-- What slot 3's write-back hands back, respelt: the chunk's rows of the output at the final contents, the buffer whole. -/
theorem ccanon3 (f : Buf (Elt F) ((aOut).view.loc (thr d L))) (off : Fin 2 → Nat) (hb) (lo j j' : Nat) (h0 : off 0 = lo) (h1 : off 1 = 0)
    (hlo : lo = base + 128 * j) (hj : j' = j) (hf : ∀ x ∈ rowsOf (n0 := 425984) (n1 := 128) lo (lo + 128), f x = G x) :
    (iprop(((chunkW off hb).view.loc (thr d L) ↦[(chunkW off hb).view.set]{fullShare} f)
        ∗ ((sB3).view.loc (thr d L) ↦[(sB3).view.set]{fullShare} pay j')) : sProp 𝕄)
      ⊢ iprop(((aOut).view.loc (thr d L) ↦[rowsOf (n0 := 425984) (n1 := 128) (base + 128 * j) (base + 128 * j + 128)]{fullShare} G)
        ∗ ((sB3).view.loc (thr d L) ↦{fullShare} pay j)) := by
  subst hj hlo
  rw [← chunk_own d L f off hb h1 h0, pointsTo_congr hf, Memref.IsWhole.set_eq_univ (Memref.isWhole_whole _)]

/-- Slot 0 while the gather of chunk `j` flies: the flight hands back the buffer at the chunk's rows, the list's
    row and the table's read share; beside it the rest of the list's share and the write-back's counter at zero. -/
def slotG0 (j : Nat) : sProp 𝕄 :=
  iprop(Transfers.Flight countersEmb (thr d L) (SemLoc.dma cc0_scratch5.sem) default 524288
      iprop((((sB0).view.loc (thr d L) ↦{fullShare} pay j) ∗ ((sIdx).view.loc (thr d L) ↦[rowsOf (n0 := 104) (n1 := 128) j (j + 1)]{qI 0} C))
        ∗ ((aTab).view.loc (thr d L) ↦{Transfers.shareTokN qT 0} Tb))
    ∗ ((sIdx).view.loc (thr d L) ↦[Finset.univ \ rowsOf (n0 := 104) (n1 := 128) j (j + 1)]{qI 0} C)
    ∗ semVal (thr d L, SemLoc.dma cc0_scratch9.sem) 0)

/-- Slot 0 while the write-back of chunk `j` flies: the flight hands back the chunk's rows of the output at their
    final contents and the buffer; beside it the list's share, the table's read share, the gather's counter at zero. -/
def slotC0 (j : Nat) : sProp 𝕄 :=
  iprop(Transfers.Flight countersEmb (thr d L) (SemLoc.dma cc0_scratch9.sem) default 524288
      iprop(((aOut).view.loc (thr d L) ↦[rowsOf (n0 := 425984) (n1 := 128) (base + 128 * j) (base + 128 * j + 128)]{fullShare} G) ∗ ((sB0).view.loc (thr d L) ↦{fullShare} pay j))
    ∗ ((sIdx).view.loc (thr d L) ↦{qI 0} C)
    ∗ ((aTab).view.loc (thr d L) ↦{Transfers.shareTokN qT 0} Tb)
    ∗ semVal (thr d L, SemLoc.dma cc0_scratch5.sem) 0)

/-- Slot 1 while the gather of chunk `j` flies: the flight hands back the buffer at the chunk's rows, the list's
    row and the table's read share; beside it the rest of the list's share and the write-back's counter at zero. -/
def slotG1 (j : Nat) : sProp 𝕄 :=
  iprop(Transfers.Flight countersEmb (thr d L) (SemLoc.dma cc0_scratch6.sem) default 524288
      iprop((((sB1).view.loc (thr d L) ↦{fullShare} pay j) ∗ ((sIdx).view.loc (thr d L) ↦[rowsOf (n0 := 104) (n1 := 128) j (j + 1)]{qI 1} C))
        ∗ ((aTab).view.loc (thr d L) ↦{Transfers.shareTokN qT 1} Tb))
    ∗ ((sIdx).view.loc (thr d L) ↦[Finset.univ \ rowsOf (n0 := 104) (n1 := 128) j (j + 1)]{qI 1} C)
    ∗ semVal (thr d L, SemLoc.dma cc0_scratch10.sem) 0)

/-- Slot 1 while the write-back of chunk `j` flies: the flight hands back the chunk's rows of the output at their
    final contents and the buffer; beside it the list's share, the table's read share, the gather's counter at zero. -/
def slotC1 (j : Nat) : sProp 𝕄 :=
  iprop(Transfers.Flight countersEmb (thr d L) (SemLoc.dma cc0_scratch10.sem) default 524288
      iprop(((aOut).view.loc (thr d L) ↦[rowsOf (n0 := 425984) (n1 := 128) (base + 128 * j) (base + 128 * j + 128)]{fullShare} G) ∗ ((sB1).view.loc (thr d L) ↦{fullShare} pay j))
    ∗ ((sIdx).view.loc (thr d L) ↦{qI 1} C)
    ∗ ((aTab).view.loc (thr d L) ↦{Transfers.shareTokN qT 1} Tb)
    ∗ semVal (thr d L, SemLoc.dma cc0_scratch6.sem) 0)

/-- Slot 2 while the gather of chunk `j` flies: the flight hands back the buffer at the chunk's rows, the list's
    row and the table's read share; beside it the rest of the list's share and the write-back's counter at zero. -/
def slotG2 (j : Nat) : sProp 𝕄 :=
  iprop(Transfers.Flight countersEmb (thr d L) (SemLoc.dma cc0_scratch7.sem) default 524288
      iprop((((sB2).view.loc (thr d L) ↦{fullShare} pay j) ∗ ((sIdx).view.loc (thr d L) ↦[rowsOf (n0 := 104) (n1 := 128) j (j + 1)]{qI 2} C))
        ∗ ((aTab).view.loc (thr d L) ↦{Transfers.shareTokN qT 2} Tb))
    ∗ ((sIdx).view.loc (thr d L) ↦[Finset.univ \ rowsOf (n0 := 104) (n1 := 128) j (j + 1)]{qI 2} C)
    ∗ semVal (thr d L, SemLoc.dma cc0_scratch11.sem) 0)

/-- Slot 2 while the write-back of chunk `j` flies: the flight hands back the chunk's rows of the output at their
    final contents and the buffer; beside it the list's share, the table's read share, the gather's counter at zero. -/
def slotC2 (j : Nat) : sProp 𝕄 :=
  iprop(Transfers.Flight countersEmb (thr d L) (SemLoc.dma cc0_scratch11.sem) default 524288
      iprop(((aOut).view.loc (thr d L) ↦[rowsOf (n0 := 425984) (n1 := 128) (base + 128 * j) (base + 128 * j + 128)]{fullShare} G) ∗ ((sB2).view.loc (thr d L) ↦{fullShare} pay j))
    ∗ ((sIdx).view.loc (thr d L) ↦{qI 2} C)
    ∗ ((aTab).view.loc (thr d L) ↦{Transfers.shareTokN qT 2} Tb)
    ∗ semVal (thr d L, SemLoc.dma cc0_scratch7.sem) 0)

/-- Slot 3 while the gather of chunk `j` flies: the flight hands back the buffer at the chunk's rows, the list's
    row and the table's read share; beside it the rest of the list's share and the write-back's counter at zero. -/
def slotG3 (j : Nat) : sProp 𝕄 :=
  iprop(Transfers.Flight countersEmb (thr d L) (SemLoc.dma cc0_scratch8.sem) default 524288
      iprop((((sB3).view.loc (thr d L) ↦{fullShare} pay j) ∗ ((sIdx).view.loc (thr d L) ↦[rowsOf (n0 := 104) (n1 := 128) j (j + 1)]{qI 3} C))
        ∗ ((aTab).view.loc (thr d L) ↦{Transfers.shareTokN qT 3} Tb))
    ∗ ((sIdx).view.loc (thr d L) ↦[Finset.univ \ rowsOf (n0 := 104) (n1 := 128) j (j + 1)]{qI 3} C)
    ∗ semVal (thr d L, SemLoc.dma cc0_scratch12.sem) 0)

/-- Slot 3 while the write-back of chunk `j` flies: the flight hands back the chunk's rows of the output at their
    final contents and the buffer; beside it the list's share, the table's read share, the gather's counter at zero. -/
def slotC3 (j : Nat) : sProp 𝕄 :=
  iprop(Transfers.Flight countersEmb (thr d L) (SemLoc.dma cc0_scratch12.sem) default 524288
      iprop(((aOut).view.loc (thr d L) ↦[rowsOf (n0 := 425984) (n1 := 128) (base + 128 * j) (base + 128 * j + 128)]{fullShare} G) ∗ ((sB3).view.loc (thr d L) ↦{fullShare} pay j))
    ∗ ((sIdx).view.loc (thr d L) ↦{qI 3} C)
    ∗ ((aTab).view.loc (thr d L) ↦{Transfers.shareTokN qT 3} Tb)
    ∗ semVal (thr d L, SemLoc.dma cc0_scratch8.sem) 0)

/-- Before trip `k`: the rows of the subcore's part of the output written so far hold their final contents, the rows
    still to write their launch contents, and each of the four slots has its gather of chunk `4k + b` in flight —
    or, after the last trip, the write-back of its last chunk. -/
def loopInv (k : Nat) (_ : Unit) : sProp 𝕄 :=
  iprop(Transfers.MayWaits (thr d L) (none : HIx 1) O
    ∗ (∃ W', ⌜∀ p ∈ W', p ∈ W ∨ p.2 = none⌝ ∗ owes (thr d L) O W')
    ∗ (if k < 26 then
        iprop(((aOut).view.loc (thr d L) ↦[rowsOf (n0 := 425984) (n1 := 128) base (base + 512 * k)]{fullShare} G)
          ∗ ((aOut).view.loc (thr d L) ↦[rowsOf (n0 := 425984) (n1 := 128) (base + 512 * k) (base + 13312)]{fullShare} m0)
          ∗ slotG0 d L qI qT C Tb pay (4 * k) ∗ slotG1 d L qI qT C Tb pay (4 * k + 1)
          ∗ slotG2 d L qI qT C Tb pay (4 * k + 2) ∗ slotG3 d L qI qT C Tb pay (4 * k + 3))
      else
        iprop(((aOut).view.loc (thr d L) ↦[rowsOf (n0 := 425984) (n1 := 128) base (base + 12800)]{fullShare} G)
          ∗ slotC0 d L qI qT C Tb pay G base 100 ∗ slotC1 d L qI qT C Tb pay G base 101
          ∗ slotC2 d L qI qT C Tb pay G base 102 ∗ slotC3 d L qI qT C Tb pay G base 103)))

theorem cond_true : ∀ k : Fin k0_t1_loop.trips, k.val < 25 → k0_cond1 k = 1#1 ∧ k0_cond2 k = 1#1 ∧ k0_cond3 k = 1#1 ∧ k0_cond4 k = 1#1 := by decide
theorem cond_false : ∀ k : Fin k0_t1_loop.trips, ¬ k.val < 25 → ¬ k0_cond1 k = 1#1 ∧ ¬ k0_cond2 k = 1#1 ∧ ¬ k0_cond3 k = 1#1 ∧ ¬ k0_cond4 k = 1#1 := by decide

theorem trip_lt (hbase : base = 26624 * (L 1).val + 13312 * (L 0).val)
    (hCin : ∀ (off : Fin 2 → Nat) (hb : ∀ a, off a + S1x128.size a ≤ S104x128.size a) (x : S128.Idx),
      ((rowW off hb).view.read (Elt F) C x).toNat < S100000x128.size gathers_S100000x128_S128x128.axis)
    (hpay : ∀ (off : Fin 2 → Nat) (hb : ∀ a, off a + S1x128.size a ≤ S104x128.size a) (j : Nat) (_ : off 0 = j) (_ : off 1 = 0) (hn) (hin),
      SparseCore.gatherPayload gathers_S100000x128_S128x128 (View.read (Elt F) (tabW).view Tb) (SparseCore.rows (View.read (Elt F) (rowW off hb).view C) hn hin) = pay j)
    (hG : ∀ (off : Fin 2 → Nat) (hb : ∀ a, off a + S128x128.size a ≤ S425984x128.size a) (lo j : Nat) (_ : off 0 = lo) (_ : off 1 = 0) (_ : lo = base + 128 * j) (_ : j < 104),
      ∀ x ∈ rowsOf (n0 := 425984) (n1 := 128) lo (lo + 128), (chunkW off hb).view.writes (Elt F) m0 [⟨Rect.whole S128x128, pay j⟩] x = G x) (v2 c0 : BitVec 32) (k : Fin k0_t1_loop.trips) (hk : k.val < 25) :
    loopInv d L O W qI qT C Tb pay G m0 base k.val ()
      ⊢ wp frame (wpE (defs₀ (F := F)) 𝒱₀ (thr d L) none) Set.univ
          (k0_t1_body L aIdx (Memref.isWhole_whole _) aTab (Memref.isWhole_whole _) aOut (Memref.isWhole_whole _)
            sIdx (Memref.isWhole_whole _) sB0 (Memref.isWhole_whole _) sB1 (Memref.isWhole_whole _) sB2 (Memref.isWhole_whole _) sB3 (Memref.isWhole_whole _)
            cc0_scratch5 cc0_scratch6 cc0_scratch7 cc0_scratch8 cc0_scratch9 cc0_scratch10 cc0_scratch11 cc0_scratch12 cc0_scoped0 v2 c0 k ())
          (loopInv d L O W qI qT C Tb pay G m0 base (k.val + 1)) := by
  obtain ⟨hc1, hc2, hc3, hc4⟩ := cond_true k hk
  have hk26 : k.val < 26 := by omega
  unfold loopInv
  rw [if_pos hk26, if_pos (show k.val + 1 < 26 by omega)]
  unfold slotG0 slotG1 slotG2 slotG3
  iintro ⟨#Hmw, ⟨%W', %hW', HO⟩, Hdone, Htodo, ⟨Hf0, Hrest0, Ho0⟩, ⟨Hf1, Hrest1, Ho1⟩, ⟨Hf2, Hrest2, Ho2⟩, ⟨Hf3, Hrest3, Ho3⟩⟩
  ihave Htodo := (Entails.of_eq (show ((aOut).view.loc (thr d L) ↦[rowsOf (n0 := 425984) (n1 := 128) (base + 512 * k.val) (base + 13312)]{fullShare} m0 : sProp 𝕄) = ((aOut).view.loc (thr d L) ↦[rowsOf (n0 := 425984) (n1 := 128) (base + 512 * k.val + 0) (base + 13312)]{fullShare} m0) from rfl)) $$ Htodo
  have hlo0 : k0_off3 L k 0#32 0 = base + 512 * k.val + 0 := by
    rw [hbase]; exact (off3_row L k ⟨0, by decide⟩).trans (by show _ + 128 * 0 = _; omega)
  have hcol0 : k0_off3 L k 0#32 1 = 0 := off3_col L k ⟨0, by decide⟩
  ihave Hsp := (Entails.of_eq (out_split d L m0 (a := base + 512 * k.val + 0) (b := base + 512 * k.val + 0 + 128) (c := base + 13312) (by omega) (by omega))) $$ Htodo
  icases Hsp with ⟨Hch0, Htodo⟩
  ihave Hch0 := (Entails.of_eq (chunk_own d L m0 (k0_off3 L k 0#32) (k0_off3_inb L k 0) hcol0 hlo0)) $$ Hch0
  have hlo1 : k0_off3 L k 1#32 0 = base + 512 * k.val + 128 := by
    rw [hbase]; exact (off3_row L k ⟨1, by decide⟩).trans (by show _ + 128 * 1 = _; omega)
  have hcol1 : k0_off3 L k 1#32 1 = 0 := off3_col L k ⟨1, by decide⟩
  ihave Hsp := (Entails.of_eq (out_split d L m0 (a := base + 512 * k.val + 128) (b := base + 512 * k.val + 128 + 128) (c := base + 13312) (by omega) (by omega))) $$ Htodo
  icases Hsp with ⟨Hch1, Htodo⟩
  ihave Hch1 := (Entails.of_eq (chunk_own d L m0 (k0_off3 L k 1#32) (k0_off3_inb L k 1) hcol1 hlo1)) $$ Hch1
  have hlo2 : k0_off3 L k 2#32 0 = base + 512 * k.val + 256 := by
    rw [hbase]; exact (off3_row L k ⟨2, by decide⟩).trans (by show _ + 128 * 2 = _; omega)
  have hcol2 : k0_off3 L k 2#32 1 = 0 := off3_col L k ⟨2, by decide⟩
  ihave Hsp := (Entails.of_eq (out_split d L m0 (a := base + 512 * k.val + 256) (b := base + 512 * k.val + 256 + 128) (c := base + 13312) (by omega) (by omega))) $$ Htodo
  icases Hsp with ⟨Hch2, Htodo⟩
  ihave Hch2 := (Entails.of_eq (chunk_own d L m0 (k0_off3 L k 2#32) (k0_off3_inb L k 2) hcol2 hlo2)) $$ Hch2
  have hlo3 : k0_off3 L k 3#32 0 = base + 512 * k.val + 384 := by
    rw [hbase]; exact (off3_row L k ⟨3, by decide⟩).trans (by show _ + 128 * 3 = _; omega)
  have hcol3 : k0_off3 L k 3#32 1 = 0 := off3_col L k ⟨3, by decide⟩
  ihave Hsp := (Entails.of_eq (out_split d L m0 (a := base + 512 * k.val + 384) (b := base + 512 * k.val + 384 + 128) (c := base + 13312) (by omega) (by omega))) $$ Htodo
  icases Hsp with ⟨Hch3, Htodo⟩
  ihave Hch3 := (Entails.of_eq (chunk_own d L m0 (k0_off3 L k 3#32) (k0_off3_inb L k 3) hcol3 hlo3)) $$ Hch3
  sl_unfold [k0_t1_body]
  sl_exec
  icases Hf0_dst with ⟨Hb0, Hrow0⟩
  sl_exec
  -- slot 0: the list's row comes back to its share, the next chunk's row goes out
  ihave HI0 := ((pointsTo_split_subset (ℓ := (sIdx).view.loc (thr d L)) (I := rowsOf (n0 := 104) (n1 := 128) (4 * k.val) (4 * k.val + 1)) (S := Finset.univ) (q := qI 0) (f := C) (Finset.subset_univ _)).2) $$ [Hrow0 Hrest0]
  · isplitl [Hrow0] <;> iassumption
  ihave Hs' := ((pointsTo_split_subset (ℓ := (rowW (k0_off5 k) (k0_off5_inb k hc1)).view.loc (thr d L)) (I := (rowW (k0_off5 k) (k0_off5_inb k hc1)).view.set) (S := Finset.univ) (q := qI 0) (f := C) (Finset.subset_univ _)).1) $$ HI0
  icases Hs' with ⟨Hrow0, Hrest0⟩
  have hin0 := hCin (k0_off5 k) (k0_off5_inb k hc1)
  sl_exec
  icases Hf1_dst with ⟨Hb1, Hrow1⟩
  sl_exec
  -- slot 1: the list's row comes back to its share, the next chunk's row goes out
  ihave HI1 := ((pointsTo_split_subset (ℓ := (sIdx).view.loc (thr d L)) (I := rowsOf (n0 := 104) (n1 := 128) (4 * k.val + 1) (4 * k.val + 1 + 1)) (S := Finset.univ) (q := qI 1) (f := C) (Finset.subset_univ _)).2) $$ [Hrow1 Hrest1]
  · isplitl [Hrow1] <;> iassumption
  ihave Hs' := ((pointsTo_split_subset (ℓ := (rowW (k0_off7 k) (k0_off7_inb k hc2)).view.loc (thr d L)) (I := (rowW (k0_off7 k) (k0_off7_inb k hc2)).view.set) (S := Finset.univ) (q := qI 1) (f := C) (Finset.subset_univ _)).1) $$ HI1
  icases Hs' with ⟨Hrow1, Hrest1⟩
  have hin1 := hCin (k0_off7 k) (k0_off7_inb k hc2)
  sl_exec
  icases Hf2_dst with ⟨Hb2, Hrow2⟩
  sl_exec
  -- slot 2: the list's row comes back to its share, the next chunk's row goes out
  ihave HI2 := ((pointsTo_split_subset (ℓ := (sIdx).view.loc (thr d L)) (I := rowsOf (n0 := 104) (n1 := 128) (4 * k.val + 2) (4 * k.val + 2 + 1)) (S := Finset.univ) (q := qI 2) (f := C) (Finset.subset_univ _)).2) $$ [Hrow2 Hrest2]
  · isplitl [Hrow2] <;> iassumption
  ihave Hs' := ((pointsTo_split_subset (ℓ := (rowW (k0_off9 k) (k0_off9_inb k hc3)).view.loc (thr d L)) (I := (rowW (k0_off9 k) (k0_off9_inb k hc3)).view.set) (S := Finset.univ) (q := qI 2) (f := C) (Finset.subset_univ _)).1) $$ HI2
  icases Hs' with ⟨Hrow2, Hrest2⟩
  have hin2 := hCin (k0_off9 k) (k0_off9_inb k hc3)
  sl_exec
  icases Hf3_dst with ⟨Hb3, Hrow3⟩
  sl_exec
  -- slot 3: the list's row comes back to its share, the next chunk's row goes out
  ihave HI3 := ((pointsTo_split_subset (ℓ := (sIdx).view.loc (thr d L)) (I := rowsOf (n0 := 104) (n1 := 128) (4 * k.val + 3) (4 * k.val + 3 + 1)) (S := Finset.univ) (q := qI 3) (f := C) (Finset.subset_univ _)).2) $$ [Hrow3 Hrest3]
  · isplitl [Hrow3] <;> iassumption
  ihave Hs' := ((pointsTo_split_subset (ℓ := (rowW (k0_off11 k) (k0_off11_inb k hc4)).view.loc (thr d L)) (I := (rowW (k0_off11 k) (k0_off11_inb k hc4)).view.set) (S := Finset.univ) (q := qI 3) (f := C) (Finset.subset_univ _)).1) $$ HI3
  icases Hs' with ⟨Hrow3, Hrest3⟩
  have hin3 := hCin (k0_off11 k) (k0_off11_inb k hc4)
  sl_exec
  -- the four chunks written: their rows hold the final contents and join the rows done
  ihave Hdone := (Entails.of_eq (out_cast d L G (a := base) (b := base + 512 * k.val) (a' := base) (b' := base + 512 * k.val + 0) rfl rfl)) $$ Hdone
  ihave Hch0 := (Entails.of_eq (chunk_own d L _ (k0_off3 L k 0#32) (k0_off3_inb L k 0) hcol0 hlo0).symm) $$ Hch0
  ihave Hch0 := (Entails.of_eq (pointsTo_congr (hG (k0_off3 L k 0#32) (k0_off3_inb L k 0) (base + 512 * k.val + 0) (4 * k.val + 0) hlo0 hcol0 (by omega) (by omega)))) $$ Hch0
  ihave Hdone := (Entails.of_eq (out_split d L G (a := base) (b := base + 512 * k.val + 0) (c := base + 512 * k.val + 0 + 128) (by omega) (by omega)).symm) $$ [Hdone Hch0]
  · isplitl [Hdone] <;> iassumption
  ihave Hdone := (Entails.of_eq (out_cast d L G (a := base) (b := base + 512 * k.val + 0 + 128) (a' := base) (b' := base + 512 * k.val + 128) rfl (by omega))) $$ Hdone
  ihave Hch1 := (Entails.of_eq (chunk_own d L _ (k0_off3 L k 1#32) (k0_off3_inb L k 1) hcol1 hlo1).symm) $$ Hch1
  ihave Hch1 := (Entails.of_eq (pointsTo_congr (hG (k0_off3 L k 1#32) (k0_off3_inb L k 1) (base + 512 * k.val + 128) (4 * k.val + 1) hlo1 hcol1 (by omega) (by omega)))) $$ Hch1
  ihave Hdone := (Entails.of_eq (out_split d L G (a := base) (b := base + 512 * k.val + 128) (c := base + 512 * k.val + 128 + 128) (by omega) (by omega)).symm) $$ [Hdone Hch1]
  · isplitl [Hdone] <;> iassumption
  ihave Hdone := (Entails.of_eq (out_cast d L G (a := base) (b := base + 512 * k.val + 128 + 128) (a' := base) (b' := base + 512 * k.val + 256) rfl (by omega))) $$ Hdone
  ihave Hch2 := (Entails.of_eq (chunk_own d L _ (k0_off3 L k 2#32) (k0_off3_inb L k 2) hcol2 hlo2).symm) $$ Hch2
  ihave Hch2 := (Entails.of_eq (pointsTo_congr (hG (k0_off3 L k 2#32) (k0_off3_inb L k 2) (base + 512 * k.val + 256) (4 * k.val + 2) hlo2 hcol2 (by omega) (by omega)))) $$ Hch2
  ihave Hdone := (Entails.of_eq (out_split d L G (a := base) (b := base + 512 * k.val + 256) (c := base + 512 * k.val + 256 + 128) (by omega) (by omega)).symm) $$ [Hdone Hch2]
  · isplitl [Hdone] <;> iassumption
  ihave Hdone := (Entails.of_eq (out_cast d L G (a := base) (b := base + 512 * k.val + 256 + 128) (a' := base) (b' := base + 512 * k.val + 384) rfl (by omega))) $$ Hdone
  ihave Hch3 := (Entails.of_eq (chunk_own d L _ (k0_off3 L k 3#32) (k0_off3_inb L k 3) hcol3 hlo3).symm) $$ Hch3
  ihave Hch3 := (Entails.of_eq (pointsTo_congr (hG (k0_off3 L k 3#32) (k0_off3_inb L k 3) (base + 512 * k.val + 384) (4 * k.val + 3) hlo3 hcol3 (by omega) (by omega)))) $$ Hch3
  ihave Hdone := (Entails.of_eq (out_split d L G (a := base) (b := base + 512 * k.val + 384) (c := base + 512 * k.val + 384 + 128) (by omega) (by omega)).symm) $$ [Hdone Hch3]
  · isplitl [Hdone] <;> iassumption
  ihave Hdone := (Entails.of_eq (out_cast d L G (a := base) (b := base + 512 * k.val + 384 + 128) (a' := base) (b' := base + 512 * (k.val + 1)) rfl (by omega))) $$ Hdone
  ihave Htodo := (Entails.of_eq (out_cast d L m0 (a := base + 512 * k.val + 384 + 128) (b := base + 13312) (a' := base + 512 * (k.val + 1)) (b' := base + 13312) (by omega) rfl)) $$ Htodo
  -- the four gathers started: each flight in the invariant's spelling
  have hr00 : k0_off5 k 0 = (4 * (k.val + 1)) := (congrFun (k0_off5_eq k) 0).trans (by show 4 * k.val + 4 = _; omega)
  have hr01 : k0_off5 k 1 = 0 := congrFun (k0_off5_eq k) 1
  ihave Hf0 := (Transfers.Flight_mono countersEmb (thr d L) (gcanon0 d L qI qT C Tb pay _ (trip_lt.sl.gather0 d L C Tb k hc1 hin0) (4 * (k.val + 1)) (k0_off5 k) (k0_off5_inb k hc1) hr00 hr01
    (hpay (k0_off5 k) (k0_off5_inb k hc1) (4 * (k.val + 1)) hr00 hr01 _ hin0))) $$ Hf0
  ihave Hrest0 := (Entails.of_eq (row_rest d L (qI 0) C (k0_off5 k) (k0_off5_inb k hc1) hr01 hr00)) $$ Hrest0
  have hr10 : k0_off7 k 0 = (4 * (k.val + 1) + 1) := (congrFun (k0_off7_eq k) 0).trans (by show 4 * k.val + 5 = _; omega)
  have hr11 : k0_off7 k 1 = 0 := congrFun (k0_off7_eq k) 1
  ihave Hf1 := (Transfers.Flight_mono countersEmb (thr d L) (gcanon1 d L qI qT C Tb pay _ (trip_lt.sl.gather0_1 d L C Tb k hc2 hin1) (4 * (k.val + 1) + 1) (k0_off7 k) (k0_off7_inb k hc2) hr10 hr11
    (hpay (k0_off7 k) (k0_off7_inb k hc2) (4 * (k.val + 1) + 1) hr10 hr11 _ hin1))) $$ Hf1
  ihave Hrest1 := (Entails.of_eq (row_rest d L (qI 1) C (k0_off7 k) (k0_off7_inb k hc2) hr11 hr10)) $$ Hrest1
  have hr20 : k0_off9 k 0 = (4 * (k.val + 1) + 2) := (congrFun (k0_off9_eq k) 0).trans (by show 4 * k.val + 6 = _; omega)
  have hr21 : k0_off9 k 1 = 0 := congrFun (k0_off9_eq k) 1
  ihave Hf2 := (Transfers.Flight_mono countersEmb (thr d L) (gcanon2 d L qI qT C Tb pay _ (trip_lt.sl.gather0_2 d L C Tb k hc3 hin2) (4 * (k.val + 1) + 2) (k0_off9 k) (k0_off9_inb k hc3) hr20 hr21
    (hpay (k0_off9 k) (k0_off9_inb k hc3) (4 * (k.val + 1) + 2) hr20 hr21 _ hin2))) $$ Hf2
  ihave Hrest2 := (Entails.of_eq (row_rest d L (qI 2) C (k0_off9 k) (k0_off9_inb k hc3) hr21 hr20)) $$ Hrest2
  have hr30 : k0_off11 k 0 = (4 * (k.val + 1) + 3) := (congrFun (k0_off11_eq k) 0).trans (by show 4 * k.val + 7 = _; omega)
  have hr31 : k0_off11 k 1 = 0 := congrFun (k0_off11_eq k) 1
  ihave Hf3 := (Transfers.Flight_mono countersEmb (thr d L) (gcanon3 d L qI qT C Tb pay _ (trip_lt.sl.gather0_3 d L C Tb k hc4 hin3) (4 * (k.val + 1) + 3) (k0_off11 k) (k0_off11_inb k hc4) hr30 hr31
    (hpay (k0_off11 k) (k0_off11_inb k hc4) (4 * (k.val + 1) + 3) hr30 hr31 _ hin3))) $$ Hf3
  ihave Hrest3 := (Entails.of_eq (row_rest d L (qI 3) C (k0_off11 k) (k0_off11_inb k hc4) hr31 hr30)) $$ Hrest3
  sl_step
  isplitl [Hmw]; · iexact Hmw
  isplitl [HO]
  · iexists _; isplitr
    · ipureintro
      exact waits_ins (SemLoc.dma cc0_scratch12.sem) (waits_ins (SemLoc.dma cc0_scratch8.sem) (waits_ins (SemLoc.dma cc0_scratch11.sem) (waits_ins (SemLoc.dma cc0_scratch7.sem) (waits_ins (SemLoc.dma cc0_scratch10.sem) (waits_ins (SemLoc.dma cc0_scratch6.sem) (waits_ins (SemLoc.dma cc0_scratch9.sem) (waits_ins (SemLoc.dma cc0_scratch5.sem) (hW'))))))))
    · iexact HO
  isplitl [Hdone]; · iexact Hdone
  isplitl [Htodo]; · iexact Htodo
  isplitl [Hf0 Hrest0 Ho0]
  · isplitl [Hf0]; · iexact Hf0
    isplitl [Hrest0]; · iexact Hrest0
    iexact Ho0
  isplitl [Hf1 Hrest1 Ho1]
  · isplitl [Hf1]; · iexact Hf1
    isplitl [Hrest1]; · iexact Hrest1
    iexact Ho1
  isplitl [Hf2 Hrest2 Ho2]
  · isplitl [Hf2]; · iexact Hf2
    isplitl [Hrest2]; · iexact Hrest2
    iexact Ho2
  · isplitl [Hf3]; · iexact Hf3
    isplitl [Hrest3]; · iexact Hrest3
    iexact Ho3

theorem trip_last (hbase : base = 26624 * (L 1).val + 13312 * (L 0).val)
    (hCin : ∀ (off : Fin 2 → Nat) (hb : ∀ a, off a + S1x128.size a ≤ S104x128.size a) (x : S128.Idx),
      ((rowW off hb).view.read (Elt F) C x).toNat < S100000x128.size gathers_S100000x128_S128x128.axis)
    (hpay : ∀ (off : Fin 2 → Nat) (hb : ∀ a, off a + S1x128.size a ≤ S104x128.size a) (j : Nat) (_ : off 0 = j) (_ : off 1 = 0) (hn) (hin),
      SparseCore.gatherPayload gathers_S100000x128_S128x128 (View.read (Elt F) (tabW).view Tb) (SparseCore.rows (View.read (Elt F) (rowW off hb).view C) hn hin) = pay j)
    (hG : ∀ (off : Fin 2 → Nat) (hb : ∀ a, off a + S128x128.size a ≤ S425984x128.size a) (lo j : Nat) (_ : off 0 = lo) (_ : off 1 = 0) (_ : lo = base + 128 * j) (_ : j < 104),
      ∀ x ∈ rowsOf (n0 := 425984) (n1 := 128) lo (lo + 128), (chunkW off hb).view.writes (Elt F) m0 [⟨Rect.whole S128x128, pay j⟩] x = G x)
    (v2 c0 : BitVec 32) (k : Fin k0_t1_loop.trips) (hk : ¬ k.val < 25) :
    loopInv d L O W qI qT C Tb pay G m0 base k.val ()
      ⊢ wp frame (wpE (defs₀ (F := F)) 𝒱₀ (thr d L) none) Set.univ
          (k0_t1_body L aIdx (Memref.isWhole_whole _) aTab (Memref.isWhole_whole _) aOut (Memref.isWhole_whole _)
            sIdx (Memref.isWhole_whole _) sB0 (Memref.isWhole_whole _) sB1 (Memref.isWhole_whole _) sB2 (Memref.isWhole_whole _) sB3 (Memref.isWhole_whole _)
            cc0_scratch5 cc0_scratch6 cc0_scratch7 cc0_scratch8 cc0_scratch9 cc0_scratch10 cc0_scratch11 cc0_scratch12 cc0_scoped0 v2 c0 k ())
          (loopInv d L O W qI qT C Tb pay G m0 base (k.val + 1)) := by
  obtain ⟨hc1, hc2, hc3, hc4⟩ := cond_false k hk
  have hk26 : k.val < 26 := k.isLt
  have hk25 : k.val = 25 := by omega
  unfold loopInv
  rw [if_pos hk26, if_neg (show ¬ k.val + 1 < 26 by omega)]
  unfold slotG0 slotG1 slotG2 slotG3 slotC0 slotC1 slotC2 slotC3
  iintro ⟨#Hmw, ⟨%W', %hW', HO⟩, Hdone, Htodo, ⟨Hf0, Hrest0, Ho0⟩, ⟨Hf1, Hrest1, Ho1⟩, ⟨Hf2, Hrest2, Ho2⟩, ⟨Hf3, Hrest3, Ho3⟩⟩
  ihave Htodo := (Entails.of_eq (show ((aOut).view.loc (thr d L) ↦[rowsOf (n0 := 425984) (n1 := 128) (base + 512 * k.val) (base + 13312)]{fullShare} m0 : sProp 𝕄) = ((aOut).view.loc (thr d L) ↦[rowsOf (n0 := 425984) (n1 := 128) (base + 512 * k.val + 0) (base + 13312)]{fullShare} m0) from rfl)) $$ Htodo
  have hlo0 : k0_off3 L k 0#32 0 = base + 512 * k.val + 0 := by
    rw [hbase]; exact (off3_row L k ⟨0, by decide⟩).trans (by show _ + 128 * 0 = _; omega)
  have hcol0 : k0_off3 L k 0#32 1 = 0 := off3_col L k ⟨0, by decide⟩
  ihave Hsp := (Entails.of_eq (out_split d L m0 (a := base + 512 * k.val + 0) (b := base + 512 * k.val + 0 + 128) (c := base + 13312) (by omega) (by omega))) $$ Htodo
  icases Hsp with ⟨Hch0, Htodo⟩
  ihave Hch0 := (Entails.of_eq (chunk_own d L m0 (k0_off3 L k 0#32) (k0_off3_inb L k 0) hcol0 hlo0)) $$ Hch0
  have hlo1 : k0_off3 L k 1#32 0 = base + 512 * k.val + 128 := by
    rw [hbase]; exact (off3_row L k ⟨1, by decide⟩).trans (by show _ + 128 * 1 = _; omega)
  have hcol1 : k0_off3 L k 1#32 1 = 0 := off3_col L k ⟨1, by decide⟩
  ihave Hsp := (Entails.of_eq (out_split d L m0 (a := base + 512 * k.val + 128) (b := base + 512 * k.val + 128 + 128) (c := base + 13312) (by omega) (by omega))) $$ Htodo
  icases Hsp with ⟨Hch1, Htodo⟩
  ihave Hch1 := (Entails.of_eq (chunk_own d L m0 (k0_off3 L k 1#32) (k0_off3_inb L k 1) hcol1 hlo1)) $$ Hch1
  have hlo2 : k0_off3 L k 2#32 0 = base + 512 * k.val + 256 := by
    rw [hbase]; exact (off3_row L k ⟨2, by decide⟩).trans (by show _ + 128 * 2 = _; omega)
  have hcol2 : k0_off3 L k 2#32 1 = 0 := off3_col L k ⟨2, by decide⟩
  ihave Hsp := (Entails.of_eq (out_split d L m0 (a := base + 512 * k.val + 256) (b := base + 512 * k.val + 256 + 128) (c := base + 13312) (by omega) (by omega))) $$ Htodo
  icases Hsp with ⟨Hch2, Htodo⟩
  ihave Hch2 := (Entails.of_eq (chunk_own d L m0 (k0_off3 L k 2#32) (k0_off3_inb L k 2) hcol2 hlo2)) $$ Hch2
  have hlo3 : k0_off3 L k 3#32 0 = base + 512 * k.val + 384 := by
    rw [hbase]; exact (off3_row L k ⟨3, by decide⟩).trans (by show _ + 128 * 3 = _; omega)
  have hcol3 : k0_off3 L k 3#32 1 = 0 := off3_col L k ⟨3, by decide⟩
  ihave Hsp := (Entails.of_eq (out_split d L m0 (a := base + 512 * k.val + 384) (b := base + 512 * k.val + 384 + 128) (c := base + 13312) (by omega) (by omega))) $$ Htodo
  icases Hsp with ⟨Hch3, Htodo⟩
  ihave Hch3 := (Entails.of_eq (chunk_own d L m0 (k0_off3 L k 3#32) (k0_off3_inb L k 3) hcol3 hlo3)) $$ Hch3
  sl_unfold [k0_t1_body]
  sl_exec
  icases Hf0_dst with ⟨Hb0, Hrow0⟩
  sl_exec
  icases Hf1_dst with ⟨Hb1, Hrow1⟩
  sl_exec
  icases Hf2_dst with ⟨Hb2, Hrow2⟩
  sl_exec
  icases Hf3_dst with ⟨Hb3, Hrow3⟩
  sl_exec
  -- the rows done, named by the trip's number
  ihave Hdone := (Entails.of_eq (out_cast d L G (a := base) (b := base + 512 * k.val) (a' := base) (b' := base + 12800) rfl (by omega))) $$ Hdone
  -- slot 0: the write-back's flight in the invariant's spelling; the list's share whole again
  ihave Ho0 := (Transfers.Flight_mono countersEmb (thr d L) (ccanon0 d L pay G base ((chunkW (k0_off3 L k 0#32) (k0_off3_inb L k 0)).view.writes (Elt F) m0 [⟨Rect.whole S128x128, trip_last.sl.dma0 d L pay k⟩]) (k0_off3 L k 0#32) (k0_off3_inb L k 0) (base + 512 * k.val + 0) 100 (4 * k.val) hlo0 hcol0 (by omega) (by omega)
    (hG (k0_off3 L k 0#32) (k0_off3_inb L k 0) (base + 512 * k.val + 0) (4 * k.val) hlo0 hcol0 (by omega) (by omega)))) $$ Ho0
  ihave HI0 := ((pointsTo_split_subset (ℓ := (sIdx).view.loc (thr d L)) (I := rowsOf (n0 := 104) (n1 := 128) (4 * k.val) (4 * k.val + 1)) (S := Finset.univ) (q := qI 0) (f := C) (Finset.subset_univ _)).2) $$ [Hrow0 Hrest0]
  · isplitl [Hrow0] <;> iassumption
  -- slot 1: the write-back's flight in the invariant's spelling; the list's share whole again
  ihave Ho1 := (Transfers.Flight_mono countersEmb (thr d L) (ccanon1 d L pay G base ((chunkW (k0_off3 L k 1#32) (k0_off3_inb L k 1)).view.writes (Elt F) m0 [⟨Rect.whole S128x128, trip_last.sl.dma0_1 d L pay k⟩]) (k0_off3 L k 1#32) (k0_off3_inb L k 1) (base + 512 * k.val + 128) 101 (4 * k.val + 1) hlo1 hcol1 (by omega) (by omega)
    (hG (k0_off3 L k 1#32) (k0_off3_inb L k 1) (base + 512 * k.val + 128) (4 * k.val + 1) hlo1 hcol1 (by omega) (by omega)))) $$ Ho1
  ihave HI1 := ((pointsTo_split_subset (ℓ := (sIdx).view.loc (thr d L)) (I := rowsOf (n0 := 104) (n1 := 128) (4 * k.val + 1) (4 * k.val + 1 + 1)) (S := Finset.univ) (q := qI 1) (f := C) (Finset.subset_univ _)).2) $$ [Hrow1 Hrest1]
  · isplitl [Hrow1] <;> iassumption
  -- slot 2: the write-back's flight in the invariant's spelling; the list's share whole again
  ihave Ho2 := (Transfers.Flight_mono countersEmb (thr d L) (ccanon2 d L pay G base ((chunkW (k0_off3 L k 2#32) (k0_off3_inb L k 2)).view.writes (Elt F) m0 [⟨Rect.whole S128x128, trip_last.sl.dma0_2 d L pay k⟩]) (k0_off3 L k 2#32) (k0_off3_inb L k 2) (base + 512 * k.val + 256) 102 (4 * k.val + 2) hlo2 hcol2 (by omega) (by omega)
    (hG (k0_off3 L k 2#32) (k0_off3_inb L k 2) (base + 512 * k.val + 256) (4 * k.val + 2) hlo2 hcol2 (by omega) (by omega)))) $$ Ho2
  ihave HI2 := ((pointsTo_split_subset (ℓ := (sIdx).view.loc (thr d L)) (I := rowsOf (n0 := 104) (n1 := 128) (4 * k.val + 2) (4 * k.val + 2 + 1)) (S := Finset.univ) (q := qI 2) (f := C) (Finset.subset_univ _)).2) $$ [Hrow2 Hrest2]
  · isplitl [Hrow2] <;> iassumption
  -- slot 3: the write-back's flight in the invariant's spelling; the list's share whole again
  ihave Ho3 := (Transfers.Flight_mono countersEmb (thr d L) (ccanon3 d L pay G base ((chunkW (k0_off3 L k 3#32) (k0_off3_inb L k 3)).view.writes (Elt F) m0 [⟨Rect.whole S128x128, trip_last.sl.dma0_3 d L pay k⟩]) (k0_off3 L k 3#32) (k0_off3_inb L k 3) (base + 512 * k.val + 384) 103 (4 * k.val + 3) hlo3 hcol3 (by omega) (by omega)
    (hG (k0_off3 L k 3#32) (k0_off3_inb L k 3) (base + 512 * k.val + 384) (4 * k.val + 3) hlo3 hcol3 (by omega) (by omega)))) $$ Ho3
  ihave HI3 := ((pointsTo_split_subset (ℓ := (sIdx).view.loc (thr d L)) (I := rowsOf (n0 := 104) (n1 := 128) (4 * k.val + 3) (4 * k.val + 3 + 1)) (S := Finset.univ) (q := qI 3) (f := C) (Finset.subset_univ _)).2) $$ [Hrow3 Hrest3]
  · isplitl [Hrow3] <;> iassumption
  sl_step
  isplitl [Hmw]; · iexact Hmw
  isplitl [HO]
  · iexists _; isplitr
    · ipureintro
      exact waits_ins (SemLoc.dma cc0_scratch8.sem) (waits_ins (SemLoc.dma cc0_scratch7.sem) (waits_ins (SemLoc.dma cc0_scratch6.sem) (waits_ins (SemLoc.dma cc0_scratch5.sem) (hW'))))
    · iexact HO
  isplitl [Hdone]; · iexact Hdone
  isplitl [Ho0 HI0 Hf0_src Hf0]
  · isplitl [Ho0]; · iexact Ho0
    isplitl [HI0]; · iexact HI0
    isplitl [Hf0_src]; · iexact Hf0_src
    iexact Hf0
  isplitl [Ho1 HI1 Hf1_src Hf1]
  · isplitl [Ho1]; · iexact Ho1
    isplitl [HI1]; · iexact HI1
    isplitl [Hf1_src]; · iexact Hf1_src
    iexact Hf1
  isplitl [Ho2 HI2 Hf2_src Hf2]
  · isplitl [Ho2]; · iexact Ho2
    isplitl [HI2]; · iexact HI2
    isplitl [Hf2_src]; · iexact Hf2_src
    iexact Hf2
  · isplitl [Ho3]; · iexact Ho3
    isplitl [HI3]; · iexact HI3
    isplitl [Hf3_src]; · iexact Hf3_src
    iexact Hf3

end Cert.Proof.KB

end
-- ==== Proof.BitsDefs.lean ====
/-
  The embedding-lookup kernel's values, as functions of the index array and the table. A vector subcore with grid
  coordinates L has number w = 2·L₁ + L₀ below 32; it fetches row w of the index array [32, 104, 128] (`idxC`), then
  for each chunk j below 104 gathers, for each r below 128, the table's row named by entry (j, r) of the fetched list
  into row r of a [128, 128] buffer (`payC`), and copies the buffer to rows 13312·w + 128·j … + 128 of the output
  array [425984, 128]. The output array's row q therefore holds the table's row named by entry
  (q / 13312, q % 13312 / 128, q % 128) of the index array (`outG`).
-/
import proofs.«204381_g2808908611931_cont_9to1_1564_4_alg».proof.Proof.BitsGeom
import Idealize.ShloMosaic.Lib.ValueIdx

noncomputable section

namespace Cert.Proof.KB

open Cert.Kernel Cert.Kernel.Gen Idealize.ShloMosaic Idealize.ShloMosaic.ValueIdx

variable {F : FTy → Type}

/-- The table row a word names (reduced modulo the table's height only to be total). -/
def rowOfWord (w : BitVec 32) : Fin 100000 := ⟨w.toNat % 100000, Nat.mod_lt _ (by decide)⟩

/-- A word below the table's height names the row of its own number. -/
theorem rowOfWord_val_of_lt {w : BitVec 32} (h : w.toNat < 100000) : (rowOfWord w).val = w.toNat := Nat.mod_eq_of_lt h

/-- The subcore's number. -/
def widN (L : grid0.Coords) : Nat := 2 * (L 1).val + (L 0).val

theorem widN_lt (L : grid0.Coords) : widN L < 32 := by
  have h0 : (L 0).val < 2 := (L 0).isLt
  have h1 : (L 1).val < 16 := (L 1).isLt
  unfold widN; omega

/-- The subcore's list: row `widN L` of the index array. -/
def idxC (L : grid0.Coords) (I : S32x104x128.Idx → BitVec 32) : S104x128.Idx → BitVec 32 :=
  fun y => I (ix3 (n0 := 32) (n1 := 104) (n2 := 128) ⟨widN L, widN_lt L⟩ (y 0) (y 1))

/-- Chunk `j`'s gathered rows: row `r` is the table's row named by entry `(j, r)` of the list. -/
def payC (C : S104x128.Idx → BitVec 32) (Tb : S100000x128.Idx → F .f32) (j : Nat) : S128x128.Idx → F .f32 :=
  fun y => Tb (ix2 (n0 := 100000) (n1 := 128) (rowOfWord (C (ix2 (n0 := 104) (n1 := 128) ⟨j % 104, Nat.mod_lt _ (by decide)⟩ (y 0)))) (y 1))

/-- The output array: row `q` is the table's row named by entry `(q / 13312, q % 13312 / 128, q % 128)` of the index array. -/
def outG (I : S32x104x128.Idx → BitVec 32) (Tb : S100000x128.Idx → F .f32) : S425984x128.Idx → F .f32 :=
  fun x => Tb (ix2 (n0 := 100000) (n1 := 128) (rowOfWord (I (ix3 (n0 := 32) (n1 := 104) (n2 := 128)
    ⟨(x 0).val / 13312, by have := idx2_lt0 x; omega⟩ ⟨(x 0).val % 13312 / 128, by omega⟩ ⟨(x 0).val % 128, by omega⟩))) (x 1))

end Cert.Proof.KB

end
-- ==== Proof.BitsValue.lean ====
/-
  The embedding-lookup kernel's windows and what moves through them, in terms of the value functions `idxC`, `payC`,
  `outG`: which buffer elements the kernel's windows cover; that words in range stay in range through them; what the
  fetch, one gather and one write-back move; and that the host's two reshapes around the kernel turn `outG` of the
  reshaped index array into the specification's lookup.
-/
import proofs.«204381_g2808908611931_cont_9to1_1564_4_alg».proof.Proof.BitsDefs
import Idealize.ShloMosaic.Lib.ValueIdx
import Idealize.ShloMosaic.Lib.Pipeline.Value
import Idealize.ShloMosaic.Lib.SparseCore.Stream

noncomputable section

namespace Cert.Proof.KB

open Cert.Kernel Cert.Kernel.Gen Idealize.ShloMosaic Idealize.ShloMosaic.ValueIdx

variable {F : FTy → Type} [FloatOps F]

/-! ## The arrays, the scratch buffers and the kernel's windows -/
local notation "aIdx" => (Memref.whole Cert.Kernel.main_v0_scv : Memref Cert.Kernel.sig Kind.scVector Space.hbm Cert.Kernel.S32x104x128 EltTy.i32)
local notation "aTab" => (Memref.whole Cert.Kernel.main_arg1_scv : Memref Cert.Kernel.sig Kind.scVector Space.hbm Cert.Kernel.S100000x128 EltTy.f32)
local notation "aOut" => (Memref.whole Cert.Kernel.main_v1_scv : Memref Cert.Kernel.sig Kind.scVector Space.hbm Cert.Kernel.S425984x128 EltTy.f32)
local notation "sIdx" => (Memref.whole Cert.Kernel.cc0_scratch0 : Memref Cert.Kernel.sig Kind.scVector Space.vmem Cert.Kernel.S104x128 EltTy.i32)
local notation "sBuf" => (Memref.whole Cert.Kernel.cc0_scratch1 : Memref Cert.Kernel.sig Kind.scVector Space.vmem Cert.Kernel.S128x128 EltTy.f32)

/-- Row `w` of the index array, as a [104, 128] list: the fetch's source. -/
abbrev fetchM (L : grid0.Coords) : Memref Cert.Kernel.sig Kind.scVector Space.hbm Cert.Kernel.S104x128 EltTy.i32 :=
  ((aIdx).slice (Rect.unit (s := S32x104x128) (k0_off1 L) S1x104x128.size (k0_off1_inb L)) (fun _ => rfl)).squeeze S104x128 squeezes_S1x104x128_S104x128

/-- One row of the fetched list, as a list of 128 words: a gather's offsets. -/
abbrev rowM (off : Fin 2 → Nat) (hb : ∀ a, off a + S1x128.size a ≤ S104x128.size a)
    (hs : ∀ a, (Rect.unit (s := S104x128) off S1x128.size hb).stride a = 1) : Memref Cert.Kernel.sig Kind.scVector Space.vmem Cert.Kernel.S128 EltTy.i32 :=
  ((sIdx).slice (Rect.unit (s := S104x128) off S1x128.size hb) hs).squeeze S128 squeezes_S1x128_S128

/-- The whole table, as the gather names it. -/
abbrev tabM : Memref Cert.Kernel.sig Kind.scVector Space.hbm Cert.Kernel.S100000x128 EltTy.f32 :=
  (aTab).slice (Rect.unit (s := S100000x128) ![0, 0] S100000x128.size inb_S100000x128_S100000x128_0_0) (fun _ => rfl)

/-- 128 rows of the output array: a write-back's target. -/
abbrev chunkM (off : Fin 2 → Nat) (hb : ∀ a, off a + S128x128.size a ≤ S425984x128.size a)
    (hs : ∀ a, (Rect.unit (s := S425984x128) off S128x128.size hb).stride a = 1) : Memref Cert.Kernel.sig Kind.scVector Space.hbm Cert.Kernel.S128x128 EltTy.f32 :=
  (aOut).slice (Rect.unit (s := S425984x128) off S128x128.size hb) hs

/-! ## The windows' elements -/

/-- A write-back's target covers its 128 rows. -/
theorem chunk_set (off : Fin 2 → Nat) (hb) (hs) (h1 : off 1 = 0) :
    (chunkM off hb hs).view.set = rowsOf (n0 := 425984) (n1 := 128) (off 0) (off 0 + 128) := by
  show ((View.whole main_v1_scv).slice _).set = _
  rw [View.set_slice_whole]
  exact set_unit_rows h1 rfl

/-- A gather's offsets cover their one row of the list. -/
theorem row_set (off : Fin 2 → Nat) (hb) (hs) (h1 : off 1 = 0) :
    (rowM off hb hs).view.set = rowsOf (n0 := 104) (n1 := 128) (off 0) (off 0 + 1) := by
  show (((View.whole cc0_scratch0).slice _).reshape _ _).set = _
  rw [View.set_reshape, View.set_slice_whole]
  exact set_unit_rows h1 rfl

/-- The gather's source covers the table. -/
theorem tab_set : (tabM).view.set = Finset.univ := by
  show ((View.whole main_arg1_scv).slice _).set = _
  rw [View.set_slice_whole]
  exact (set_unit_rows (n0 := 100000) (n1 := 128) rfl rfl).trans rowsOf_all

/-! ## Words in range -/

/-- A list in range stays in range read through one of its rows. -/
theorem list_inRange (C : S104x128.Idx → BitVec 32) (hC : ∀ y, (C y).toNat < 100000) (off : Fin 2 → Nat) (hb) (hs) :
    ∀ x, ((rowM off hb hs).view.read (Elt F) C x).toNat < S100000x128.size gathers_S100000x128_S128x128.axis :=
  fun x => hC _

/-- An index array in range gives every subcore a list in range. -/
theorem idxC_inRange (L : grid0.Coords) (I : S32x104x128.Idx → BitVec 32) (hI : ∀ y, (I y).toNat < 100000) :
    ∀ y, (idxC L I y).toNat < 100000 :=
  fun y => hI _

/-! ## Reading through the windows -/

/-- Read through the gather's source, the table is itself. -/
theorem tab_read (Tb : S100000x128.Idx → F .f32) (z : S100000x128.Idx) : View.read (Elt F) (tabM).view Tb z = Tb z := by
  show Tb ((Rect.unit (s := S100000x128) ![0, 0] S100000x128.size inb_S100000x128_S100000x128_0_0).emb z) = Tb z
  refine congrArg Tb (funext fun a => Fin.ext ?_)
  rw [Rect.emb_apply]
  match a with
  | ⟨0, _⟩ => show 0 + 1 * (z 0).val = (z 0).val; omega
  | ⟨1, _⟩ => show 0 + 1 * (z 1).val = (z 1).val; omega

/-- The one index of a rank-1 shape at a row-major position has that position as its coordinate. -/
theorem rowMajor_symm_one {n : Nat} (k : Fin (⟨1, ![n]⟩ : Shape).numel) :
    (((⟨1, ![n]⟩ : Shape).rowMajor.symm k) 0).val = k.val := by
  have h := Shape.rowMajor_val_one ((⟨1, ![n]⟩ : Shape).rowMajor.symm k)
  rw [Equiv.apply_symm_apply] at h
  exact h.symm

/-- Entry `k` of a row of the list, read through the row's window: the list at `(off 0, off 1 + k)`. -/
theorem row_read (C : S104x128.Idx → BitVec 32) (off : Fin 2 → Nat) (hb) (hs) (k : S128.Idx) :
    View.read (Elt F) (rowM off hb hs).view C k
      = C (ix2 (n0 := 104) (n1 := 128) ⟨off 0, by have := hb 0; exact Nat.lt_of_succ_le this⟩
          ⟨off 1 + (k 0).val, by have := hb 1; have hk : (k 0).val < 128 := (k 0).isLt; exact Nat.lt_of_lt_of_le (Nat.add_lt_add_left hk _) this⟩) := by
  have hre : Shape.reshapeEquiv (squeezes_S1x128_S128).numel_eq k = ix2 (n0 := 1) (n1 := 128) 0 (k 0) :=
    Shape.reshapeEquiv_eq_of_rowMajor _ (by
      rw [Shape.rowMajor_val_two, Shape.rowMajor_val_one]
      show 0 * 128 + (k 0).val = (k 0).val
      omega)
  show C ((Rect.unit (s := S104x128) off S1x128.size hb).emb (Shape.reshapeEquiv (squeezes_S1x128_S128).numel_eq k)) = _
  rw [hre]
  refine congrArg C (funext fun a => Fin.ext ?_)
  rw [Rect.emb_apply]
  match a with
  | ⟨0, _⟩ => show off 0 + 1 * 0 = off 0; omega
  | ⟨1, _⟩ => show off 1 + 1 * (k 0).val = off 1 + (k 0).val; omega

/-! ## The fetch, one gather, one write-back -/

/-- THE FETCH: the subcore's window of the index array reads its list. -/
theorem fetch_val (L : grid0.Coords) (I : S32x104x128.Idx → BitVec 32) :
    View.read (Elt F) (fetchM L).view I = idxC L I := by
  funext y
  have hre : Shape.reshapeEquiv (squeezes_S1x104x128_S104x128).numel_eq y = ix3 (n0 := 1) (n1 := 104) (n2 := 128) 0 (y 0) (y 1) :=
    Shape.reshapeEquiv_eq_of_rowMajor _ (by
      rw [Shape.rowMajor_val_three, Shape.rowMajor_val_two]
      show (0 * 104 + (y 0).val) * 128 + (y 1).val = (y 0).val * 128 + (y 1).val
      omega)
  show I ((Rect.unit (s := S32x104x128) (k0_off1 L) S1x104x128.size (k0_off1_inb L)).emb
      (Shape.reshapeEquiv (squeezes_S1x104x128_S104x128).numel_eq y)) = _
  rw [hre]
  unfold idxC
  refine congrArg I (funext fun a => Fin.ext ?_)
  rw [Rect.emb_apply, Rect.off_unit, Rect.stride_unit]
  match a with
  | ⟨0, _⟩ =>
    have h := congrFun (k0_off1_eq L) 0
    show k0_off1 L 0 + 1 * 0 = widN L
    rw [h]
    show 2 * (L 1).val + (L 0).val + 1 * 0 = widN L
    unfold widN; omega
  | ⟨1, _⟩ =>
    have h := congrFun (k0_off1_eq L) 1
    show k0_off1 L 1 + 1 * (y 0).val = (y 0).val
    rw [h]
    show 0 + 1 * (y 0).val = (y 0).val
    omega
  | ⟨2, _⟩ =>
    have h := congrFun (k0_off1_eq L) 2
    show k0_off1 L 2 + 1 * (y 1).val = (y 1).val
    rw [h]
    show 0 + 1 * (y 1).val = (y 1).val
    omega

/-- The same with the plain copy's reading of its source spelt out. -/
theorem fetch_val_same (L : grid0.Coords) (I : S32x104x128.Idx → BitVec 32) :
    ReadAs.same.apply (View.read (Elt F) (fetchM L).view I) = idxC L I := fetch_val L I

/-- ONE GATHER: row `r` of the payload is the table's row named by entry `(j, r)` of the list. -/
theorem gather_val (C : S104x128.Idx → BitVec 32) (Tb : S100000x128.Idx → F .f32) (off : Fin 2 → Nat) (hb) (hs) (j : Nat)
    (h0 : off 0 = j) (h1 : off 1 = 0) (hn : S128.numel = S128x128.size gathers_S100000x128_S128x128.axis')
    (hin : ∀ x, ((rowM off hb hs).view.read (Elt F) C x).toNat < S100000x128.size gathers_S100000x128_S128x128.axis) :
    SparseCore.gatherPayload gathers_S100000x128_S128x128 (View.read (Elt F) (tabM).view Tb)
        (SparseCore.rows (View.read (Elt F) (rowM off hb hs).view C) hn hin) = payC C Tb j := by
  funext y
  have hj : j < 104 := by have := hb 0; rw [h0] at this; exact Nat.lt_of_succ_le this
  unfold SparseCore.gatherPayload payC
  rw [tab_read]
  refine congrArg Tb (funext fun a => Fin.ext ?_)
  match a with
  | ⟨0, _⟩ =>
    have key : View.read (Elt F) (rowM off hb hs).view C (S128.rowMajor.symm ((y gathers_S100000x128_S128x128.axis').cast hn.symm))
        = C (ix2 (n0 := 104) (n1 := 128) ⟨j % 104, Nat.mod_lt _ (by decide)⟩ (y 0)) := by
      rw [row_read]
      refine congrArg C (funext fun b => Fin.ext ?_)
      match b with
      | ⟨0, _⟩ => show off 0 = j % 104; rw [h0, Nat.mod_eq_of_lt hj]
      | ⟨1, _⟩ =>
        show off 1 + ((S128.rowMajor.symm ((y gathers_S100000x128_S128x128.axis').cast hn.symm)) 0).val = (y 0).val
        rw [h1, rowMajor_symm_one]
        show 0 + (y 0).val = (y 0).val
        omega
    have hlt := hin (S128.rowMajor.symm ((y gathers_S100000x128_S128x128.axis').cast hn.symm))
    rw [key] at hlt
    show ((gathers_S100000x128_S128x128).idx _ y (gathers_S100000x128_S128x128).axis).val = (rowOfWord _).val
    rw [Shape.Gathers.idx_axis, rowOfWord_val_of_lt hlt]
    show (View.read (Elt F) (rowM off hb hs).view C (S128.rowMajor.symm ((y gathers_S100000x128_S128x128.axis').cast hn.symm))).toNat = _
    rw [key]
  | ⟨1, _⟩ =>
    exact Shape.Gathers.idx_of_ne gathers_S100000x128_S128x128 _ y ⟨1, by decide⟩ (by decide)

/-- ONE WRITE-BACK: the chunk's gathered rows, written over its 128 rows of the output array, are the output array's. -/
theorem chunk_val (L : grid0.Coords) (I : S32x104x128.Idx → BitVec 32) (Tb : S100000x128.Idx → F .f32) (m0 : S425984x128.Idx → F .f32)
    (off : Fin 2 → Nat) (hb) (hs) (j : Nat) (hj : j < 104) (h0 : off 0 = 13312 * widN L + 128 * j) (h1 : off 1 = 0) :
    ∀ x ∈ rowsOf (n0 := 425984) (n1 := 128) (off 0) (off 0 + 128),
      View.write (Elt F) (chunkM off hb hs).view m0 (payC (idxC L I) Tb j) Finset.univ x = outG I Tb x := by
  intro x hx
  rw [mem_rowsOf] at hx
  have hw := widN_lt L
  have hx0 : (x 0).val < 425984 := idx2_lt0 x
  let y : S128x128.Idx := ix2 (n0 := 128) (n1 := 128) ⟨(x 0).val - off 0, by omega⟩ (x 1)
  have hxe : (chunkM off hb hs).view.emb y = x := by
    funext a; refine Fin.ext ?_
    show ((Rect.unit (s := S425984x128) off S128x128.size hb).emb y a).val = (x a).val
    rw [Rect.emb_apply]
    match a with
    | ⟨0, _⟩ => show off 0 + 1 * ((x 0).val - off 0) = (x 0).val; omega
    | ⟨1, _⟩ => show off 1 + 1 * (x 1).val = (x 1).val; omega
  have hwr := View.write_emb_of_mem (v := (chunkM off hb hs).view) (Val := Elt F) m0
    (payC (idxC L I) Tb j) (Finset.mem_univ y)
  rw [hxe] at hwr
  rw [hwr]
  show payC (idxC L I) Tb j y = outG I Tb x
  unfold payC outG idxC
  refine congrArg Tb (funext fun a => ?_)
  match a with
  | ⟨0, _⟩ =>
    show rowOfWord (I _) = rowOfWord (I _)
    refine congrArg (fun z => rowOfWord (I z)) (funext fun b => Fin.ext ?_)
    match b with
    | ⟨0, _⟩ => show widN L = (x 0).val / 13312; omega
    | ⟨1, _⟩ => show j % 104 = (x 0).val % 13312 / 128; omega
    | ⟨2, _⟩ => show (x 0).val - off 0 = (x 0).val % 128; omega
  | ⟨1, _⟩ => rfl

/-- The same with the source spelt as the copy reads it off the whole scratch buffer. -/
theorem chunk_val_read (L : grid0.Coords) (I : S32x104x128.Idx → BitVec 32) (Tb : S100000x128.Idx → F .f32) (m0 : S425984x128.Idx → F .f32)
    (off : Fin 2 → Nat) (hb) (hs) (j : Nat) (hj : j < 104) (h0 : off 0 = 13312 * widN L + 128 * j) (h1 : off 1 = 0) :
    ∀ x ∈ rowsOf (n0 := 425984) (n1 := 128) (off 0) (off 0 + 128),
      View.write (Elt F) (chunkM off hb hs).view m0 (ReadAs.same.apply (View.read (Elt F) (sBuf).view (payC (idxC L I) Tb j))) Finset.univ x = outG I Tb x :=
  chunk_val L I Tb m0 off hb hs j hj h0 h1

/-! ## The host's reshapes around the kernel -/

/-- The reshaped index array is in range where the index array is. -/
theorem reshaped_inRange (x : S16384x26.Idx → BitVec 32) (hx : Cert.Spec.InRange x) :
    ∀ y, ((shapeCast S32x104x128 x shapeCasts_S16384x26_S32x104x128) y).toNat < 100000 :=
  fun y => hx _

/-- THE RESULT: the output array of the reshaped index array, reshaped to [16384, 26, 128], is the specification's
    lookup. Entry (b, f, k) of the result is row 26·b + f of the output array, whose list entry sits at flat position
    26·b + f of the reshaped index array, which is x[b, f]. -/
theorem result_val (x : S16384x26.Idx → BitVec 32) (t : S100000x128.Idx → F .f32) (hx : Cert.Spec.InRange x) :
    shapeCast S16384x26x128 (outG (shapeCast S32x104x128 x shapeCasts_S16384x26_S32x104x128) t) shapeCasts_S425984x128_S16384x26x128
      = Cert.Spec.lookup x t := by
  funext i
  obtain ⟨b, f, k, rfl⟩ : ∃ (b : Fin 16384) (f : Fin 26) (k : Fin 128), i = ix3 b f k := ⟨i 0, i 1, i 2, eq_ix3 i⟩
  have hb : b.val < 16384 := b.isLt
  have hf : f.val < 26 := f.isLt
  rw [Cert.Spec.lookup_apply x t hx]
  rw [shapeCast_apply _ shapeCasts_S425984x128_S16384x26x128 (ix3 b f k)
    (ix2 (n0 := 425984) (n1 := 128) ⟨26 * b.val + f.val, by omega⟩ k) (by
      rw [Shape.rowMajor_val_two, Shape.rowMajor_val_three]
      show (26 * b.val + f.val) * 128 + k.val = (b.val * 26 + f.val) * 128 + k.val
      omega)]
  unfold outG
  refine congrArg t (funext fun a => ?_)
  match a with
  | ⟨0, _⟩ =>
    show rowOfWord _ = (⟨(x (ix2 b f)).toNat, hx _⟩ : Fin 100000)
    refine Fin.ext ?_
    rw [shapeCast_apply x shapeCasts_S16384x26_S32x104x128 _ (ix2 b f) (by
      rw [Shape.rowMajor_val_two, Shape.rowMajor_val_three]
      show b.val * 26 + f.val = ((26 * b.val + f.val) / 13312 * 104 + (26 * b.val + f.val) % 13312 / 128) * 128 + (26 * b.val + f.val) % 128
      omega)]
    exact rowOfWord_val_of_lt (hx _)
  | ⟨1, _⟩ => rfl

end Cert.Proof.KB

end
-- ==== Proof.BitsTile.lean ====
/-
  The task of one vector subcore: it fetches its row of the index array (the 104 × 128 indices of its 13312 output
  rows), starts the gathers of its first four chunks, runs the loop over its chunks, and waits for the last four
  write-backs. Each of its 13312 rows of the output ends at the row of the table its index names.
-/
import proofs.«204381_g2808908611931_cont_9to1_1564_4_alg».proof.Proof.BitsTrip
import proofs.«204381_g2808908611931_cont_9to1_1564_4_alg».proof.Proof.BitsValue

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "aIdx" => (Memref.whole Cert.Kernel.main_v0_scv : Memref Cert.Kernel.sig Kind.scVector Space.hbm Cert.Kernel.S32x104x128 EltTy.i32)
local notation "aTab" => (Memref.whole Cert.Kernel.main_arg1_scv : Memref Cert.Kernel.sig Kind.scVector Space.hbm Cert.Kernel.S100000x128 EltTy.f32)
local notation "aOut" => (Memref.whole Cert.Kernel.main_v1_scv : Memref Cert.Kernel.sig Kind.scVector Space.hbm Cert.Kernel.S425984x128 EltTy.f32)
local notation "sIdx" => (Memref.whole Cert.Kernel.cc0_scratch0 : Memref Cert.Kernel.sig Kind.scVector Space.vmem Cert.Kernel.S104x128 EltTy.i32)
local notation "sB0" => (Memref.whole Cert.Kernel.cc0_scratch1 : Memref Cert.Kernel.sig Kind.scVector Space.vmem Cert.Kernel.S128x128 EltTy.f32)
local notation "sB1" => (Memref.whole Cert.Kernel.cc0_scratch2 : Memref Cert.Kernel.sig Kind.scVector Space.vmem Cert.Kernel.S128x128 EltTy.f32)
local notation "sB2" => (Memref.whole Cert.Kernel.cc0_scratch3 : Memref Cert.Kernel.sig Kind.scVector Space.vmem Cert.Kernel.S128x128 EltTy.f32)
local notation "sB3" => (Memref.whole Cert.Kernel.cc0_scratch4 : Memref Cert.Kernel.sig Kind.scVector Space.vmem Cert.Kernel.S128x128 EltTy.f32)

variable [FloatOps F]
variable (d : Dev nD) (L : grid0.Coords)

omit [FloatOps F] in
theorem cell_ne {a b : DmaSem sig} (h : a ≠ b) : ((thr d L, SemLoc.dma a) : GSem nD τ sig) ≠ (thr d L, SemLoc.dma b) :=
  fun e => h (SemLoc.dma.inj (Prod.mk.inj e).2)

omit [FloatOps F] in
theorem cell_mem (a : DmaSem sig) : ((thr d L, SemLoc.dma a) : GSem nD τ sig) ∈ ownCells (thr d L) :=
  mem_ownCells.mpr ⟨rfl, by show (SemLoc.dma a : SemLoc sig).isScoped .scVector = true; revert a; decide⟩

omit [FloatOps F] in
/-- The subcore's own semaphores at zero: the kernel's nine DMA semaphores, and the rest. -/
theorem ownSems0_V :
    (ownSems0 (thr d L) : sProp 𝕄)
      = iprop(semVal ((thr d L, SemLoc.dma cc0_scoped0.sem) : GSem nD τ sig) 0
          ∗ semVal ((thr d L, SemLoc.dma cc0_scratch5.sem) : GSem nD τ sig) 0
          ∗ semVal ((thr d L, SemLoc.dma cc0_scratch6.sem) : GSem nD τ sig) 0
          ∗ semVal ((thr d L, SemLoc.dma cc0_scratch7.sem) : GSem nD τ sig) 0
          ∗ semVal ((thr d L, SemLoc.dma cc0_scratch8.sem) : GSem nD τ sig) 0
          ∗ semVal ((thr d L, SemLoc.dma cc0_scratch9.sem) : GSem nD τ sig) 0
          ∗ semVal ((thr d L, SemLoc.dma cc0_scratch10.sem) : GSem nD τ sig) 0
          ∗ semVal ((thr d L, SemLoc.dma cc0_scratch11.sem) : GSem nD τ sig) 0
          ∗ semVal ((thr d L, SemLoc.dma cc0_scratch12.sem) : GSem nD τ sig) 0
          ∗ bigSep ((((((((((ownCells (thr d L)).erase ((thr d L, SemLoc.dma cc0_scoped0.sem) : GSem nD τ sig)).erase ((thr d L, SemLoc.dma cc0_scratch5.sem) : GSem nD τ sig)).erase ((thr d L, SemLoc.dma cc0_scratch6.sem) : GSem nD τ sig)).erase ((thr d L, SemLoc.dma cc0_scratch7.sem) : GSem nD τ sig)).erase ((thr d L, SemLoc.dma cc0_scratch8.sem) : GSem nD τ sig)).erase ((thr d L, SemLoc.dma cc0_scratch9.sem) : GSem nD τ sig)).erase ((thr d L, SemLoc.dma cc0_scratch10.sem) : GSem nD τ sig)).erase ((thr d L, SemLoc.dma cc0_scratch11.sem) : GSem nD τ sig)).erase ((thr d L, SemLoc.dma cc0_scratch12.sem) : GSem nD τ sig)) fun g => semVal g 0) := by
  unfold SparseCore.Cfg.ownSems0
  rw [SparseCore.bigSep_erase' (cell_mem d L cc0_scoped0.sem),
    SparseCore.bigSep_erase' (Finset.mem_erase.mpr ⟨cell_ne d L (show (cc0_scratch5.sem : DmaSem sig) ≠ cc0_scoped0.sem by decide), (cell_mem d L cc0_scratch5.sem)⟩),
    SparseCore.bigSep_erase' (Finset.mem_erase.mpr ⟨cell_ne d L (show (cc0_scratch6.sem : DmaSem sig) ≠ cc0_scratch5.sem by decide), (Finset.mem_erase.mpr ⟨cell_ne d L (show (cc0_scratch6.sem : DmaSem sig) ≠ cc0_scoped0.sem by decide), (cell_mem d L cc0_scratch6.sem)⟩)⟩),
    SparseCore.bigSep_erase' (Finset.mem_erase.mpr ⟨cell_ne d L (show (cc0_scratch7.sem : DmaSem sig) ≠ cc0_scratch6.sem by decide), (Finset.mem_erase.mpr ⟨cell_ne d L (show (cc0_scratch7.sem : DmaSem sig) ≠ cc0_scratch5.sem by decide), (Finset.mem_erase.mpr ⟨cell_ne d L (show (cc0_scratch7.sem : DmaSem sig) ≠ cc0_scoped0.sem by decide), (cell_mem d L cc0_scratch7.sem)⟩)⟩)⟩),
    SparseCore.bigSep_erase' (Finset.mem_erase.mpr ⟨cell_ne d L (show (cc0_scratch8.sem : DmaSem sig) ≠ cc0_scratch7.sem by decide), (Finset.mem_erase.mpr ⟨cell_ne d L (show (cc0_scratch8.sem : DmaSem sig) ≠ cc0_scratch6.sem by decide), (Finset.mem_erase.mpr ⟨cell_ne d L (show (cc0_scratch8.sem : DmaSem sig) ≠ cc0_scratch5.sem by decide), (Finset.mem_erase.mpr ⟨cell_ne d L (show (cc0_scratch8.sem : DmaSem sig) ≠ cc0_scoped0.sem by decide), (cell_mem d L cc0_scratch8.sem)⟩)⟩)⟩)⟩),
    SparseCore.bigSep_erase' (Finset.mem_erase.mpr ⟨cell_ne d L (show (cc0_scratch9.sem : DmaSem sig) ≠ cc0_scratch8.sem by decide), (Finset.mem_erase.mpr ⟨cell_ne d L (show (cc0_scratch9.sem : DmaSem sig) ≠ cc0_scratch7.sem by decide), (Finset.mem_erase.mpr ⟨cell_ne d L (show (cc0_scratch9.sem : DmaSem sig) ≠ cc0_scratch6.sem by decide), (Finset.mem_erase.mpr ⟨cell_ne d L (show (cc0_scratch9.sem : DmaSem sig) ≠ cc0_scratch5.sem by decide), (Finset.mem_erase.mpr ⟨cell_ne d L (show (cc0_scratch9.sem : DmaSem sig) ≠ cc0_scoped0.sem by decide), (cell_mem d L cc0_scratch9.sem)⟩)⟩)⟩)⟩)⟩),
    SparseCore.bigSep_erase' (Finset.mem_erase.mpr ⟨cell_ne d L (show (cc0_scratch10.sem : DmaSem sig) ≠ cc0_scratch9.sem by decide), (Finset.mem_erase.mpr ⟨cell_ne d L (show (cc0_scratch10.sem : DmaSem sig) ≠ cc0_scratch8.sem by decide), (Finset.mem_erase.mpr ⟨cell_ne d L (show (cc0_scratch10.sem : DmaSem sig) ≠ cc0_scratch7.sem by decide), (Finset.mem_erase.mpr ⟨cell_ne d L (show (cc0_scratch10.sem : DmaSem sig) ≠ cc0_scratch6.sem by decide), (Finset.mem_erase.mpr ⟨cell_ne d L (show (cc0_scratch10.sem : DmaSem sig) ≠ cc0_scratch5.sem by decide), (Finset.mem_erase.mpr ⟨cell_ne d L (show (cc0_scratch10.sem : DmaSem sig) ≠ cc0_scoped0.sem by decide), (cell_mem d L cc0_scratch10.sem)⟩)⟩)⟩)⟩)⟩)⟩),
    SparseCore.bigSep_erase' (Finset.mem_erase.mpr ⟨cell_ne d L (show (cc0_scratch11.sem : DmaSem sig) ≠ cc0_scratch10.sem by decide), (Finset.mem_erase.mpr ⟨cell_ne d L (show (cc0_scratch11.sem : DmaSem sig) ≠ cc0_scratch9.sem by decide), (Finset.mem_erase.mpr ⟨cell_ne d L (show (cc0_scratch11.sem : DmaSem sig) ≠ cc0_scratch8.sem by decide), (Finset.mem_erase.mpr ⟨cell_ne d L (show (cc0_scratch11.sem : DmaSem sig) ≠ cc0_scratch7.sem by decide), (Finset.mem_erase.mpr ⟨cell_ne d L (show (cc0_scratch11.sem : DmaSem sig) ≠ cc0_scratch6.sem by decide), (Finset.mem_erase.mpr ⟨cell_ne d L (show (cc0_scratch11.sem : DmaSem sig) ≠ cc0_scratch5.sem by decide), (Finset.mem_erase.mpr ⟨cell_ne d L (show (cc0_scratch11.sem : DmaSem sig) ≠ cc0_scoped0.sem by decide), (cell_mem d L cc0_scratch11.sem)⟩)⟩)⟩)⟩)⟩)⟩)⟩),
    SparseCore.bigSep_erase' (Finset.mem_erase.mpr ⟨cell_ne d L (show (cc0_scratch12.sem : DmaSem sig) ≠ cc0_scratch11.sem by decide), (Finset.mem_erase.mpr ⟨cell_ne d L (show (cc0_scratch12.sem : DmaSem sig) ≠ cc0_scratch10.sem by decide), (Finset.mem_erase.mpr ⟨cell_ne d L (show (cc0_scratch12.sem : DmaSem sig) ≠ cc0_scratch9.sem by decide), (Finset.mem_erase.mpr ⟨cell_ne d L (show (cc0_scratch12.sem : DmaSem sig) ≠ cc0_scratch8.sem by decide), (Finset.mem_erase.mpr ⟨cell_ne d L (show (cc0_scratch12.sem : DmaSem sig) ≠ cc0_scratch7.sem by decide), (Finset.mem_erase.mpr ⟨cell_ne d L (show (cc0_scratch12.sem : DmaSem sig) ≠ cc0_scratch6.sem by decide), (Finset.mem_erase.mpr ⟨cell_ne d L (show (cc0_scratch12.sem : DmaSem sig) ≠ cc0_scratch5.sem by decide), (Finset.mem_erase.mpr ⟨cell_ne d L (show (cc0_scratch12.sem : DmaSem sig) ≠ cc0_scoped0.sem by decide), (cell_mem d L cc0_scratch12.sem)⟩)⟩)⟩)⟩)⟩)⟩)⟩)⟩)]

omit [FloatOps F] in
/-- The subcore's own buffers: the kernel's five scratch buffers at some contents, and the rest. -/
theorem ownBufs_V :
    (ownBufs (thr d L) : sProp 𝕄)
      = iprop((∃ f, (sIdx).view.loc (thr d L) ↦{fullShare} f)
          ∗ (∃ f, (sB0).view.loc (thr d L) ↦{fullShare} f)
          ∗ (∃ f, (sB1).view.loc (thr d L) ↦{fullShare} f)
          ∗ (∃ f, (sB2).view.loc (thr d L) ↦{fullShare} f)
          ∗ (∃ f, (sB3).view.loc (thr d L) ↦{fullShare} f)
          ∗ bigSep ((((((ownRefs (τ := τ) (.scVector (cV L) (jV L))).erase ((Proc.scVector (cV L) (jV L)).devRef cc0_scratch0)).erase ((Proc.scVector (cV L) (jV L)).devRef cc0_scratch1)).erase ((Proc.scVector (cV L) (jV L)).devRef cc0_scratch2)).erase ((Proc.scVector (cV L) (jV L)).devRef cc0_scratch3)).erase ((Proc.scVector (cV L) (jV L)).devRef cc0_scratch4)) fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L)) (b := ((Proc.scVector (cV L) (jV L)).devRef cc0_scratch0)) rfl)).trans ?_
  rw [SparseCore.bigSep_erase' (Finset.mem_erase.mpr ⟨fun e => absurd (Proc.devRef_injective _ e) (show (cc0_scratch1 : Ref sig .scVector) ≠ cc0_scratch0 by decide), (SparseCore.Cfg.mem_ownRefs_of_owner (p := Proc.scVector (cV L) (jV L)) (b := ((Proc.scVector (cV L) (jV L)).devRef cc0_scratch1)) rfl)⟩),
    SparseCore.bigSep_erase' (Finset.mem_erase.mpr ⟨fun e => absurd (Proc.devRef_injective _ e) (show (cc0_scratch2 : Ref sig .scVector) ≠ cc0_scratch1 by decide), (Finset.mem_erase.mpr ⟨fun e => absurd (Proc.devRef_injective _ e) (show (cc0_scratch2 : Ref sig .scVector) ≠ cc0_scratch0 by decide), (SparseCore.Cfg.mem_ownRefs_of_owner (p := Proc.scVector (cV L) (jV L)) (b := ((Proc.scVector (cV L) (jV L)).devRef cc0_scratch2)) rfl)⟩)⟩),
    SparseCore.bigSep_erase' (Finset.mem_erase.mpr ⟨fun e => absurd (Proc.devRef_injective _ e) (show (cc0_scratch3 : Ref sig .scVector) ≠ cc0_scratch2 by decide), (Finset.mem_erase.mpr ⟨fun e => absurd (Proc.devRef_injective _ e) (show (cc0_scratch3 : Ref sig .scVector) ≠ cc0_scratch1 by decide), (Finset.mem_erase.mpr ⟨fun e => absurd (Proc.devRef_injective _ e) (show (cc0_scratch3 : Ref sig .scVector) ≠ cc0_scratch0 by decide), (SparseCore.Cfg.mem_ownRefs_of_owner (p := Proc.scVector (cV L) (jV L)) (b := ((Proc.scVector (cV L) (jV L)).devRef cc0_scratch3)) rfl)⟩)⟩)⟩),
    SparseCore.bigSep_erase' (Finset.mem_erase.mpr ⟨fun e => absurd (Proc.devRef_injective _ e) (show (cc0_scratch4 : Ref sig .scVector) ≠ cc0_scratch3 by decide), (Finset.mem_erase.mpr ⟨fun e => absurd (Proc.devRef_injective _ e) (show (cc0_scratch4 : Ref sig .scVector) ≠ cc0_scratch2 by decide), (Finset.mem_erase.mpr ⟨fun e => absurd (Proc.devRef_injective _ e) (show (cc0_scratch4 : Ref sig .scVector) ≠ cc0_scratch1 by decide), (Finset.mem_erase.mpr ⟨fun e => absurd (Proc.devRef_injective _ e) (show (cc0_scratch4 : Ref sig .scVector) ≠ cc0_scratch0 by decide), (SparseCore.Cfg.mem_ownRefs_of_owner (p := Proc.scVector (cV L) (jV L)) (b := ((Proc.scVector (cV L) (jV L)).devRef cc0_scratch4)) rfl)⟩)⟩)⟩)⟩)]

omit [FloatOps F] in
/-- The table's read share as one read token per gather semaphore, and the remainder. -/
theorem tab_toks (q : PosShare TreeShare) (f : Buf (Elt F) ((aTab).view.loc (thr d L))) :
    ((aTab).view.loc (thr d L) ↦{q} f : sProp 𝕄)
      = iprop(((aTab).view.loc (thr d L) ↦{Transfers.shareDrop q 4} f) ∗ ((aTab).view.loc (thr d L) ↦{Transfers.shareTokN q 0} f)
          ∗ ((aTab).view.loc (thr d L) ↦{Transfers.shareTokN q 1} f) ∗ ((aTab).view.loc (thr d L) ↦{Transfers.shareTokN q 2} f)
          ∗ ((aTab).view.loc (thr d L) ↦{Transfers.shareTokN q 3} f)) := by
  have h : ((aTab).view.loc (thr d L) ↦{q} f : sProp 𝕄) ⊣⊢ _ := Transfers.pointsTo_toks_range q 4
  rw [show Finset.range 4 = {0, 1, 2, 3} by decide, SparseCore.bigSep_insert' (by decide), SparseCore.bigSep_insert' (by decide),
    SparseCore.bigSep_insert' (by decide), bigSep_singleton] at h
  exact BI.equiv_iff.mp ⟨h.1, h.2⟩

/-- The list's four shares, one per slot. -/
def qIv (b : Nat) : PosShare TreeShare := if h : b < 4 then pieceOf fullShare 4 (by decide) ⟨b, h⟩ else fullShare

omit [FloatOps F] in
theorem scr_pieces (f : Buf (Elt F) ((sIdx).view.loc (thr d L))) :
    ((sIdx).view.loc (thr d L) ↦{fullShare} f : sProp 𝕄)
      = iprop(((sIdx).view.loc (thr d L) ↦{qIv 0} f) ∗ ((sIdx).view.loc (thr d L) ↦{qIv 1} f)
          ∗ ((sIdx).view.loc (thr d L) ↦{qIv 2} f) ∗ ((sIdx).view.loc (thr d L) ↦{qIv 3} f)) := by
  rw [pointsTo_piecesOf Finset.univ f (o := 4) (by decide) fullShare, show (Finset.univ : Finset (Fin 4)) = {0, 1, 2, 3} by decide,
    SparseCore.bigSep_insert' (by decide), SparseCore.bigSep_insert' (by decide), SparseCore.bigSep_insert' (by decide), bigSep_singleton]
  rfl

/-- The first row of the subcore's part of the output. -/
def tileBase (L : grid0.Coords) : Nat := 26624 * (L 1).val + 13312 * (L 0).val

set_option maxHeartbeats 2000000 in
/-- The task of vector subcore `(L 0, L 1)`: from a read share of the index array and of the table and its own 13312
    rows of the output, to the same with those rows at the looked-up contents. -/
theorem tile_body (hF : (K (F := F)).Facts) (O : CellTallies nD τ sig (HIx 1)) (W : Waits sig (HIx 1)) (hO : ∀ g, O g none = 0)
    (qi qt : PosShare TreeShare)
    (I : Buf (Elt F) ((aIdx).view.loc (thr d L))) (Tb : Buf (Elt F) ((aTab).view.loc (thr d L))) (m0 : Buf (Elt F) ((aOut).view.loc (thr d L)))
    (hI : ∀ y, (I y).toNat < 100000) :
    (iprop(levAts (K (F := F)).L (K (F := F)).lev ∗ emp
        ∗ (((aIdx).view.loc (thr d L) ↦{qi} I) ∗ ((aTab).view.loc (thr d L) ↦{qt} Tb)
            ∗ ((aOut).view.loc (thr d L) ↦[rowsOf (n0 := 425984) (n1 := 128) (tileBase L) (tileBase L + 13312)]{fullShare} m0))
        ∗ scopedBufs (thr d L) ∗ scopedSems0 (thr d L) ∗ owes (thr d L) O W) : sProp 𝕄)
      ⊢ wp frame (wpE (defs₀ (F := F)) 𝒱₀ (thr d L) none) Set.univ
          (cc0__sc_gather L aIdx (Memref.isWhole_whole _) aTab (Memref.isWhole_whole _) aOut (Memref.isWhole_whole _)
            sIdx (Memref.isWhole_whole _) sB0 (Memref.isWhole_whole _) sB1 (Memref.isWhole_whole _) sB2 (Memref.isWhole_whole _) sB3 (Memref.isWhole_whole _)
            cc0_scratch5 cc0_scratch6 cc0_scratch7 cc0_scratch8 cc0_scratch9 cc0_scratch10 cc0_scratch11 cc0_scratch12 cc0_scoped0)
          fun _ => iprop((((aIdx).view.loc (thr d L) ↦{qi} I) ∗ ((aTab).view.loc (thr d L) ↦{qt} Tb)
              ∗ ((aOut).view.loc (thr d L) ↦[rowsOf (n0 := 425984) (n1 := 128) (tileBase L) (tileBase L + 13312)]{fullShare} outG I Tb))
            ∗ scopedBufs (thr d L) ∗ scopedSems0 (thr d L) ∗ ∃ W', ⌜∀ p ∈ W', p ∈ W ∨ p.2 = none⌝ ∗ owes (thr d L) O W') := by
  rw [(K (F := F)).scopedBufs_V hF d (cV L) (jV L), SparseCore.Cfg.scopedSems0_V (Val := Elt F) d (cV L) (jV L), ownSems0_V, ownBufs_V]
  iintro ⟨#Hlv, -, ⟨HI, HT, Hout⟩, ⟨⟨%f0, Hs⟩, ⟨%g0, H0⟩, ⟨%g1, H1⟩, ⟨%g2, H2⟩, ⟨%g3, H3⟩, Hbufs⟩, ⟨Hc, Hg0, Hg1, Hg2, Hg3, Ho0, Ho1, Ho2, Ho3, Hsems⟩, HO⟩
  ihave Hmw := ((K (F := F)).mayWaits_none (thr := thr d L) hO) $$ Hlv
  ihave HT := (Entails.of_eq (tab_toks d L qt Tb)) $$ HT
  icases HT with ⟨HTd, HT0, HT1, HT2, HT3⟩
  sl_unfold [cc0__sc_gather]
  sl_exec
  -- the list is fetched: the scratch holds row `wid` of the index array; one share of it per slot
  have hw : View.write (Elt F) (sIdx).view f0 (tile_body.sl.dma0 d L I) Finset.univ = idxC L I :=
    (View.write_whole_univ _ _ _).trans (fetch_val_same L I)
  ihave Hs := (Entails.of_eq (congrArg (fun f => ((sIdx).view.loc (thr d L) ↦{fullShare} f : sProp 𝕄)) hw)) $$ Hs
  ihave Hs := (Entails.of_eq (scr_pieces d L (idxC L I))) $$ Hs
  icases Hs with ⟨HI0, HI1, HI2, HI3⟩
  have hC := idxC_inRange L I hI
  ihave Hs' := ((pointsTo_split_subset (ℓ := (rowW ![0, 0] inb_S104x128_S1x128_0_0).view.loc (thr d L)) (I := (rowW ![0, 0] inb_S104x128_S1x128_0_0).view.set) (S := Finset.univ) (q := qIv 0) (f := idxC L I) (Finset.subset_univ _)).1) $$ HI0
  icases Hs' with ⟨Hrow0, Hrest0⟩
  have hin0 : ∀ x, (((rowW ![0, 0] inb_S104x128_S1x128_0_0)).view.read (Elt F) (idxC L I) x).toNat < S100000x128.size gathers_S100000x128_S128x128.axis :=
    list_inRange (F := F) (idxC L I) hC ![0, 0] inb_S104x128_S1x128_0_0 (fun _ => rfl)
  sl_exec
  ihave Hs' := ((pointsTo_split_subset (ℓ := (rowW ![1, 0] inb_S104x128_S1x128_1_0).view.loc (thr d L)) (I := (rowW ![1, 0] inb_S104x128_S1x128_1_0).view.set) (S := Finset.univ) (q := qIv 1) (f := idxC L I) (Finset.subset_univ _)).1) $$ HI1
  icases Hs' with ⟨Hrow1, Hrest1⟩
  have hin1 : ∀ x, (((rowW ![1, 0] inb_S104x128_S1x128_1_0)).view.read (Elt F) (idxC L I) x).toNat < S100000x128.size gathers_S100000x128_S128x128.axis :=
    list_inRange (F := F) (idxC L I) hC ![1, 0] inb_S104x128_S1x128_1_0 (fun _ => rfl)
  sl_exec
  ihave Hs' := ((pointsTo_split_subset (ℓ := (rowW ![2, 0] inb_S104x128_S1x128_2_0).view.loc (thr d L)) (I := (rowW ![2, 0] inb_S104x128_S1x128_2_0).view.set) (S := Finset.univ) (q := qIv 2) (f := idxC L I) (Finset.subset_univ _)).1) $$ HI2
  icases Hs' with ⟨Hrow2, Hrest2⟩
  have hin2 : ∀ x, (((rowW ![2, 0] inb_S104x128_S1x128_2_0)).view.read (Elt F) (idxC L I) x).toNat < S100000x128.size gathers_S100000x128_S128x128.axis :=
    list_inRange (F := F) (idxC L I) hC ![2, 0] inb_S104x128_S1x128_2_0 (fun _ => rfl)
  sl_exec
  ihave Hs' := ((pointsTo_split_subset (ℓ := (rowW ![3, 0] inb_S104x128_S1x128_3_0).view.loc (thr d L)) (I := (rowW ![3, 0] inb_S104x128_S1x128_3_0).view.set) (S := Finset.univ) (q := qIv 3) (f := idxC L I) (Finset.subset_univ _)).1) $$ HI3
  icases Hs' with ⟨Hrow3, Hrest3⟩
  have hin3 : ∀ x, (((rowW ![3, 0] inb_S104x128_S1x128_3_0)).view.read (Elt F) (idxC L I) x).toNat < S100000x128.size gathers_S100000x128_S128x128.axis :=
    list_inRange (F := F) (idxC L I) hC ![3, 0] inb_S104x128_S1x128_3_0 (fun _ => rfl)
  sl_exec
  -- the four first gathers are started: their flights in the invariant's spelling
  ihave Hg0 := (Transfers.Flight_mono countersEmb (thr d L) (gcanon0 d L qIv qt (idxC L I) Tb (payC (idxC L I) Tb) g0 (tile_body.sl.gather0 d L I Tb hin0) 0 ![0, 0] inb_S104x128_S1x128_0_0 rfl rfl
    (gather_val (idxC L I) Tb ![0, 0] inb_S104x128_S1x128_0_0 (fun _ => rfl) 0 rfl rfl _ hin0))) $$ Hg0
  ihave Hrest0 := (Entails.of_eq (row_rest d L (qIv 0) (idxC L I) ![0, 0] inb_S104x128_S1x128_0_0 rfl (j := 0) rfl)) $$ Hrest0
  ihave Hg1 := (Transfers.Flight_mono countersEmb (thr d L) (gcanon1 d L qIv qt (idxC L I) Tb (payC (idxC L I) Tb) g1 (tile_body.sl.gather0_1 d L I Tb hin1) 1 ![1, 0] inb_S104x128_S1x128_1_0 rfl rfl
    (gather_val (idxC L I) Tb ![1, 0] inb_S104x128_S1x128_1_0 (fun _ => rfl) 1 rfl rfl _ hin1))) $$ Hg1
  ihave Hrest1 := (Entails.of_eq (row_rest d L (qIv 1) (idxC L I) ![1, 0] inb_S104x128_S1x128_1_0 rfl (j := 1) rfl)) $$ Hrest1
  ihave Hg2 := (Transfers.Flight_mono countersEmb (thr d L) (gcanon2 d L qIv qt (idxC L I) Tb (payC (idxC L I) Tb) g2 (tile_body.sl.gather0_2 d L I Tb hin2) 2 ![2, 0] inb_S104x128_S1x128_2_0 rfl rfl
    (gather_val (idxC L I) Tb ![2, 0] inb_S104x128_S1x128_2_0 (fun _ => rfl) 2 rfl rfl _ hin2))) $$ Hg2
  ihave Hrest2 := (Entails.of_eq (row_rest d L (qIv 2) (idxC L I) ![2, 0] inb_S104x128_S1x128_2_0 rfl (j := 2) rfl)) $$ Hrest2
  ihave Hg3 := (Transfers.Flight_mono countersEmb (thr d L) (gcanon3 d L qIv qt (idxC L I) Tb (payC (idxC L I) Tb) g3 (tile_body.sl.gather0_3 d L I Tb hin3) 3 ![3, 0] inb_S104x128_S1x128_3_0 rfl rfl
    (gather_val (idxC L I) Tb ![3, 0] inb_S104x128_S1x128_3_0 (fun _ => rfl) 3 rfl rfl _ hin3))) $$ Hg3
  ihave Hrest3 := (Entails.of_eq (row_rest d L (qIv 3) (idxC L I) ![3, 0] inb_S104x128_S1x128_3_0 rfl (j := 3) rfl)) $$ Hrest3
  -- no row of the subcore's part is written yet
  ihave Hsp := (Entails.of_eq (out_split d L m0 (a := tileBase L) (b := tileBase L + 512 * 0) (c := tileBase L + 13312) (by omega) (by omega))) $$ Hout
  icases Hsp with ⟨Hdone, Htodo⟩
  ihave Hdone := (Entails.of_eq (pointsTo_congr (g := outG I Tb) (fun i hi => absurd hi (by rw [mem_rowsOf]; omega)))) $$ Hdone
  have hpay : ∀ (off : Fin 2 → Nat) (hb : ∀ a, off a + S1x128.size a ≤ S104x128.size a) (j : Nat) (_ : off 0 = j) (_ : off 1 = 0) (hn) (hin),
      SparseCore.gatherPayload gathers_S100000x128_S128x128 (View.read (Elt F) (tabW).view Tb) (SparseCore.rows (View.read (Elt F) (rowW off hb).view (idxC L I)) hn hin) = payC (idxC L I) Tb j :=
    fun off hb j h0 h1 hn hin => gather_val (idxC L I) Tb off hb (fun _ => rfl) j h0 h1 hn hin
  have hCin : ∀ (off : Fin 2 → Nat) (hb : ∀ a, off a + S1x128.size a ≤ S104x128.size a) (x : S128.Idx),
      ((rowW off hb).view.read (Elt F) (idxC L I) x).toNat < S100000x128.size gathers_S100000x128_S128x128.axis :=
    fun off hb => list_inRange (F := F) (idxC L I) hC off hb (fun _ => rfl)
  have hG : ∀ (off : Fin 2 → Nat) (hb : ∀ a, off a + S128x128.size a ≤ S425984x128.size a) (lo j : Nat) (_ : off 0 = lo) (_ : off 1 = 0) (_ : lo = tileBase L + 128 * j) (_ : j < 104),
      ∀ x ∈ rowsOf (n0 := 425984) (n1 := 128) lo (lo + 128), (chunkW off hb).view.writes (Elt F) m0 [⟨Rect.whole S128x128, payC (idxC L I) Tb j⟩] x = outG I Tb x := by
    intro off hb lo j h0 h1 hlo hj x hx
    subst h0
    rw [← View.write_univ_eq_writes_whole]
    exact chunk_val L I Tb m0 off hb (fun _ => rfl) j hj (by rw [hlo]; unfold tileBase widN; omega) h1 x hx
  sl_for (loopInv d L O W qIv qt (idxC L I) Tb (payC (idxC L I) Tb) (outG I Tb) m0 (tileBase L)) $$ [Hmw HO Hdone Htodo Hg0 Hrest0 Ho0 Hg1 Hrest1 Ho1 Hg2 Hrest2 Ho2 Hg3 Hrest3 Ho3]
  case region =>
    intro k acc
    obtain rfl : acc = () := rfl
    by_cases hk : k.val < 25
    · exact trip_lt d L O W qIv qt (idxC L I) Tb (payC (idxC L I) Tb) (outG I Tb) m0 (tileBase L) rfl hCin hpay hG (tile_body.sl.v2 L) 0#32 k hk
    · exact trip_last d L O W qIv qt (idxC L I) Tb (payC (idxC L I) Tb) (outG I Tb) m0 (tileBase L) rfl hCin hpay hG (tile_body.sl.v2 L) 0#32 k hk
  · iapply (Entails.of_eq (show _ = loopInv d L O W qIv qt (idxC L I) Tb (payC (idxC L I) Tb) (outG I Tb) m0 (tileBase L) 0 () from by unfold loopInv; rw [if_pos (show 0 < 26 by decide)]))
    unfold slotG0 slotG1 slotG2 slotG3
    isplitl [Hmw]; · iexact Hmw
    isplitl [HO]
    · iexists _; isplitr
      · ipureintro; exact waits_ins (SemLoc.dma cc0_scoped0.sem) (fun p hp => .inl hp)
      · iexact HO
    isplitl [Hdone]; · iexact Hdone
    isplitl [Htodo]; · iexact Htodo
    isplitl [Hg0 Hrest0 Ho0]
    · isplitl [Hg0]; · iexact Hg0
      isplitl [Hrest0]; · iexact Hrest0
      iexact Ho0
    isplitl [Hg1 Hrest1 Ho1]
    · isplitl [Hg1]; · iexact Hg1
      isplitl [Hrest1]; · iexact Hrest1
      iexact Ho1
    isplitl [Hg2 Hrest2 Ho2]
    · isplitl [Hg2]; · iexact Hg2
      isplitl [Hrest2]; · iexact Hrest2
      iexact Ho2
    · isplitl [Hg3]; · iexact Hg3
      isplitl [Hrest3]; · iexact Hrest3
      iexact Ho3
  iintro %acc HI
  ihave HI := (Entails.of_eq (show loopInv d L O W qIv qt (idxC L I) Tb (payC (idxC L I) Tb) (outG I Tb) m0 (tileBase L) k0_t1_loop.trips acc = _ from by unfold loopInv; rw [if_neg (show ¬ k0_t1_loop.trips < 26 by decide)])) $$ HI
  unfold slotC0 slotC1 slotC2 slotC3
  icases HI with ⟨-, ⟨%W', %hW', HO⟩, Hdone, ⟨Hf0, HI0, HT0, Hg0⟩, ⟨Hf1, HI1, HT1, Hg1⟩, ⟨Hf2, HI2, HT2, Hg2⟩, ⟨Hf3, HI3, HT3, Hg3⟩⟩
  sl_exec
  -- the last four chunks written: the subcore's rows all hold the final contents
  ihave Hdone := (Entails.of_eq (out_cast d L (outG I Tb) (a := tileBase L) (b := tileBase L + 12800) (a' := tileBase L) (b' := tileBase L + 12800 + 0) rfl rfl)) $$ Hdone
  ihave Hf0_dst := (Entails.of_eq (out_cast d L (outG I Tb) (a := tileBase L + 128 * 100) (b := tileBase L + 128 * 100 + 128) (a' := tileBase L + 12800 + 0) (b' := tileBase L + 12800 + 0 + 128) (by omega) (by omega))) $$ Hf0_dst
  ihave Hdone := (Entails.of_eq (out_split d L (outG I Tb) (a := tileBase L) (b := tileBase L + 12800 + 0) (c := tileBase L + 12800 + 0 + 128) (by omega) (by omega)).symm) $$ [Hdone Hf0_dst]
  · isplitl [Hdone] <;> iassumption
  ihave Hdone := (Entails.of_eq (out_cast d L (outG I Tb) (a := tileBase L) (b := tileBase L + 12800 + 0 + 128) (a' := tileBase L) (b' := tileBase L + 12800 + 128) rfl (by omega))) $$ Hdone
  ihave Hf1_dst := (Entails.of_eq (out_cast d L (outG I Tb) (a := tileBase L + 128 * 101) (b := tileBase L + 128 * 101 + 128) (a' := tileBase L + 12800 + 128) (b' := tileBase L + 12800 + 128 + 128) (by omega) (by omega))) $$ Hf1_dst
  ihave Hdone := (Entails.of_eq (out_split d L (outG I Tb) (a := tileBase L) (b := tileBase L + 12800 + 128) (c := tileBase L + 12800 + 128 + 128) (by omega) (by omega)).symm) $$ [Hdone Hf1_dst]
  · isplitl [Hdone] <;> iassumption
  ihave Hdone := (Entails.of_eq (out_cast d L (outG I Tb) (a := tileBase L) (b := tileBase L + 12800 + 128 + 128) (a' := tileBase L) (b' := tileBase L + 12800 + 256) rfl (by omega))) $$ Hdone
  ihave Hf2_dst := (Entails.of_eq (out_cast d L (outG I Tb) (a := tileBase L + 128 * 102) (b := tileBase L + 128 * 102 + 128) (a' := tileBase L + 12800 + 256) (b' := tileBase L + 12800 + 256 + 128) (by omega) (by omega))) $$ Hf2_dst
  ihave Hdone := (Entails.of_eq (out_split d L (outG I Tb) (a := tileBase L) (b := tileBase L + 12800 + 256) (c := tileBase L + 12800 + 256 + 128) (by omega) (by omega)).symm) $$ [Hdone Hf2_dst]
  · isplitl [Hdone] <;> iassumption
  ihave Hdone := (Entails.of_eq (out_cast d L (outG I Tb) (a := tileBase L) (b := tileBase L + 12800 + 256 + 128) (a' := tileBase L) (b' := tileBase L + 12800 + 384) rfl (by omega))) $$ Hdone
  ihave Hf3_dst := (Entails.of_eq (out_cast d L (outG I Tb) (a := tileBase L + 128 * 103) (b := tileBase L + 128 * 103 + 128) (a' := tileBase L + 12800 + 384) (b' := tileBase L + 12800 + 384 + 128) (by omega) (by omega))) $$ Hf3_dst
  ihave Hdone := (Entails.of_eq (out_split d L (outG I Tb) (a := tileBase L) (b := tileBase L + 12800 + 384) (c := tileBase L + 12800 + 384 + 128) (by omega) (by omega)).symm) $$ [Hdone Hf3_dst]
  · isplitl [Hdone] <;> iassumption
  ihave Hdone := (Entails.of_eq (out_cast d L (outG I Tb) (a := tileBase L) (b := tileBase L + 12800 + 384 + 128) (a' := tileBase L) (b' := tileBase L + 13312) rfl (by omega))) $$ Hdone
  -- the list's shares and the table's read tokens put back together
  ihave Hs := (Entails.of_eq (scr_pieces d L (idxC L I)).symm) $$ [HI0 HI1 HI2 HI3]
  · isplitl [HI0]; · iexact HI0
    isplitl [HI1]; · iexact HI1
    isplitl [HI2]; · iexact HI2
    iexact HI3
  ihave HT := (Entails.of_eq (tab_toks d L qt Tb).symm) $$ [HTd HT0 HT1 HT2 HT3]
  · isplitl [HTd]; · iexact HTd
    isplitl [HT0]; · iexact HT0
    isplitl [HT1]; · iexact HT1
    isplitl [HT2]; · iexact HT2
    iexact HT3
  sl_step
  isplitl [HI HT Hdone]
  · isplitl [HI]; · iexact HI
    isplitl [HT]; · iexact HT
    iexact Hdone
  isplitl [Hs Hf0_src Hf1_src Hf2_src Hf3_src Hbufs]
  · isplitl [Hs]; · iexists _; iexact Hs
    isplitl [Hf0_src]; · iexists _; iexact Hf0_src
    isplitl [Hf1_src]; · iexists _; iexact Hf1_src
    isplitl [Hf2_src]; · iexists _; iexact Hf2_src
    isplitl [Hf3_src]; · iexists _; iexact Hf3_src
    iexact Hbufs
  isplitl [Hc Hg0 Hg1 Hg2 Hg3 Hf0 Hf1 Hf2 Hf3 Hsems]
  · isplitl [Hc]; · iexact Hc
    isplitl [Hg0]; · iexact Hg0
    isplitl [Hg1]; · iexact Hg1
    isplitl [Hg2]; · iexact Hg2
    isplitl [Hg3]; · iexact Hg3
    isplitl [Hf0]; · iexact Hf0
    isplitl [Hf1]; · iexact Hf1
    isplitl [Hf2]; · iexact Hf2
    isplitl [Hf3]; · iexact Hf3
    iexact Hsems
  iexists _; isplitr
  · ipureintro
    exact waits_ins (SemLoc.dma cc0_scratch12.sem) (waits_ins (SemLoc.dma cc0_scratch11.sem) (waits_ins (SemLoc.dma cc0_scratch10.sem) (waits_ins (SemLoc.dma cc0_scratch9.sem) (hW'))))
  · iexact HO

end Cert.Proof.KB

end
-- ==== Proof.BitsLaunch.lean ====
/-
  The launch of the embedding-lookup program. @main on the TensorCore reshapes the index array to [32, 104, 128], starts
  the one vector-subcore call on both SparseCores' sixteen subcores and waits for it, and reshapes the output array
  [425984, 128] to [16384, 26, 128]. The call hands each SparseCore a read share of the reshaped index array and of the
  table and its sixteen subcores' row ranges of the output array; each sequencer deals its subcores a piece of those
  shares and their own 13312 rows; each subcore's task leaves its rows at the looked-up contents; the pieces come back
  the same way, the output array whole again at `outG` of the reshaped index array and the table. Every weakly fair
  execution of the device's threads therefore terminates with the result at the specification's lookup of the two
  arguments and the arguments unchanged.
-/
import proofs.«204381_g2808908611931_cont_9to1_1564_4_alg».proof.Proof.BitsTile
import Idealize.ShloMosaic.Lib.SparseCore.Launch
import Idealize.ShloMosaic.Lib.StableHlo.Run
import Idealize.ShloMosaic.Lib.Pipeline.Kit
import Idealize.ShloMosaic.Lib.Tactic

noncomputable section

namespace Cert.Proof.KB

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

local notation "aIdx" => (Memref.whole Cert.Kernel.main_v0_scv : Memref Cert.Kernel.sig Kind.scVector Space.hbm Cert.Kernel.S32x104x128 EltTy.i32)
local notation "aTab" => (Memref.whole Cert.Kernel.main_arg1_scv : Memref Cert.Kernel.sig Kind.scVector Space.hbm Cert.Kernel.S100000x128 EltTy.f32)
local notation "aOut" => (Memref.whole Cert.Kernel.main_v1_scv : Memref Cert.Kernel.sig Kind.scVector Space.hbm Cert.Kernel.S425984x128 EltTy.f32)
local notation "sIdx" => (Memref.whole Cert.Kernel.cc0_scratch0 : Memref Cert.Kernel.sig Kind.scVector Space.vmem Cert.Kernel.S104x128 EltTy.i32)
local notation "sB0" => (Memref.whole Cert.Kernel.cc0_scratch1 : Memref Cert.Kernel.sig Kind.scVector Space.vmem Cert.Kernel.S128x128 EltTy.f32)
local notation "sB1" => (Memref.whole Cert.Kernel.cc0_scratch2 : Memref Cert.Kernel.sig Kind.scVector Space.vmem Cert.Kernel.S128x128 EltTy.f32)
local notation "sB2" => (Memref.whole Cert.Kernel.cc0_scratch3 : Memref Cert.Kernel.sig Kind.scVector Space.vmem Cert.Kernel.S128x128 EltTy.f32)
local notation "sB3" => (Memref.whole Cert.Kernel.cc0_scratch4 : Memref Cert.Kernel.sig Kind.scVector Space.vmem Cert.Kernel.S128x128 EltTy.f32)

/-! ## The launch memory, the arrays and their values -/

variable (m : (ℓ : Loc nD τ sig) → Buf (Elt F) ℓ) (ρ : Dev nD → PrngReg)

/-- The index array and the table (the arguments), the reshaped index array, the output array and the result, as
    locations of device `d`. -/
abbrev xLoc (d : Dev nD) : Loc nD τ sig := (SparseCore.T d).loc main_arg0
abbrev tLoc (d : Dev nD) : Loc nD τ sig := (SparseCore.T d).loc main_arg1
abbrev iLoc (d : Dev nD) : Loc nD τ sig := (SparseCore.T d).loc main_v0
abbrev oLoc (d : Dev nD) : Loc nD τ sig := (SparseCore.T d).loc main_v1
abbrev rLoc (d : Dev nD) : Loc nD τ sig := (SparseCore.T d).loc main_v2

/-- The reshaped index array, -/
def Ival (d : Dev nD) : Buf (Elt F) (iLoc d) := shapeCast S32x104x128 (m (xLoc d)) shapeCasts_S16384x26_S32x104x128
/-- the output array the call leaves, -/
def Gval (d : Dev nD) : Buf (Elt F) (oLoc d) := outG (Ival m d) (m (tLoc d))
/-- and the result. -/
def Rval (d : Dev nD) : Buf (Elt F) (rLoc d) := shapeCast S16384x26x128 (Gval m d) shapeCasts_S425984x128_S16384x26x128

/-! ## Shares and rows -/

/-- A SparseCore's share of a read-only array, and a subcore's piece of it. -/
def qS (c : Fin 2) : PosShare TreeShare := pieceOf fullShare 2 (by decide) c
def qT (c : Fin 2) (i : Fin 16) : PosShare TreeShare := pieceOf (qS c) 16 (by decide) i

/-- A subcore's grid coordinates from its SparseCore's and its own number. -/
def coordsV (c : Fin (grid0.bound 0)) (s : Fin (grid0.bound 1)) : grid0.Coords :=
  fun | 0 => c | 1 => s | ⟨_ + 2, h⟩ => absurd h (Nat.not_lt.2 (Nat.le_add_left _ _))

/-- The output rows of subcore `i` of SparseCore `c`. -/
def tRows (c : Fin 2) (i : Fin 16) : Finset S425984x128.Idx :=
  rowsOf (n0 := 425984) (n1 := 128) (tileBase (coordsV c i)) (tileBase (coordsV c i) + 13312)

theorem tileBase_coordsV (c : Fin 2) (i : Fin 16) : tileBase (coordsV c i) = 13312 * (2 * i.val + c.val) := by
  show 26624 * i.val + 13312 * c.val = _
  omega

theorem mem_tRows {c : Fin 2} {i : Fin 16} {x : S425984x128.Idx} :
    x ∈ tRows c i ↔ 13312 * (2 * i.val + c.val) ≤ (x 0).val ∧ (x 0).val < 13312 * (2 * i.val + c.val) + 13312 := by
  unfold tRows; rw [mem_rowsOf, tileBase_coordsV]

/-- Different subcores' rows are disjoint, -/
theorem tRows_disjoint : ∀ p ∈ (Finset.univ : Finset (Fin 2 × Fin 16)), ∀ p' ∈ (Finset.univ : Finset (Fin 2 × Fin 16)), p ≠ p' →
    Disjoint (tRows p.1 p.2) (tRows p'.1 p'.2) := by
  intro p _ p' _ hne
  rw [Finset.disjoint_left]
  intro x h1 h2
  rw [mem_tRows] at h1 h2
  apply hne
  have hc : p.1.val < 2 := p.1.isLt
  have hc' : p'.1.val < 2 := p'.1.isLt
  have e : 2 * p.2.val + p.1.val = 2 * p'.2.val + p'.1.val := by omega
  exact Prod.ext (Fin.ext (by omega)) (Fin.ext (by omega))

/-- and together they are the whole output array: row `r` is subcore `(r / 13312 % 2, r / 26624)`'s. -/
theorem tRows_cover : (Finset.univ : Finset (Fin 2 × Fin 16)).biUnion (fun p => tRows p.1 p.2) = Finset.univ := by
  ext x
  simp only [Finset.mem_biUnion, Finset.mem_univ, true_and, iff_true]
  have hx : (x 0).val < 425984 := idx2_lt0 x
  refine ⟨(⟨(x 0).val / 13312 % 2, by omega⟩, ⟨(x 0).val / 26624, by omega⟩), ?_⟩
  rw [mem_tRows]
  show 13312 * (2 * ((x 0).val / 26624) + (x 0).val / 13312 % 2) ≤ (x 0).val
    ∧ (x 0).val < 13312 * (2 * ((x 0).val / 26624) + (x 0).val / 13312 % 2) + 13312
  omega

/-! ## What the handshakes carry -/

variable [FloatOps F]

/-- A subcore's operands: its pieces of the two read-only arrays and its rows of the output array at `fo`. -/
def tileGo (d : Dev nD) (c : Fin 2) (i : Fin 16) (fo : Buf (Elt F) (oLoc d)) : sProp 𝕄 :=
  iprop((iLoc d ↦{qT c i} Ival m d) ∗ (tLoc d ↦{qT c i} m (tLoc d)) ∗ (oLoc d ↦[tRows c i]{fullShare} fo))

/-- A SparseCore's operands: its shares of the two read-only arrays and its sixteen subcores' rows at `fo`. -/
def coreSt (d : Dev nD) (c : Fin 2) (fo : Buf (Elt F) (oLoc d)) : sProp 𝕄 :=
  iprop((iLoc d ↦{qS c} Ival m d) ∗ (tLoc d ↦{qS c} m (tLoc d)) ∗ bigSep Finset.univ fun i : Fin 16 => oLoc d ↦[tRows c i]{fullShare} fo)

/-- The one call takes each SparseCore's operands with the output array at its launch contents, each subcore its own,
    and brings them back with the output array at the looked-up contents. -/
def P : (K (F := F)).Pay (nD := nD) (Val := Elt F) (Name := ℕ) (U := UU) where
  st := fun q d c => match q with | 0 => coreSt m d (Fin.cast nCore_zero c) (m (oLoc d))
  dn := fun q d c => match q with | 0 => coreSt m d (Fin.cast nCore_zero c) (Gval m d)
  go := fun q d c i => match q with | 0 => tileGo m d (Fin.cast nCore_zero c) (Fin.cast nSub_zero i) (m (oLoc d))
  td := fun q d c i => match q with | 0 => tileGo m d (Fin.cast nCore_zero c) (Fin.cast nSub_zero i) (Gval m d)
  x := fun _ _ => iprop(emp)

instance tileGo_storable (d : Dev nD) (c : Fin 2) (i : Fin 16) (fo : Buf (Elt F) (oLoc d)) :
    BI.Storable (upEmb : UEmb _ 𝕄) (tileGo m d c i fo) := by unfold tileGo; infer_instance
instance coreSt_storable (d : Dev nD) (c : Fin 2) (fo : Buf (Elt F) (oLoc d)) :
    BI.Storable (upEmb : UEmb _ 𝕄) (coreSt m d c fo) := by unfold coreSt; infer_instance

instance P_storable : (P (F := F) m).IsStorable where
  st q d c := match q with | 0 => (inferInstance : BI.Storable (upEmb : UEmb _ 𝕄) (coreSt m d (Fin.cast nCore_zero c) (m (oLoc d))))
  dn q d c := match q with | 0 => (inferInstance : BI.Storable (upEmb : UEmb _ 𝕄) (coreSt m d (Fin.cast nCore_zero c) (Gval m d)))
  go q d c i := match q with
    | 0 => (inferInstance : BI.Storable (upEmb : UEmb _ 𝕄) (tileGo m d (Fin.cast nCore_zero c) (Fin.cast nSub_zero i) (m (oLoc d))))
  td q d c i := match q with
    | 0 => (inferInstance : BI.Storable (upEmb : UEmb _ 𝕄) (tileGo m d (Fin.cast nCore_zero c) (Fin.cast nSub_zero i) (Gval m d)))

/-! ## The launch theorem's obligations -/

theorem defs₀_vector (c : Fin τ.nSC) (s : Fin τ.nSub) :
    defs₀ (F := F) (.scVector c s) 0 ()
      = SparseCore.onTile hcore0 hsub0 (fun c s => cc0__sc_gather (coordsV c s)
          aIdx (Memref.isWhole_whole _) aTab (Memref.isWhole_whole _) aOut (Memref.isWhole_whole _)
          sIdx (Memref.isWhole_whole _) sB0 (Memref.isWhole_whole _) sB1 (Memref.isWhole_whole _) sB2 (Memref.isWhole_whole _) sB3 (Memref.isWhole_whole _)
          cc0_scratch5 cc0_scratch6 cc0_scratch7 cc0_scratch8 cc0_scratch9 cc0_scratch10 cc0_scratch11 cc0_scratch12 cc0_scoped0) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hF : (K (F := F)).Facts) (hx : ∀ d y, ((Ival m d) y).toNat < 100000) :
    (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body d (coordsV ⟨_, hc.1⟩ ⟨_, hc.2⟩) hF O W hO (qT (Fin.cast nCore_zero c) (Fin.cast nSub_zero i))
    (qT (Fin.cast nCore_zero c) (Fin.cast nSub_zero i)) (Ival m d) (m (tLoc d)) (m (oLoc d)) (hx d)).trans (wp_mono frame _ _ fun _ => obl_post)

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
omit [FloatOps F] in
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

/-- A SparseCore's operands are its subcores' (the shares cut into sixteen pieces), at any contents of the output array. -/
theorem coreSt_eq (d : Dev nD) (c : Fin 2) (fo : Buf (Elt F) (oLoc d)) :
    coreSt m d c fo = bigSep Finset.univ fun i : Fin 16 => tileGo m d c i fo := by
  unfold coreSt tileGo qT
  rw [bigSep_sep', bigSep_sep', ← pointsTo_piecesOf Finset.univ (Ival m d) (by decide) (qS c),
    ← pointsTo_piecesOf Finset.univ (m (tLoc d)) (by decide) (qS c)]

theorem vecSplit : (K (F := F)).VecSplit' (P m) 0 := by
  intro d c
  show coreSt m d (Fin.cast nCore_zero c) (m (oLoc d)) ⊢ |={Set.univ}=> iprop(
      (bigSep Finset.univ fun i : Fin ((K (F := F)).nSub 0) => tileGo m d (Fin.cast nCore_zero c) (Fin.cast nSub_zero i) (m (oLoc d)))
      ∗ ((bigSep Finset.univ fun i : Fin ((K (F := F)).nSub 0) => tileGo m d (Fin.cast nCore_zero c) (Fin.cast nSub_zero i) (Gval m d))
          -∗ coreSt m d (Fin.cast nCore_zero c) (Gval m d)))
  rw [bigSep_tasks (F := F) (fun i => tileGo m d (Fin.cast nCore_zero c) i (m (oLoc d))),
    bigSep_tasks (F := F) (fun i => tileGo m d (Fin.cast nCore_zero c) i (Gval m d)), coreSt_eq, coreSt_eq]
  iintro H; imodintro
  isplitl [H]; · iexact H
  iintro H; iexact H

/-! ## The launch element: the handshakes' rounds; nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

abbrev x' : DevRef τ sig := Proc.devRef .tc (main_arg0 : Ref sig .tc)
abbrev t' : DevRef τ sig := Proc.devRef .tc (main_arg1 : Ref sig .tc)
abbrev i' : DevRef τ sig := Proc.devRef .tc (main_v0 : Ref sig .tc)
abbrev o' : DevRef τ sig := Proc.devRef .tc (main_v1 : Ref sig .tc)
abbrev r' : DevRef τ sig := Proc.devRef .tc (main_v2 : Ref sig .tc)

/-- The two reshapes. -/
abbrev opIn : HloOp τ sig (Elt F) := StableHlo.reshape main_arg0 main_v0 rfl shapeCasts_S16384x26_S32x104x128
abbrev opOut : HloOp τ sig (Elt F) := StableHlo.reshape main_v1 main_v2 rfl shapeCasts_S425984x128_S16384x26x128

/-- The TensorCore's arrays, all unscoped. -/
abbrev S5 : Finset (DevRef τ sig) := {x', t', i', o', r'}

omit [FloatOps F] in
theorem held_S5 (d : Dev nD) (W : Valuation τ sig (Elt F)) :
    (held (T d) S5 W : sProp 𝕄) = iprop((xLoc d ↦{fullShare} W x') ∗ (tLoc d ↦{fullShare} W t') ∗ (iLoc d ↦{fullShare} W i')
      ∗ (oLoc d ↦{fullShare} W o') ∗ rLoc d ↦{fullShare} W r') := by
  unfold held S5
  rw [SparseCore.bigSep_insert' (by decide), SparseCore.bigSep_insert' (by decide), SparseCore.bigSep_insert' (by decide),
    SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄) = iprop((xLoc d ↦{fullShare} W main_arg0) ∗ (tLoc d ↦{fullShare} W main_arg1) ∗ (iLoc d ↦{fullShare} W main_v0)
      ∗ (oLoc d ↦{fullShare} W main_v1) ∗ rLoc d ↦{fullShare} W main_v2) := by
  unfold unscopedBufs
  rw [show (Finset.univ.filter fun b : Ref sig .tc => ¬ b.isScoped) = {main_arg0, main_arg1, main_v0, main_v1, main_v2} by decide,
    SparseCore.bigSep_insert' (by decide), SparseCore.bigSep_insert' (by decide), SparseCore.bigSep_insert' (by decide),
    SparseCore.bigSep_insert' (by decide), bigSep_singleton]

/-- The launch valuation; after the first reshape; after the call. -/
def V0 (d : Dev nD) : Valuation τ sig (Elt F) := fun b => m (d, b)
def V1 (d : Dev nD) : Valuation τ sig (Elt F) := (opIn (F := F)).result (V0 m d)
def V2 (d : Dev nD) : Valuation τ sig (Elt F) := Function.update (V1 m d) o' (Gval m d)
def V3 (d : Dev nD) : Valuation τ sig (Elt F) := (opOut (F := F)).result (V2 m d)

omit [FloatOps F] in
theorem unscoped_held (d : Dev nD) : (unscopedBufs d (fun b => m ((SparseCore.T d).loc b)) : sProp 𝕄) = held (T d) S5 (V0 m d) := by
  rw [unscopedBufs_eq, held_S5]; rfl

theorem V1_x (d : Dev nD) : V1 m d x' = m (xLoc d) :=
  (opIn (F := F)).result_of_not_mem (V0 m d) (b := x') (show x' ∉ ({i'} : Finset (DevRef τ sig)) by decide)
theorem V1_t (d : Dev nD) : V1 m d t' = m (tLoc d) :=
  (opIn (F := F)).result_of_not_mem (V0 m d) (b := t') (show t' ∉ ({i'} : Finset (DevRef τ sig)) by decide)
theorem V1_o (d : Dev nD) : V1 m d o' = m (oLoc d) :=
  (opIn (F := F)).result_of_not_mem (V0 m d) (b := o') (show o' ∉ ({i'} : Finset (DevRef τ sig)) by decide)
theorem V1_r (d : Dev nD) : V1 m d r' = m (rLoc d) :=
  (opIn (F := F)).result_of_not_mem (V0 m d) (b := r') (show r' ∉ ({i'} : Finset (DevRef τ sig)) by decide)
theorem V1_i (d : Dev nD) : V1 m d i' = Ival m d :=
  (StableHlo.reshape_result (τ := τ) (Val := Elt F) main_arg0 main_v0 rfl shapeCasts_S16384x26_S32x104x128 _ _ (V0 m d)).trans rfl

theorem V2_x (d : Dev nD) : V2 m d x' = m (xLoc d) := (Function.update_of_ne (show x' ≠ o' by decide) _ _).trans (V1_x m d)
theorem V2_t (d : Dev nD) : V2 m d t' = m (tLoc d) := (Function.update_of_ne (show t' ≠ o' by decide) _ _).trans (V1_t m d)
theorem V2_i (d : Dev nD) : V2 m d i' = Ival m d := (Function.update_of_ne (show i' ≠ o' by decide) _ _).trans (V1_i m d)
theorem V2_o (d : Dev nD) : V2 m d o' = Gval m d := Function.update_self _ _ _
theorem V2_r (d : Dev nD) : V2 m d r' = m (rLoc d) := (Function.update_of_ne (show r' ≠ o' by decide) _ _).trans (V1_r m d)

theorem V3_x (d : Dev nD) : V3 m d x' = m (xLoc d) :=
  ((opOut (F := F)).result_of_not_mem (V2 m d) (b := x') (show x' ∉ ({r'} : Finset (DevRef τ sig)) by decide)).trans (V2_x m d)
theorem V3_t (d : Dev nD) : V3 m d t' = m (tLoc d) :=
  ((opOut (F := F)).result_of_not_mem (V2 m d) (b := t') (show t' ∉ ({r'} : Finset (DevRef τ sig)) by decide)).trans (V2_t m d)
theorem V3_r (d : Dev nD) : V3 m d r' = Rval m d := by
  refine (StableHlo.reshape_result (τ := τ) (Val := Elt F) main_v1 main_v2 rfl shapeCasts_S425984x128_S16384x26x128 _ _ (V2 m d)).trans ?_
  show (fun i => shapeCast S16384x26x128 (V2 m d o') shapeCasts_S425984x128_S16384x26x128 i) = Rval m d
  rw [V2_o]; rfl

theorem hIn : (opIn (F := F)).bufs ⊆ S5 := show ({x', i'} : Finset (DevRef τ sig)) ⊆ S5 by decide
theorem hOut : (opOut (F := F)).bufs ⊆ S5 := show ({o', r'} : Finset (DevRef τ sig)) ⊆ S5 by decide

/-- The two SparseCores' operands are the three arrays whole (the read-only ones' shares halved, the output array's rows
    dealt to the thirty-two subcores), at any contents of the output array. -/
theorem allSt_eq (d : Dev nD) (fo : Buf (Elt F) (oLoc d)) :
    (bigSep Finset.univ fun c : Fin 2 => coreSt m d c fo)
      = iprop((iLoc d ↦{fullShare} Ival m d) ∗ (tLoc d ↦{fullShare} m (tLoc d)) ∗ oLoc d ↦{fullShare} fo) := by
  unfold coreSt qS
  rw [bigSep_sep', bigSep_sep', ← pointsTo_piecesOf Finset.univ (Ival m d) (by decide) fullShare,
    ← pointsTo_piecesOf Finset.univ (m (tLoc d)) (by decide) fullShare,
    ← bigSep_univ_prod (fun p : Fin 2 × Fin 16 => (oLoc d ↦[tRows p.1 p.2]{fullShare} fo : sProp 𝕄)),
    ← pointsTo_biUnion Finset.univ (ℓ := oLoc d) (fun p : Fin 2 × Fin 16 => tRows p.1 p.2) tRows_disjoint, tRows_cover]

theorem st0_eq (d : Dev nD) :
    (bigSep Finset.univ fun c : Fin ((K (F := F)).nCore 0) => (P m).st 0 d c)
      = iprop((iLoc d ↦{fullShare} Ival m d) ∗ (tLoc d ↦{fullShare} m (tLoc d)) ∗ oLoc d ↦{fullShare} m (oLoc d)) :=
  (bigSep_cores (F := F) (fun c => coreSt m d c (m (oLoc d)))).trans (allSt_eq m d _)
theorem dn0_eq (d : Dev nD) :
    (bigSep Finset.univ fun c : Fin ((K (F := F)).nCore 0) => (P m).dn 0 d c)
      = iprop((iLoc d ↦{fullShare} Ival m d) ∗ (tLoc d ↦{fullShare} m (tLoc d)) ∗ oLoc d ↦{fullShare} Gval m d) :=
  (bigSep_cores (F := F) (fun c => coreSt m d c (Gval m d))).trans (allSt_eq m d _)

/-- What @main leaves the claim: the arguments at their launch contents, the result at its value. -/
abbrev FIN (d : Dev nD) : sProp 𝕄 :=
  iprop((xLoc d ↦{fullShare} m (xLoc d)) ∗ (tLoc d ↦{fullShare} m (tLoc d)) ∗ rLoc d ↦{fullShare} Rval m d)

/-- @main on device `d`'s TensorCore: the first reshape, the call, the second reshape. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, -⟩
  -- the first reshape, over the five arrays
  iapply (wp_hlo_within 𝒱 (SparseCore.T d) none Set.univ (op := opIn) (S := S5) hIn (V := V0 m d)) $$ [Hb Hheld]
  · isplitl [Hb]; · iexact Hb
    iexact Hheld
  iintro ⟨Hb, Hheld⟩
  rw [wp_ret]; imodintro
  ihave Hh := (Entails.of_eq (held_S5 (F := F) d _)) $$ Hheld
  icases Hh with ⟨Hx, Ht, Hi, Ho, Hr⟩
  -- the call
  iapply ((K (F := F)).wp_run (D (F := F)) 𝒱 (EH := EH) (P := P m) κ d 0) $$ [Hst Hi Ht Ho Hb Hx Hr]
  isplitr; · iexact Hctx
  isplitl [Hst]; · iexact Hst
  isplitl [Hi Ht Ho]
  · rw [st0_eq]
    isplitl [Hi]; · iapply (Entails.of_eq (congrArg (fun f => (iLoc d ↦{fullShare} f : sProp 𝕄)) (V1_i m d))); iexact Hi
    isplitl [Ht]; · iapply (Entails.of_eq (congrArg (fun f => (tLoc d ↦{fullShare} f : sProp 𝕄)) (V1_t m d))); iexact Ht
    iapply (Entails.of_eq (congrArg (fun f => (oLoc d ↦{fullShare} f : sProp 𝕄)) (V1_o m d))); iexact Ho
  iintro ⟨Hst, Hdn⟩
  ihave Hdn' := (Entails.of_eq (dn0_eq m d)) $$ Hdn
  icases Hdn' with ⟨Hi, Ht, Ho⟩
  -- the second reshape
  iapply (wp_hlo_within 𝒱 (SparseCore.T d) none Set.univ (op := opOut) (S := S5) hOut (V := V2 m d)) $$ [Hb Hx Ht Hi Ho Hr]
  · isplitl [Hb]; · iexact Hb
    rw [held_S5, V2_x, V2_t, V2_i, V2_o, V2_r]
    isplitl [Hx]; · iapply (Entails.of_eq (congrArg (fun f => (xLoc d ↦{fullShare} f : sProp 𝕄)) (V1_x m d))); iexact Hx
    isplitl [Ht]; · iexact Ht
    isplitl [Hi]; · iexact Hi
    isplitl [Ho]; · iexact Ho
    iapply (Entails.of_eq (congrArg (fun f => (rLoc d ↦{fullShare} f : sProp 𝕄)) (V1_r m d))); iexact Hr
  iintro ⟨Hb, Hheld⟩
  ihave Hh := (Entails.of_eq (held_S5 (F := F) d _)) $$ Hheld
  icases Hh with ⟨Hx, Ht, -, -, Hr⟩
  rw [wp_ret]; imodintro; imodintro
  isplitl [Hst]; · iexact Hst
  isplitl [Hx]; · iapply (Entails.of_eq (congrArg (fun f => (xLoc d ↦{fullShare} f : sProp 𝕄)) (V3_x m d))); iexact Hx
  isplitl [Ht]; · iapply (Entails.of_eq (congrArg (fun f => (tLoc d ↦{fullShare} f : sProp 𝕄)) (V3_t m d))); iexact Ht
  iapply (Entails.of_eq (congrArg (fun f => (rLoc d ↦{fullShare} f : sProp 𝕄)) (V3_r m d))); iexact Hr

def fq (d : Dev nD) (s' : Phys nD τ sig (Elt F)) : Prop :=
  s'.mem.mem (rLoc d) = Rval m d ∧ s'.mem.mem (xLoc d) = m (xLoc d) ∧ s'.mem.mem (tLoc d) = m (tLoc d)

theorem hfin (d : Dev nD) (s' : Phys nD τ sig (Elt F)) : iprop(FIN m d ∗ SI s') ⊢ (⌜fq m d s'⌝ : sProp 𝕄) := by
  iintro ⟨⟨Hx, Ht, Hr⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%h1, HSI, -⟩
  ihave H := (persistent_entails_right (SI_pointsTo_agree (st := s') (ℓ := tLoc d) (I := Finset.univ) (q := fullShare) (f := m (tLoc d)))) $$ [HSI Ht]
  · isplitl [HSI] <;> iassumption
  icases H with ⟨%h2, HSI, -⟩
  ihave H := (SI_pointsTo_agree (st := s') (ℓ := rLoc d) (I := Finset.univ) (q := fullShare) (f := Rval m d)) $$ [HSI Hr]
  · isplitl [HSI] <;> iassumption
  icases H with %h3
  ipureintro
  exact ⟨funext fun i => h3 i (Finset.mem_univ i), funext fun i => h1 i (Finset.mem_univ i), funext fun i => h2 i (Finset.mem_univ i)⟩

/-! ## The program's run -/

def QC : PUnit × MemSt nD τ sig (Elt F) → Prop := fun r => ∀ c : Dev nD,
  r.2.mem (rLoc c) = Cert.Spec.lookup (m (xLoc c)) (m (tLoc c)) ∧ r.2.mem (xLoc c) = m (xLoc c) ∧ r.2.mem (tLoc c) = m (tLoc c)

/-- The result's value is the specification's lookup, every index in range. -/
theorem Rval_eq (hx : ∀ d, Cert.Spec.InRange (m (xLoc d))) (d : Dev nD) : Rval m d = Cert.Spec.lookup (m (xLoc d)) (m (tLoc d)) :=
  result_val (m (xLoc d)) (m (tLoc d)) (hx d)

/-- Every weakly fair execution of the device's threads terminates with the result at the specification's lookup of
    the two arguments' launch contents and the arguments unchanged, every index in range. -/
theorem run_main [∀ e, Nonempty (Elt F e)] (hx : ∀ d, Cert.Spec.InRange (m (xLoc d))) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m facts (fun d => reshaped_inRange (m (xLoc d)) (hx d)))
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m)
    (fun s' h c => ⟨(h c).1.trans (Rval_eq m hx c), (h c).2.1, (h c).2.2⟩)

end Cert.Proof.KB

end
-- ==== Proof.lean ====
/-
  The certificate's claim. The kernel is an embedding lookup on the SparseCores: the index array [16384, 26] is reshaped
  to [32, 104, 128]; each of the thirty-two vector subcores fetches its row of it and, chunk by chunk, gathers the table
  rows its 104 · 128 indices name into its 13312 rows of an output array [425984, 128], which is reshaped to
  [16384, 26, 128]. The reference is `take(table, x, axis = 0)` in fill mode. Under the precondition every index lies
  in [0, 99999], so the kernel's indexed copies name rows of the table and the reference neither wraps an index nor
  fills an entry; both results are then ONE function of the two arguments — entry (b, f, k) is entry k of the table's
  row x[b, f] (`Cert.Spec.lookup`) — and the arguments are written by neither program. The three frames are the two
  programs' runs with the result's value dropped; the idealization rewrote no operation; the algebraic claim names
  that function of the kernel's arguments as the shared result.
-/
import proofs.«204381_g2808908611931_cont_9to1_1564_4_alg».proof.Defs
import proofs.«204381_g2808908611931_cont_9to1_1564_4_alg».proof.Proof.Gen.Kernel
import proofs.«204381_g2808908611931_cont_9to1_1564_4_alg».proof.Proof.Gen.Kernel.Skeleton
import proofs.«204381_g2808908611931_cont_9to1_1564_4_alg».proof.Proof.Gen.KernelIdeal
import proofs.«204381_g2808908611931_cont_9to1_1564_4_alg».proof.Proof.Gen.KernelIdeal.Skeleton
import proofs.«204381_g2808908611931_cont_9to1_1564_4_alg».proof.Proof.Gen.ReferenceIdeal
import proofs.«204381_g2808908611931_cont_9to1_1564_4_alg».proof.Proof.Gen.Pre_input_domain
import proofs.«204381_g2808908611931_cont_9to1_1564_4_alg».proof.Proof.Spec
import proofs.«204381_g2808908611931_cont_9to1_1564_4_alg».proof.Proof.PreRange
import proofs.«204381_g2808908611931_cont_9to1_1564_4_alg».proof.Proof.RefRun
import proofs.«204381_g2808908611931_cont_9to1_1564_4_alg».proof.Proof.IdealLaunch
import proofs.«204381_g2808908611931_cont_9to1_1564_4_alg».proof.Proof.BitsLaunch
import Idealize.ShloMosaic.Adequacy
import Idealize.ShloMosaic.Init

noncomputable section

namespace Cert.Proof

open Idealize.ShloMosaic Idealize.SL.Sem

/-- The word-level kernel's frame: its run with the result's value dropped. -/
theorem frame_Kernel : Cert.frame_Kernel (hKernel := Cert.Kernel.Gen.facts) (hPre_input_domain := Cert.Pre_input_domain.Gen.facts) :=
  fun m g hpre => (θ_run _ _ _).mono (fun _ h c => ⟨(h c).2.1, (h c).2.2⟩)
    (Cert.Proof.KB.run_main (F := Bits) m g (fun d => Cert.Proof.PreRange.inRange_of_fn _ _ (hpre d)))

/-- The same of the kernel read at the ideal instance. -/
theorem frame_KernelIdeal : Cert.frame_KernelIdeal (hKernelIdeal := Cert.KernelIdeal.Gen.facts) (hPre_input_domain := Cert.Pre_input_domain.Gen.facts) :=
  fun m g hpre => (θ_run _ _ _).mono (fun _ h c => ⟨(h c).2.1, (h c).2.2⟩)
    (Cert.Proof.KI.run_main (F := Ideal) m g (fun d => Cert.Proof.PreRange.inRange_of_fn _ _ (hpre d)))

/-- The reference's frame: its run with the result's value dropped. -/
theorem frame_ReferenceIdeal : Cert.frame_ReferenceIdeal (hReferenceIdeal := Cert.ReferenceIdeal.Gen.facts) (hPre_input_domain := Cert.Pre_input_domain.Gen.facts) :=
  fun m g hpre => (θ_run _ _ _).mono (fun _ h c => ⟨(h c).2.1, (h c).2.2⟩) (Cert.Proof.Ref.run m g (Cert.Proof.Ref.inRange_of_pre m hpre))

/-- Kernel and reference agree at the ideal instance: both results are the specification's lookup of the kernel's
    arguments, on which the two memories agree. -/
theorem algebraic : Cert.algebraic_KernelIdeal_ReferenceIdeal (hKernelIdeal := Cert.KernelIdeal.Gen.facts)
    (hReferenceIdeal := Cert.ReferenceIdeal.Gen.facts) (hPre_input_domain := Cert.Pre_input_domain.Gen.facts) := by
  intro m g m' g' hpre hag
  have hx : ∀ d : Dev Cert.KernelIdeal.nD, Cert.Spec.InRange (m ((d.tc : Thread Cert.KernelIdeal.nD Cert.KernelIdeal.τ).loc Cert.KernelIdeal.main_arg0)) :=
    fun d => Cert.Proof.PreRange.inRange_of_fn _ _ (hpre d)
  have hx' : ∀ c : Dev Cert.ReferenceIdeal.nD, Cert.Spec.InRange (m' ((c.tc : Thread Cert.ReferenceIdeal.nD Cert.ReferenceIdeal.τ).loc Cert.ReferenceIdeal.main_arg0)) :=
    fun c => by rw [(hag c).1]; exact hx c
  refine ⟨fun c => Cert.Spec.lookup (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · exact (θ_run _ _ _).mono (fun _ h c => h c) (Cert.Proof.KI.run_main (F := Ideal) m g hx)
  · refine (θ_run _ _ _).mono (fun _ h c => ⟨?_, (h c).2.1, (h c).2.2⟩) (Cert.Proof.Ref.run m' g' hx')
    rw [(h c).1, (hag c).1, (hag c).2]

theorem claim : Cert.Claim := ⟨Cert.Kernel.Gen.facts, Cert.KernelIdeal.Gen.facts, Cert.ReferenceIdeal.Gen.facts, Cert.Pre_input_domain.Gen.facts,
  frame_Kernel, frame_KernelIdeal, frame_ReferenceIdeal, trivial, algebraic⟩

end Cert.Proof

end
